-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 7
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1, .f32⟩
  | .local _ .vmem, ⟨17, _⟩ => ⟨S512x1, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_24 : BitVec 32 := 0#32
  let v44 : BitVec 1 := Scalar.cmpi .ne v43 c0_i32_24
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x1024_S512x1024_1_1_0_0_n_n_wf : DotDims.WF S512x1024 S1024x1024 S512x1024 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S1024x8192 : Shape := ⟨2, ![1024, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Kernel.Region0.lean ====
/-
  The projection call (the first of the two kernel launches): at grid point `t` the body reads a block of 512 token
  rows and both whole weight matrices and stores the two products "block times the transposed matrix" — the query
  rows and the key rows of that block. Stated at the buffer contents `V` the call is entered from: each window's
  block at a point, what the body leaves in the two result buffers, the body's triple, and the proof data of the
  launch with its obligation at a generic point.
-/
import proofs.«102218_j65481071395329_2_alg».proof.Proof.Gen.Kernel.Launch
import proofs.«102218_j65481071395329_2_alg».proof.Proof.Gen.Kernel.Skeleton
import proofs.«102218_j65481071395329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token window's staging buffer holds the point's block of rows, fetched there or not. -/
theorem before_tok_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The first weight window's staging buffer holds the whole matrix at every point (its block index never moves). -/
theorem before_rot_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The second weight window's likewise. -/
theorem before_ent_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rTok : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0

/-! ## What the body leaves in each result buffer -/

/-- The query block: the token block times the transpose of the first matrix, stored whole. -/
def outQ (x0 : Vec F S512x1024 .f32) (x1 : Vec F S1024x1024 .f32) : Vec F S512x1024 .f32 :=
  View.canon [⟨rTok, k0_pay1 (View.ld x0 rTok) (View.ld x1 rMat)⟩]

/-- The key block: the token block times the transpose of the second matrix, stored whole. -/
def outK (x0 : Vec F S512x1024 .f32) (x2 : Vec F S1024x1024 .f32) : Vec F S512x1024 .f32 :=
  View.canon [⟨rTok, k0_pay2 (View.ld x0 rTok) (View.ld x2 rMat)⟩]

/-- One whole-buffer store covers the buffer. -/
theorem cover_whole (p0 : Vec F S512x1024 .f32) (y : S512x1024.Idx) :
    ∃ pc ∈ ([⟨rTok, p0⟩] : List (View.Piece (Elt F) S512x1024 .f32)), y ∈ pc.1.set :=
  View.cover_of_tiled [⟨rTok, p0⟩] S512x1024.size (by rfl) y

/-! ## The body's triple -/

set_option maxHeartbeats 1000000 in
/-- On whole staging buffers, the three inputs' at contents `x0`, `x1`, `x2` and the results' at anything, the body runs
    to its return leaving the inputs as they were and the results at the two products. -/
theorem sound_kernel (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole)
    (x0 : Vec F S512x1024 .f32) (x1 : Vec F S1024x1024 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outQ x0 x1) ∗ owns (c : Thread nD τ) arg5 fullShare (outK x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  iexists _; isplitr
  swap; · iexact H4
  ipureintro
  exact View.read_writes_eq_canon _ _ _ (cover_whole _)

/-! ## The launch's proof data -/

/-- The proof data of the projection call on core `c`: the arrays as the call finds them; after the body at point
    `t` each input's buffer at its block and the two results' at the products of the blocks; the class invariant
    (the other kernels' buffers and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outQ (blk V c 0 t) (blk V c 1 t)
    | ⟨4, _⟩ => outK (blk V c 0 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_tok (c : Dev nD) (t : Fin cfg0.N) : (dat V c).after 0 t = blk V c 0 t := by dsimp only [dat]
theorem after_rot (c : Dev nD) (t : Fin cfg0.N) : (dat V c).after 1 t = blk V c 1 t := by dsimp only [dat]
theorem after_ent (c : Dev nD) (t : Fin cfg0.N) : (dat V c).after 2 t = blk V c 2 t := by dsimp only [dat]
theorem after_q (c : Dev nD) (t : Fin cfg0.N) : (dat V c).after 3 t = outQ (blk V c 0 t) (blk V c 1 t) := by dsimp only [dat]
theorem after_k (c : Dev nD) (t : Fin cfg0.N) : (dat V c).after 4 t = outK (blk V c 0 t) (blk V c 2 t) := by dsimp only [dat]

theorem before_tok (c : Dev nD) (t : Fin cfg0.N) (d) : (dat V c).before 0 t d = blk V c 0 t :=
  before_tok_of V (dat V c) (A_eq V c 0) (after_tok V c) t d
theorem before_rot (c : Dev nD) (t : Fin cfg0.N) (d) : (dat V c).before 1 t d = blk V c 1 t :=
  before_rot_of V (dat V c) (A_eq V c 1) (after_rot V c) t d
theorem before_ent (c : Dev nD) (t : Fin cfg0.N) (d) : (dat V c).before 2 t d = blk V c 2 t :=
  before_ent_of V (dat V c) (A_eq V c 2) (after_ent V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_tok, before_rot, before_ent]
  rw [show (dat V c).Φ t.succ = (dat V c).Φ t.castSucc from rfl,
    show (dat V c).owesAt () t.succ = (dat V c).owesAt () t.castSucc from rfl,
    after_tok, after_rot, after_ent, after_q, after_k]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.Kernel.FlashKit.lean ====
/-
  The attention call (the second kernel launch), what its runs share. The grid is 16 query blocks by 16 key blocks;
  point `t` works on query block `t / 16` against key block `t % 16`. The body keeps three scratch buffers between
  points: the running row maximum, the running row sum and the running weighted sum of value rows. It resets them at
  a query block's first key block and divides the weighted sum by the row sum into the result block at its last.
  Here: each window's block at a point, the two branch conditions in closed form, where the result window is idle,
  the staging and scratch buffers' names, and the launch's class invariant split into the three scratch buffers and
  the rest.
-/
import proofs.«102218_j65481071395329_2_alg».proof.Proof.Gen.Kernel.Launch
import proofs.«102218_j65481071395329_2_alg».proof.Proof.Gen.Kernel.Skeleton
import proofs.«102218_j65481071395329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, fetched there or not (it is fetched at a query
    block's first key block only, and its index does not move in between). -/
theorem before_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The key window's staging buffer holds the point's key block. -/
theorem before_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The value window's staging buffer holds the point's block of value rows. -/
theorem before_v_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two branch conditions -/

/-- "This is the query block's first key block": the body's first conditional, from the grid coordinates. -/
abbrev condFirst (i : grid1.Coords) : Prop := (Scalar.cmpi .ne (Scalar.extui (Scalar.cmpi .eq (BitVec.ofNat 32 (i 1).val) 0#32)) 0#32) = 1#1
/-- It holds exactly at the points that are 0 modulo 16. -/
theorem hcondFirst : ∀ t : Fin cfg1.N, condFirst (grid1.coords t) ↔ t.val % 16 = 0 :=
  (by decide +kernel : ∀ t : Fin grid1.N, condFirst (grid1.coords t) ↔ t.val % 16 = 0)

/-- "This is the query block's last key block": the body's second conditional. -/
abbrev condLast (i : grid1.Coords) : Prop := k1_cond2 i = 1#1
/-- It holds exactly at the points that are 15 modulo 16. -/
theorem hcondLast : ∀ t : Fin cfg1.N, condLast (grid1.coords t) ↔ t.val % 16 = 15 :=
  (by decide +kernel : ∀ t : Fin grid1.N, condLast (grid1.coords t) ↔ t.val % 16 = 15)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Off a query block's last key block the body stores nothing into the result window, -/
theorem idle_out : ∀ t : Fin cfg1.N, ¬condLast (grid1.coords t) → cfg1.idle 3 (grid1.coords t) = true := by decide +kernel
/-- and the pipeline does not write its block back there; -/
theorem noFlush_out : ∀ t : Fin cfg1.N, ¬condLast (grid1.coords t) → (cfg1.win 3).flush t = false := by decide +kernel
/-- at the last key block the window is live. -/
theorem live_out : ∀ t : Fin cfg1.N, condLast (grid1.coords t) → cfg1.idle 3 (grid1.coords t) = false := by decide +kernel

/-! ## The staging and scratch buffers -/

/-- One staging buffer of the result window, through which its contents are stated. -/
abbrev VOut : View sig .tc .vmem S512x1024 .f32 := (Memref.whole cc1_stg3_0 : Memref sig .tc .vmem S512x1024 .f32).view
/-- Each window's current staging buffer at point `t`, as the pipeline passes it, and its wholeness. -/
abbrev msQ (t : Fin cfg1.N) : Memref sig .tc .vmem S512x1024 .f32 := win1_0.stage (cfg1.slots t 0)
abbrev hsQ (t : Fin cfg1.N) : (msQ t).IsWhole := hstage1_0 ((cfg1.slots t 0).cast nbuf1_0)
abbrev msK (t : Fin cfg1.N) : Memref sig .tc .vmem S512x1024 .f32 := win1_1.stage (cfg1.slots t 1)
abbrev hsK (t : Fin cfg1.N) : (msK t).IsWhole := hstage1_1 ((cfg1.slots t 1).cast nbuf1_1)
abbrev msV (t : Fin cfg1.N) : Memref sig .tc .vmem S512x1024 .bf16 := win1_2.stage (cfg1.slots t 2)
abbrev hsV (t : Fin cfg1.N) : (msV t).IsWhole := hstage1_2 ((cfg1.slots t 2).cast nbuf1_2)
abbrev msO (t : Fin cfg1.N) : Memref sig .tc .vmem S512x1024 .f32 := win1_3.stage (cfg1.slots t 3)
abbrev hsO (t : Fin cfg1.N) : (msO t).IsWhole := hstage1_3 ((cfg1.slots t 3).cast nbuf1_3)
/-- The scratch buffers: the running maximum, the running sum, the running weighted sum. -/
abbrev scMax : Memref sig .tc .vmem S512x1 .f32 := Memref.whole cc1_scratch0
abbrev scSum : Memref sig .tc .vmem S512x1 .f32 := Memref.whole cc1_scratch1
abbrev scAcc : Memref sig .tc .vmem S512x1024 .f32 := Memref.whole cc1_scratch2
abbrev VMax : View sig .tc .vmem S512x1 .f32 := scMax.view
abbrev VSum : View sig .tc .vmem S512x1 .f32 := scSum.view
abbrev VAcc : View sig .tc .vmem S512x1024 .f32 := scAcc.view

/-! ## The class invariant, split -/

/-- The staging buffers of the projection call, each whole at some contents: scoped buffers this call never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class invariant hands out the three scratch buffers at some contents, beside the rest. -/
theorem PhiA_out (c : Dev nD) :
    (Pipeline.ΦA spec1 c : sProp 𝕄)
      ⊢ iprop(iprop((∃ d, owns (c : Thread nD τ) scMax fullShare d) ∗ (∃ d, owns (c : Thread nD τ) scSum fullShare d) ∗ (∃ d, owns (c : Thread nD τ) scAcc fullShare d))
          ∗ others c ∗ (∃ r, prngReg c r)) := by
  unfold Pipeline.ΦA others; rw [scopedRest1_eq]; simp only [scMax, scSum, scAcc, owns_whole]
  iintro ⟨⟨H1, H2, H3, H4, H5, H6, H7, H8, HS0, HS1, HS2⟩, Hg⟩
  isplitl [HS0 HS1 HS2]
  · isplitl [HS0]; · iexact HS0
    isplitl [HS1]; · iexact HS1
    iexact HS2
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes them back. -/
theorem PhiA_in (c : Dev nD) :
    iprop(iprop((∃ d, owns (c : Thread nD τ) scMax fullShare d) ∗ (∃ d, owns (c : Thread nD τ) scSum fullShare d) ∗ (∃ d, owns (c : Thread nD τ) scAcc fullShare d))
          ∗ others c ∗ (∃ r, prngReg c r))
      ⊢ (Pipeline.ΦA spec1 c : sProp 𝕄) := by
  unfold Pipeline.ΦA others; rw [scopedRest1_eq]; simp only [scMax, scSum, scAcc, owns_whole]
  iintro ⟨⟨HS0, HS1, HS2⟩, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact HS2
  iexact Hg

end Cert.Kernel.Flash

end
-- ==== Proof.Kernel.FlashRunFirst.lean ====
/-
  The attention body run at a query block's FIRST key block: it resets the three scratch buffers (−∞, 0, 0), then folds the block in; the result window is left untouched.
-/
import proofs.«102218_j65481071395329_2_alg».proof.Proof.Kernel.FlashKit

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), at a first key block, with the
    proof that on whole buffers — the query, key and value blocks at `x0`, `x1`, `x2`, the result buffer at `xi`,
    the scratch at anything — the body runs to its return, the inputs and the result buffer as they were and each
    scratch buffer with its pieces written. -/
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) :
    Σ' (LM : List (View.Piece (Elt F) S512x1 .f32)) (LS : List (View.Piece (Elt F) S512x1 .f32)), { LA : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f5, %hf5, H5⟩, ⟨%dm, %fm, -, HM⟩, ⟨%ds, %fs, -, HS⟩, ⟨%da, %fa, -, HA⟩, Hk⟩
    obtain rfl := harg2.eq_unread hf0; obtain rfl := harg3.eq_unread hf1; obtain rfl := harg4.eq_unread hf2; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [HM]; · iexists _; iexact HM
    isplitl [HS]; · iexists _; iexact HS
    iexists _; iexact HA

end Cert.Kernel.Flash

end
-- ==== Proof.Kernel.FlashRunMid.lean ====
/-
  The attention body run at a MIDDLE key block of a query block: it folds the block into the three scratch buffers, which it finds at what the point before left; the result window is left untouched.
-/
import proofs.«102218_j65481071395329_2_alg».proof.Proof.Kernel.FlashRunFirst

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), at a middle key block, the
    scratch found at `xm`, `xs`, `xa`. -/
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16)
    (xm : Vec F S512x1 .f32) (xs : Vec F S512x1 .f32) (xa : Vec F S512x1024 .f32) :
    Σ' (LM : List (View.Piece (Elt F) S512x1 .f32)) (LS : List (View.Piece (Elt F) S512x1 .f32)), { LA : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi
            ∗ owns (c : Thread nD τ) arg6 fullShare xm ∗ owns (c : Thread nD τ) arg7 fullShare xs ∗ owns (c : Thread nD τ) arg8 fullShare xa
            ∗ (iprop(owns (c : Thread nD τ) arg2 fullShare x0 ∗ owns (c : Thread nD τ) arg3 fullShare x1 ∗ owns (c : Thread nD τ) arg4 fullShare x2 ∗ owns (c : Thread nD τ) arg5 fullShare xi
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f5, %hf5, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2; obtain rfl := harg5.eq_unread hf5
    obtain rfl := harg6.eq_unread hfm; obtain rfl := harg7.eq_unread hfs; obtain rfl := harg8.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [HM]; · iexists _; iexact HM
    isplitl [HS]; · iexists _; iexact HS
    iexists _; iexact HA

end Cert.Kernel.Flash

end
-- ==== Proof.Kernel.FlashRunLast.lean ====
/-
  The attention body run at a query block's LAST key block: it folds the block into the three scratch buffers and stores the weighted sum divided by the row sum into the result window.
-/
import proofs.«102218_j65481071395329_2_alg».proof.Proof.Kernel.FlashRunMid

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result buffer and the three scratch buffers, as pieces (last first), at a last
    key block, the scratch found at `xm`, `xs`, `xa`, the result buffer at anything. -/
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16)
    (xm : Vec F S512x1 .f32) (xs : Vec F S512x1 .f32) (xa : Vec F S512x1024 .f32) :
    Σ' (LO : List (View.Piece (Elt F) S512x1024 .f32)) (LM : List (View.Piece (Elt F) S512x1 .f32)) (LS : List (View.Piece (Elt F) S512x1 .f32)), { LA : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xm ∗ owns (c : Thread nD τ) arg7 fullShare xs ∗ owns (c : Thread nD τ) arg8 fullShare xa
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d5, %f5, -, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg6.eq_unread hfm; obtain rfl := harg7.eq_unread hfs; obtain rfl := harg8.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [HM]; · iexists _; iexact HM
    isplitl [HS]; · iexists _; iexact HS
    iexists _; iexact HA

end Cert.Kernel.Flash

end
-- ==== Proof.Kernel.Flash.lean ====
/-
  The attention call's accumulation. What the result buffer and the three scratch buffers hold after each grid
  point — a recursion over the points: at a query block's first key block the scratch is reset and the block folded
  in; at the others the block is folded into what the point before left; at the last the quotient "weighted sum over
  row sum" is stored into the result buffer —, the launch's proof data over it (the invariant carries the scratch's
  contents from point to point), and the body obligation at a generic point.
-/
import proofs.«102218_j65481071395329_2_alg».proof.Proof.Kernel.FlashRunLast

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's run leaves, buffer by buffer -/

/-- The pieces a first key block's run stores into the running maximum cover it. -/
theorem coverFirst_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) (y : S512x1.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL (runFirst c i arg2 harg2 arg3 harg3 arg4 harg4 arg5 harg5 arg6 harg6 arg7 harg7 arg8 harg8 hc0 hc1 x0 x1 x2).1 S512x1.size (by sl_kernel_rfl) y

/-- What a first key block's run leaves in the running maximum. -/
def outFirst_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) : Vec F S512x1 .f32 :=
  View.canon (runFirst c i arg2 harg2 arg3 harg3 arg4 harg4 arg5 harg5 arg6 harg6 arg7 harg7 arg8 harg8 hc0 hc1 x0 x1 x2).1

/-- The pieces a first key block's run stores into the running sum cover it. -/
theorem coverFirst_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) (y : S512x1.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL (runFirst c i arg2 harg2 arg3 harg3 arg4 harg4 arg5 harg5 arg6 harg6 arg7 harg7 arg8 harg8 hc0 hc1 x0 x1 x2).2.1 S512x1.size (by sl_kernel_rfl) y

/-- What a first key block's run leaves in the running sum. -/
def outFirst_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) : Vec F S512x1 .f32 :=
  View.canon (runFirst c i arg2 harg2 arg3 harg3 arg4 harg4 arg5 harg5 arg6 harg6 arg7 harg7 arg8 harg8 hc0 hc1 x0 x1 x2).2.1

/-- The pieces a first key block's run stores into the running weighted sum cover it. -/
theorem coverFirst_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) (y : S512x1024.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S512x1024.size (by sl_kernel_rfl) y

/-- What a first key block's run leaves in the running weighted sum. -/
def outFirst_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) : Vec F S512x1024 .f32 :=
  View.canon (runFirst c i arg2 harg2 arg3 harg3 arg4 harg4 arg5 harg5 arg6 harg6 arg7 harg7 arg8 harg8 hc0 hc1 x0 x1 x2).2.2.1

/-- The pieces a mid key block's run stores into the running maximum cover it. -/
theorem coverMid_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runMid c i arg2 harg2 arg3 harg3 arg4 harg4 arg5 harg5 arg6 harg6 arg7 harg7 arg8 harg8 hc0 hc1 x0 x1 x2 xm xs xa).1, y ∈ pc.1.set :=
  View.cover_of_tiledL (runMid c i arg2 harg2 arg3 harg3 arg4 harg4 arg5 harg5 arg6 harg6 arg7 harg7 arg8 harg8 hc0 hc1 x0 x1 x2 xm xs xa).1 S512x1.size (by sl_kernel_rfl) y

/-- What a mid key block's run leaves in the running maximum. -/
def outMid_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runMid c i arg2 harg2 arg3 harg3 arg4 harg4 arg5 harg5 arg6 harg6 arg7 harg7 arg8 harg8 hc0 hc1 x0 x1 x2 xm xs xa).1

/-- The pieces a mid key block's run stores into the running sum cover it. -/
theorem coverMid_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runMid c i arg2 harg2 arg3 harg3 arg4 harg4 arg5 harg5 arg6 harg6 arg7 harg7 arg8 harg8 hc0 hc1 x0 x1 x2 xm xs xa).2.1, y ∈ pc.1.set :=
  View.cover_of_tiledL (runMid c i arg2 harg2 arg3 harg3 arg4 harg4 arg5 harg5 arg6 harg6 arg7 harg7 arg8 harg8 hc0 hc1 x0 x1 x2 xm xs xa).2.1 S512x1.size (by sl_kernel_rfl) y

/-- What a mid key block's run leaves in the running sum. -/
def outMid_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runMid c i arg2 harg2 arg3 harg3 arg4 harg4 arg5 harg5 arg6 harg6 arg7 harg7 arg8 harg8 hc0 hc1 x0 x1 x2 xm xs xa).2.1

/-- The pieces a mid key block's run stores into the running weighted sum cover it. -/
theorem coverMid_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) (y : S512x1024.Idx) :
    ∃ pc ∈ (runMid c i arg2 harg2 arg3 harg3 arg4 harg4 arg5 harg5 arg6 harg6 arg7 harg7 arg8 harg8 hc0 hc1 x0 x1 x2 xm xs xa).2.2.1, y ∈ pc.1.set :=
  View.cover_of_tiledL (runMid c i arg2 harg2 arg3 harg3 arg4 harg4 arg5 harg5 arg6 harg6 arg7 harg7 arg8 harg8 hc0 hc1 x0 x1 x2 xm xs xa).2.2.1 S512x1024.size (by sl_kernel_rfl) y

/-- What a mid key block's run leaves in the running weighted sum. -/
def outMid_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1024 .f32 :=
  View.canon (runMid c i arg2 harg2 arg3 harg3 arg4 harg4 arg5 harg5 arg6 harg6 arg7 harg7 arg8 harg8 hc0 hc1 x0 x1 x2 xm xs xa).2.2.1

/-- The pieces a last key block's run stores into the result buffer cover it. -/
theorem coverLast_O (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1024.Idx) :
    ∃ pc ∈ (runLast c i arg2 harg2 arg3 harg3 arg4 harg4 arg5 harg5 arg6 harg6 arg7 harg7 arg8 harg8 hc0 hc1 x0 x1 x2 xm xs xa).1, y ∈ pc.1.set :=
  View.cover_of_tiledL (runLast c i arg2 harg2 arg3 harg3 arg4 harg4 arg5 harg5 arg6 harg6 arg7 harg7 arg8 harg8 hc0 hc1 x0 x1 x2 xm xs xa).1 S512x1024.size (by sl_kernel_rfl) y

/-- What a last key block's run leaves in the result buffer. -/
def outLast_O (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1024 .f32 :=
  View.canon (runLast c i arg2 harg2 arg3 harg3 arg4 harg4 arg5 harg5 arg6 harg6 arg7 harg7 arg8 harg8 hc0 hc1 x0 x1 x2 xm xs xa).1

/-- The pieces a last key block's run stores into the running maximum cover it. -/
theorem coverLast_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runLast c i arg2 harg2 arg3 harg3 arg4 harg4 arg5 harg5 arg6 harg6 arg7 harg7 arg8 harg8 hc0 hc1 x0 x1 x2 xm xs xa).2.1, y ∈ pc.1.set :=
  View.cover_of_tiledL (runLast c i arg2 harg2 arg3 harg3 arg4 harg4 arg5 harg5 arg6 harg6 arg7 harg7 arg8 harg8 hc0 hc1 x0 x1 x2 xm xs xa).2.1 S512x1.size (by sl_kernel_rfl) y

/-- What a last key block's run leaves in the running maximum. -/
def outLast_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runLast c i arg2 harg2 arg3 harg3 arg4 harg4 arg5 harg5 arg6 harg6 arg7 harg7 arg8 harg8 hc0 hc1 x0 x1 x2 xm xs xa).2.1

/-- The pieces a last key block's run stores into the running sum cover it. -/
theorem coverLast_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runLast c i arg2 harg2 arg3 harg3 arg4 harg4 arg5 harg5 arg6 harg6 arg7 harg7 arg8 harg8 hc0 hc1 x0 x1 x2 xm xs xa).2.2.1, y ∈ pc.1.set :=
  View.cover_of_tiledL (runLast c i arg2 harg2 arg3 harg3 arg4 harg4 arg5 harg5 arg6 harg6 arg7 harg7 arg8 harg8 hc0 hc1 x0 x1 x2 xm xs xa).2.2.1 S512x1.size (by sl_kernel_rfl) y

/-- What a last key block's run leaves in the running sum. -/
def outLast_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runLast c i arg2 harg2 arg3 harg3 arg4 harg4 arg5 harg5 arg6 harg6 arg7 harg7 arg8 harg8 hc0 hc1 x0 x1 x2 xm xs xa).2.2.1

/-- The pieces a last key block's run stores into the running weighted sum cover it. -/
theorem coverLast_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1024.Idx) :
    ∃ pc ∈ (runLast c i arg2 harg2 arg3 harg3 arg4 harg4 arg5 harg5 arg6 harg6 arg7 harg7 arg8 harg8 hc0 hc1 x0 x1 x2 xm xs xa).2.2.2.1, y ∈ pc.1.set :=
  View.cover_of_tiledL (runLast c i arg2 harg2 arg3 harg3 arg4 harg4 arg5 harg5 arg6 harg6 arg7 harg7 arg8 harg8 hc0 hc1 x0 x1 x2 xm xs xa).2.2.2.1 S512x1024.size (by sl_kernel_rfl) y

/-- What a last key block's run leaves in the running weighted sum. -/
def outLast_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1024 .f32 :=
  View.canon (runLast c i arg2 harg2 arg3 harg3 arg4 harg4 arg5 harg5 arg6 harg6 arg7 harg7 arg8 harg8 hc0 hc1 x0 x1 x2 xm xs xa).2.2.2.1

/-! ## The accumulation, point by point -/

/-- The result buffer's and the three scratch buffers' contents after a point. -/
abbrev St (F : FTy → Type) [FloatOps F] : Type := Vec F S512x1024 .f32 × Vec F S512x1 .f32 × Vec F S512x1 .f32 × Vec F S512x1024 .f32

/-- Where the body stores nothing into the result buffer its contents are not consulted: a placeholder. -/
def idleOut : Vec F S512x1024 .f32 := View.canon ([] : List (View.Piece (Elt F) S512x1024 .f32))

/-- After a query block's first key block. -/
def firstState (c : Dev nD) (t : Fin cfg1.N) (h0 : t.val % 16 = 0) : St F :=
  (idleOut,
   outFirst_M c (grid1.coords t) (msQ t) (hsQ t) (msK t) (hsK t) (msV t) (hsV t) (msO t) (hsO t) scMax (Memref.isWhole_whole _) scSum (Memref.isWhole_whole _) scAcc (Memref.isWhole_whole _) ((hcondFirst t).mpr h0) (fun h => by have := (hcondLast t).mp h; omega) (blk V c 0 t) (blk V c 1 t) (blk V c 2 t),
   outFirst_S c (grid1.coords t) (msQ t) (hsQ t) (msK t) (hsK t) (msV t) (hsV t) (msO t) (hsO t) scMax (Memref.isWhole_whole _) scSum (Memref.isWhole_whole _) scAcc (Memref.isWhole_whole _) ((hcondFirst t).mpr h0) (fun h => by have := (hcondLast t).mp h; omega) (blk V c 0 t) (blk V c 1 t) (blk V c 2 t),
   outFirst_A c (grid1.coords t) (msQ t) (hsQ t) (msK t) (hsK t) (msV t) (hsV t) (msO t) (hsO t) scMax (Memref.isWhole_whole _) scSum (Memref.isWhole_whole _) scAcc (Memref.isWhole_whole _) ((hcondFirst t).mpr h0) (fun h => by have := (hcondLast t).mp h; omega) (blk V c 0 t) (blk V c 1 t) (blk V c 2 t))

/-- After a middle key block, from what the point before left. -/
def midState (c : Dev nD) (t : Fin cfg1.N) (h0 : ¬t.val % 16 = 0) (h1 : ¬t.val % 16 = 15) (prev : St F) : St F :=
  (idleOut,
   outMid_M c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) (fun h => h1 ((hcondLast t).mp h)) (blk V c 0 t) (blk V c 1 t) (blk V c 2 t) prev.2.1 prev.2.2.1 prev.2.2.2,
   outMid_S c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) (fun h => h1 ((hcondLast t).mp h)) (blk V c 0 t) (blk V c 1 t) (blk V c 2 t) prev.2.1 prev.2.2.1 prev.2.2.2,
   outMid_A c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) (fun h => h1 ((hcondLast t).mp h)) (blk V c 0 t) (blk V c 1 t) (blk V c 2 t) prev.2.1 prev.2.2.1 prev.2.2.2)

/-- After a query block's last key block, from what the point before left. -/
def lastState (c : Dev nD) (t : Fin cfg1.N) (h0 : ¬t.val % 16 = 0) (h1 : t.val % 16 = 15) (prev : St F) : St F :=
  (outLast_O c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2,
   outLast_M c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2,
   outLast_S c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2,
   outLast_A c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2)

/-- THE ACCUMULATION: the four buffers after the body at position `n`. -/
def outsAt (c : Dev nD) : (n : ℕ) → n < cfg1.N → St F
  | 0, hn => firstState V c ⟨0, hn⟩ (Nat.zero_mod _)
  | n + 1, hn =>
    if h0 : (n + 1) % 16 = 0 then firstState V c ⟨n + 1, hn⟩ h0
    else if h1 : (n + 1) % 16 = 15 then lastState V c ⟨n + 1, hn⟩ h0 h1 (outsAt c n (Nat.lt_of_succ_lt hn))
    else midState V c ⟨n + 1, hn⟩ h0 h1 (outsAt c n (Nat.lt_of_succ_lt hn))

theorem outsAt_first (c : Dev nD) (t : Fin cfg1.N) (h0 : t.val % 16 = 0) :
    outsAt V c t.val t.isLt = firstState V c t h0 := by
  obtain ⟨n, hn⟩ := t
  cases n with
  | zero => rfl
  | succ n => exact dif_pos h0

theorem outsAt_mid (c : Dev nD) (t : Fin cfg1.N) (h0 : ¬t.val % 16 = 0) (h1 : ¬t.val % 16 = 15) :
    outsAt V c t.val t.isLt = midState V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt_last (c : Dev nD) (t : Fin cfg1.N) (h0 : ¬t.val % 16 = 0) (h1 : t.val % 16 = 15) :
    outsAt V c t.val t.isLt = lastState V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant: the scratch buffers at what the point before left -/

/-- What rides beside the scratch buffers: the other call's staging buffers and the generator register. -/
abbrev rest (c : Dev nD) : sProp 𝕄 := iprop(others c ∗ (∃ r, prngReg c r))

/-- Before position `n`: before the first point the class invariant (every scratch at anything); afterwards the three
    scratch buffers at what the point before left. -/
def PhiS (c : Dev nD) : (n : ℕ) → n ≤ cfg1.N → sProp 𝕄
  | 0, _ => Pipeline.ΦA spec1 c
  | n + 1, hn => iprop(iprop(owns (c : Thread nD τ) scMax fullShare (outsAt V c n hn).2.1
      ∗ owns (c : Thread nD τ) scSum fullShare (outsAt V c n hn).2.2.1
      ∗ owns (c : Thread nD τ) scAcc fullShare (outsAt V c n hn).2.2.2) ∗ rest c)

theorem PhiS_succ (c : Dev nD) (n : ℕ) (hn : n < cfg1.N) :
    PhiS V c (n + 1) hn = iprop(iprop(owns (c : Thread nD τ) scMax fullShare (outsAt V c n hn).2.1
      ∗ owns (c : Thread nD τ) scSum fullShare (outsAt V c n hn).2.2.1
      ∗ owns (c : Thread nD τ) scAcc fullShare (outsAt V c n hn).2.2.2) ∗ rest c) := rfl

theorem PhiS_pos (c : Dev nD) (n : ℕ) (h : n ≤ cfg1.N) (hz : n ≠ 0) :
    PhiS V c n h = iprop(iprop(owns (c : Thread nD τ) scMax fullShare (outsAt V c (n - 1) (by omega)).2.1
      ∗ owns (c : Thread nD τ) scSum fullShare (outsAt V c (n - 1) (by omega)).2.2.1
      ∗ owns (c : Thread nD τ) scAcc fullShare (outsAt V c (n - 1) (by omega)).2.2.2) ∗ rest c) := by
  cases n with
  | zero => exact absurd rfl hz
  | succ n => rfl

/-- At any position the invariant hands out the three scratch buffers at SOME contents, beside the rest. -/
theorem PhiS_weak (c : Dev nD) (n : ℕ) (h : n ≤ cfg1.N) :
    PhiS V c n h ⊢ iprop(iprop((∃ d, owns (c : Thread nD τ) scMax fullShare d) ∗ (∃ d, owns (c : Thread nD τ) scSum fullShare d) ∗ (∃ d, owns (c : Thread nD τ) scAcc fullShare d)) ∗ rest c) := by
  cases n with
  | zero => exact PhiA_out c
  | succ n =>
    rw [PhiS_succ]
    iintro ⟨⟨HM, HS, HA⟩, Hr⟩
    isplitl [HM HS HA]
    · isplitl [HM]; · iexists _; iexact HM
      isplitl [HS]; · iexists _; iexact HS
      iexists _; iexact HA
    iexact Hr

/-! ## The launch's proof data -/

/-- The proof data of the attention call on core `c`: the arrays as the call finds them; after the body at point `t`
    each input's buffer at its block and the result's at the accumulation's first component; the invariant the
    scratch's contents from point to point; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_v (c : Dev nD) (t : Fin cfg1.N) : (dat V c).after 2 t = blk V c 2 t := by dsimp only [dat]
theorem after_out (c : Dev nD) (t : Fin cfg1.N) : (dat V c).after 3 t = (outsAt V c t.val t.isLt).1 := by dsimp only [dat]

theorem before_q (c : Dev nD) (t : Fin cfg1.N) (d) : (dat V c).before 0 t d = blk V c 0 t :=
  before_q_of V (dat V c) (A_eq V c 0) (after_q V c) t d
theorem before_k (c : Dev nD) (t : Fin cfg1.N) (d) : (dat V c).before 1 t d = blk V c 1 t :=
  before_k_of V (dat V c) (A_eq V c 1) (after_k V c) t d
theorem before_v (c : Dev nD) (t : Fin cfg1.N) (d) : (dat V c).before 2 t d = blk V c 2 t :=
  before_v_of V (dat V c) (A_eq V c 2) (after_v V c) t d

/-- An input window's buffer is handed back at its block. -/
theorem leaves_q (c : Dev nD) (t : Fin cfg1.N) : (dat V c).leavesExact 0 t = owns (c : Thread nD τ) (msQ t) fullShare (blk V c 0 t) := by
  unfold Dat.leavesExact; rw [live_q t, after_q]
theorem leaves_k (c : Dev nD) (t : Fin cfg1.N) : (dat V c).leavesExact 1 t = owns (c : Thread nD τ) (msK t) fullShare (blk V c 1 t) := by
  unfold Dat.leavesExact; rw [live_k t, after_k]
theorem leaves_v (c : Dev nD) (t : Fin cfg1.N) : (dat V c).leavesExact 2 t = owns (c : Thread nD τ) (msV t) fullShare (blk V c 2 t) := by
  unfold Dat.leavesExact; rw [live_v t, after_v]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (msQ t) fullShare ((dat V c).before 0 t d))
    ∗ (∃ d, owns (c : Thread nD τ) (msK t) fullShare ((dat V c).before 1 t d))
    ∗ (∃ d, owns (c : Thread nD τ) (msV t) fullShare ((dat V c).before 2 t d))
    ∗ (∃ d, owns (c : Thread nD τ) (msO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the point's position among its query block's key
    blocks says which run applies; the invariant hands the run the scratch at what the point before left (at anything
    where the run resets it) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).owesAt () t.succ = (dat V c).owesAt () t.castSucc from rfl]
  rw [show (dat V c).Φ t.succ = PhiS V c (t.val + 1) t.isLt from rfl, PhiS_succ]
  rw [leaves_q, leaves_k, leaves_v, PhiS_castSucc V c t]
  have hN : t.val < 256 := lt_of_lt_of_eq t.isLt (show cfg1.N = 256 from N_1)
  by_cases h0 : t.val % 16 = 0
  · have hc0 : condFirst (grid1.coords t) := (hcondFirst t).mpr h0
    have hc1 : ¬condLast (grid1.coords t) := fun h => by have := (hcondLast t).mp h; omega
    rw [Dat.leavesExact_idle (dat V c) 3 t (idle_out t hc1) (noFlush_out t hc1)]
    rw [outsAt_first V c t h0]
    unfold firstState outFirst_M outFirst_S outFirst_A; (try dsimp only)
    iintro ⟨HΦ, Ho, ⟨%d0, H0⟩, ⟨%d1, H1⟩, ⟨%d2, H2⟩, ⟨%d3, H3⟩⟩
    ihave HΦ' := (PhiS_weak V c _ _) $$ HΦ
    icases HΦ' with ⟨⟨HM, HS, HA⟩, Hr⟩
    iapply ((runFirst c (grid1.coords t) (msQ t) (hsQ t) (msK t) (hsK t) (msV t) (hsV t) (msO t) (hsO t) scMax (Memref.isWhole_whole _) scSum (Memref.isWhole_whole _) scAcc (Memref.isWhole_whole _) hc0 hc1 (blk V c 0 t) (blk V c 1 t) (blk V c 2 t)).2.2.2 _ Set.univ _)
    isplitl [H0]; · iexact H0
    isplitl [H1]; · iexact H1
    isplitl [H2]; · iexact H2
    isplitl [H3]; · iexact H3
    isplitl [HM]; · iexact HM
    isplitl [HS]; · iexact HS
    isplitl [HA]; · iexact HA
    iintro ⟨H0, H1, H2, H3, ⟨%em, HM⟩, ⟨%es, HS⟩, ⟨%ea, HA⟩⟩
    isplitl [HM HS HA Hr]
    · isplitl [HM HS HA]
      · isplitl [HM]
        · unfold owns; iexists _; isplitr
          swap; · iexact HM
          ipureintro; exact View.read_writes_eq_canon _ _ _ (coverFirst_M c _ _ _ _ _ _ _ _ _ _ _ _ _ _ _ _ _ _ _ _)
        isplitl [HS]
        · unfold owns; iexists _; isplitr
          swap; · iexact HS
          ipureintro; exact View.read_writes_eq_canon _ _ _ (coverFirst_S c _ _ _ _ _ _ _ _ _ _ _ _ _ _ _ _ _ _ _ _)
        unfold owns; iexists _; isplitr
        swap; · iexact HA
        ipureintro; exact View.read_writes_eq_canon _ _ _ (coverFirst_A c _ _ _ _ _ _ _ _ _ _ _ _ _ _ _ _ _ _ _ _)
      iexact Hr
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬condFirst (grid1.coords t) := fun h => h0 ((hcondFirst t).mp h)
    rw [PhiS_pos V c _ _ hz]
    by_cases h1 : t.val % 16 = 15
    · have hc1 : condLast (grid1.coords t) := (hcondLast t).mpr h1
      rw [show (dat V c).leavesExact 3 t = owns (c : Thread nD τ) (msO t) fullShare ((dat V c).after 3 t) from by
        unfold Dat.leavesExact; rw [live_out t hc1], after_out]
      rw [outsAt_last V c t h0 h1]
      unfold lastState outLast_O outLast_M outLast_S outLast_A; (try dsimp only)
      iintro ⟨⟨⟨HM, HS, HA⟩, Hr⟩, Ho, ⟨%d0, H0⟩, ⟨%d1, H1⟩, ⟨%d2, H2⟩, ⟨%d3, H3⟩⟩
      iapply ((runLast c (grid1.coords t) (msQ t) (hsQ t) (msK t) (hsK t) (msV t) (hsV t) (msO t) (hsO t) scMax (Memref.isWhole_whole _) scSum (Memref.isWhole_whole _) scAcc (Memref.isWhole_whole _) hc0 hc1 (blk V c 0 t) (blk V c 1 t) (blk V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HS]; · iexact HS
      isplitl [HA]; · iexact HA
      iintro ⟨H0, H1, H2, ⟨%eo, H3⟩, ⟨%em, HM⟩, ⟨%es, HS⟩, ⟨%ea, HA⟩⟩
      isplitl [HM HS HA Hr]
      · isplitl [HM HS HA]
        · isplitl [HM]
          · unfold owns; iexists _; isplitr
            swap; · iexact HM
            ipureintro; exact View.read_writes_eq_canon _ _ _ (coverLast_M c _ _ _ _ _ _ _ _ _ _ _ _ _ _ _ _ _ _ _ _ _ _ _)
          isplitl [HS]
          · unfold owns; iexists _; isplitr
            swap; · iexact HS
            ipureintro; exact View.read_writes_eq_canon _ _ _ (coverLast_S c _ _ _ _ _ _ _ _ _ _ _ _ _ _ _ _ _ _ _ _ _ _ _)
          unfold owns; iexists _; isplitr
          swap; · iexact HA
          ipureintro; exact View.read_writes_eq_canon _ _ _ (coverLast_A c _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLast_O c _ _ _ _ _ _ _ _ _ _ _ _ _ _ _ _ _ _ _ _ _ _ _)
    · have hc1 : ¬condLast (grid1.coords t) := fun h => h1 ((hcondLast t).mp h)
      rw [Dat.leavesExact_idle (dat V c) 3 t (idle_out t hc1) (noFlush_out t hc1)]
      rw [outsAt_mid V c t h0 h1]
      unfold midState outMid_M outMid_S outMid_A; (try dsimp only)
      iintro ⟨⟨⟨HM, HS, HA⟩, Hr⟩, Ho, ⟨%d0, H0⟩, ⟨%d1, H1⟩, ⟨%d2, H2⟩, ⟨%d3, H3⟩⟩
      iapply ((runMid c (grid1.coords t) (msQ t) (hsQ t) (msK t) (hsK t) (msV t) (hsV t) (msO t) (hsO t) scMax (Memref.isWhole_whole _) scSum (Memref.isWhole_whole _) scAcc (Memref.isWhole_whole _) hc0 hc1 (blk V c 0 t) (blk V c 1 t) (blk V c 2 t) _ _ _).2.2.2 _ Set.univ _)
      isplitl [H0]; · iexact H0
      isplitl [H1]; · iexact H1
      isplitl [H2]; · iexact H2
      isplitl [H3]; · iexact H3
      isplitl [HM]; · iexact HM
      isplitl [HS]; · iexact HS
      isplitl [HA]; · iexact HA
      iintro ⟨H0, H1, H2, H3, ⟨%em, HM⟩, ⟨%es, HS⟩, ⟨%ea, HA⟩⟩
      isplitl [HM HS HA Hr]
      · isplitl [HM HS HA]
        · isplitl [HM]
          · unfold owns; iexists _; isplitr
            swap; · iexact HM
            ipureintro; exact View.read_writes_eq_canon _ _ _ (coverMid_M c _ _ _ _ _ _ _ _ _ _ _ _ _ _ _ _ _ _ _ _ _ _ _)
          isplitl [HS]
          · unfold owns; iexists _; isplitr
            swap; · iexact HS
            ipureintro; exact View.read_writes_eq_canon _ _ _ (coverMid_S c _ _ _ _ _ _ _ _ _ _ _ _ _ _ _ _ _ _ _ _ _ _ _)
          unfold owns; iexists _; isplitr
          swap; · iexact HA
          ipureintro; exact View.read_writes_eq_canon _ _ _ (coverMid_A c _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- Before the first point the invariant is the class's. -/
theorem Phi_zero (c : Dev nD) : (dat V c).Φ 0 = Pipeline.ΦA spec1 c := rfl

/-- After the last point the invariant gives the class's back: the scratch's named contents are forgotten. -/
theorem Phi_weak (c : Dev nD) (t : Fin (cfg1.N + 1)) : (dat V c).Φ t ⊢ Pipeline.ΦA spec1 c := by
  rw [show (dat V c).Φ t = PhiS V c t.val (Nat.le_of_lt_succ t.isLt) from rfl]
  exact (PhiS_weak V c _ _).trans (PhiA_in c)

theorem Phi_last (c : Dev nD) : (dat V c).Φ (Fin.last cfg1.N) ⊢ Pipeline.ΦA spec1 c := Phi_weak V c _

end Cert.Kernel.Flash

end
-- ==== Proof.Kernel.Whole.lean ====
/-
  The whole run of the program: the projection call, the host's change of the tokens' float format, the attention
  call. The buffers' contents at each boundary are a fold from the launch memory (a call's arrays at what its
  write-backs leave, the host stretch's result at its operation's value); each kernel launch is a segment over the
  thread state "every unscoped buffer at the boundary's contents, the generator register at some state, nothing
  owed"; and every weakly fair execution terminates with the result array at what the attention call's write-backs
  leave and the three argument arrays as launched.
-/
import proofs.«102218_j65481071395329_2_alg».proof.Proof.Kernel.Region0
import proofs.«102218_j65481071395329_2_alg».proof.Proof.Kernel.Flash

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the projection call's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the projection call's exit: its arrays at what the pipeline leaves, every other buffer as entered. -/
def W1 (c : Dev nD) : Valuation τ sig (Elt F) :=
  Pipeline.withArrays spec0 c (W0 m ρ c) fun w => (Proj.dat (V0 m ρ) c).arrAt w cfg0.N
theorem W1_arr (c : Dev nD) (w : Fin cfg0.W) :
    W1 m ρ c (Proc.devRef .tc (Pipeline.arrRef spec0 w)) = (Proj.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Proj.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host's conversion of the tokens: the attention call's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the attention call's exit. -/
def W3 (c : Dev nD) : Valuation τ sig (Elt F) :=
  Pipeline.withArrays spec1 c (W2 m ρ c) fun w => (Flash.dat (V2 m ρ) c).arrAt w cfg1.N
theorem W3_arr (c : Dev nD) (w : Fin cfg1.W) :
    W3 m ρ c (Proc.devRef .tc (Pipeline.arrRef spec1 w)) = (Flash.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Flash.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched; the result is the attention call's -/

/-- `main_arg0` reaches the end as launched: the attention call does not stage it, the host conversion writes another buffer, the
    projection call reads it through an input window. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Proj.dat (V0 m ρ) c).arrAt_in 0 rfl _).trans (Proj.A_eq (V0 m ρ) c 0))
    _ = m ((c : Thread nD τ).loc main_arg0) := rfl

/-- `main_arg1` reaches the end as launched: the attention call does not stage it, the host conversion writes another buffer, the
    projection call reads it through an input window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((Proj.dat (V0 m ρ) c).arrAt_in 1 rfl _).trans (Proj.A_eq (V0 m ρ) c 1))
    _ = m ((c : Thread nD τ).loc main_arg1) := rfl

/-- `main_arg2` reaches the end as launched: the attention call does not stage it, the host conversion writes another buffer, the
    projection call reads it through an input window. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((Proj.dat (V0 m ρ) c).arrAt_in 2 rfl _).trans (Proj.A_eq (V0 m ρ) c 2))
    _ = m ((c : Thread nD τ).loc main_arg2) := rfl

/-- The result array at the end: what the attention call's write-backs leave in it. -/
theorem W3_main_v2 (c : Dev nD) : W3 m ρ c (Proc.devRef .tc main_v2) = (Flash.dat (V2 m ρ) c).arrAt 3 cfg1.N :=
  W3_arr m ρ c 3

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => Proj.dat (V0 m ρ) c
  | ⟨1, _⟩ => fun c => Flash.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W3 m ρ c) ∗ ∃ r, prngReg c r)

/-! ## The two launches as segments -/

set_option backward.isDefEq.respectTransparency.types false in
/-- The projection call: entered from every unscoped buffer at the launch contents, left with its two result arrays at
    what the pipeline wrote back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at the contents after the host conversion, left with the
    result array at what the pipeline wrote back. Its invariant takes the three scratch buffers out of the scoped
    rest before the first point and gives them back, their contents forgotten, after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Flash.Phi_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with the result array at what the attention call's write-backs leave and the three argument arrays
    as launched. -/
theorem run_main : θ_run defs (onTc (τ := τ) (main (F := F))) ⟨m, fun _ => 0, ρ⟩ (fun r => ∀ c : Dev nD,
      r.2.mem ((c.tc : Thread nD τ).loc main_v2) = (Flash.dat (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Whole

end
-- ==== Proof.KernelIdeal.Region0.lean ====
/-
  The projection call (the first of the two kernel launches): at grid point `t` the body reads a block of 512 token
  rows and both whole weight matrices and stores the two products "block times the transposed matrix" — the query
  rows and the key rows of that block. Stated at the buffer contents `V` the call is entered from: each window's
  block at a point, what the body leaves in the two result buffers, the body's triple, and the proof data of the
  launch with its obligation at a generic point.
-/
import proofs.«102218_j65481071395329_2_alg».proof.Proof.Gen.KernelIdeal.Launch
import proofs.«102218_j65481071395329_2_alg».proof.Proof.Gen.KernelIdeal.Skeleton
import proofs.«102218_j65481071395329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token window's staging buffer holds the point's block of rows, fetched there or not. -/
theorem before_tok_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The first weight window's staging buffer holds the whole matrix at every point (its block index never moves). -/
theorem before_rot_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The second weight window's likewise. -/
theorem before_ent_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole buffer -/

abbrev rTok : Rect S512x1024 := Rect.unit (s := S512x1024) ![0, 0] S512x1024.size inb_S512x1024_S512x1024_0_0
abbrev rMat : Rect S1024x1024 := Rect.unit (s := S1024x1024) ![0, 0] S1024x1024.size inb_S1024x1024_S1024x1024_0_0

/-! ## What the body leaves in each result buffer -/

/-- The query block: the token block times the transpose of the first matrix, stored whole. -/
def outQ (x0 : Vec F S512x1024 .f32) (x1 : Vec F S1024x1024 .f32) : Vec F S512x1024 .f32 :=
  View.canon [⟨rTok, k0_pay1 (View.ld x0 rTok) (View.ld x1 rMat)⟩]

/-- The key block: the token block times the transpose of the second matrix, stored whole. -/
def outK (x0 : Vec F S512x1024 .f32) (x2 : Vec F S1024x1024 .f32) : Vec F S512x1024 .f32 :=
  View.canon [⟨rTok, k0_pay2 (View.ld x0 rTok) (View.ld x2 rMat)⟩]

/-- One whole-buffer store covers the buffer. -/
theorem cover_whole (p0 : Vec F S512x1024 .f32) (y : S512x1024.Idx) :
    ∃ pc ∈ ([⟨rTok, p0⟩] : List (View.Piece (Elt F) S512x1024 .f32)), y ∈ pc.1.set :=
  View.cover_of_tiled [⟨rTok, p0⟩] S512x1024.size (by rfl) y

/-! ## The body's triple -/

set_option maxHeartbeats 1000000 in
/-- On whole staging buffers, the three inputs' at contents `x0`, `x1`, `x2` and the results' at anything, the body runs
    to its return leaving the inputs as they were and the results at the two products. -/
theorem sound_kernel (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole)
    (x0 : Vec F S512x1024 .f32) (x1 : Vec F S1024x1024 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outQ x0 x1) ∗ owns (c : Thread nD τ) arg5 fullShare (outK x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  iexists _; isplitr
  swap; · iexact H4
  ipureintro
  exact View.read_writes_eq_canon _ _ _ (cover_whole _)

/-! ## The launch's proof data -/

/-- The proof data of the projection call on core `c`: the arrays as the call finds them; after the body at point
    `t` each input's buffer at its block and the two results' at the products of the blocks; the class invariant
    (the other kernels' buffers and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outQ (blk V c 0 t) (blk V c 1 t)
    | ⟨4, _⟩ => outK (blk V c 0 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_tok (c : Dev nD) (t : Fin cfg0.N) : (dat V c).after 0 t = blk V c 0 t := by dsimp only [dat]
theorem after_rot (c : Dev nD) (t : Fin cfg0.N) : (dat V c).after 1 t = blk V c 1 t := by dsimp only [dat]
theorem after_ent (c : Dev nD) (t : Fin cfg0.N) : (dat V c).after 2 t = blk V c 2 t := by dsimp only [dat]
theorem after_q (c : Dev nD) (t : Fin cfg0.N) : (dat V c).after 3 t = outQ (blk V c 0 t) (blk V c 1 t) := by dsimp only [dat]
theorem after_k (c : Dev nD) (t : Fin cfg0.N) : (dat V c).after 4 t = outK (blk V c 0 t) (blk V c 2 t) := by dsimp only [dat]

theorem before_tok (c : Dev nD) (t : Fin cfg0.N) (d) : (dat V c).before 0 t d = blk V c 0 t :=
  before_tok_of V (dat V c) (A_eq V c 0) (after_tok V c) t d
theorem before_rot (c : Dev nD) (t : Fin cfg0.N) (d) : (dat V c).before 1 t d = blk V c 1 t :=
  before_rot_of V (dat V c) (A_eq V c 1) (after_rot V c) t d
theorem before_ent (c : Dev nD) (t : Fin cfg0.N) (d) : (dat V c).before 2 t d = blk V c 2 t :=
  before_ent_of V (dat V c) (A_eq V c 2) (after_ent V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_tok, before_rot, before_ent]
  rw [show (dat V c).Φ t.succ = (dat V c).Φ t.castSucc from rfl,
    show (dat V c).owesAt () t.succ = (dat V c).owesAt () t.castSucc from rfl,
    after_tok, after_rot, after_ent, after_q, after_k]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KernelIdeal.FlashKit.lean ====
/-
  The attention call (the second kernel launch), what its runs share. The grid is 16 query blocks by 16 key blocks;
  point `t` works on query block `t / 16` against key block `t % 16`. The body keeps three scratch buffers between
  points: the running row maximum, the running row sum and the running weighted sum of value rows. It resets them at
  a query block's first key block and divides the weighted sum by the row sum into the result block at its last.
  Here: each window's block at a point, the two branch conditions in closed form, where the result window is idle,
  the staging and scratch buffers' names, and the launch's class invariant split into the three scratch buffers and
  the rest.
-/
import proofs.«102218_j65481071395329_2_alg».proof.Proof.Gen.KernelIdeal.Launch
import proofs.«102218_j65481071395329_2_alg».proof.Proof.Gen.KernelIdeal.Skeleton
import proofs.«102218_j65481071395329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, fetched there or not (it is fetched at a query
    block's first key block only, and its index does not move in between). -/
theorem before_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The key window's staging buffer holds the point's key block. -/
theorem before_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The value window's staging buffer holds the point's block of value rows. -/
theorem before_v_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two branch conditions -/

/-- "This is the query block's first key block": the body's first conditional, from the grid coordinates. -/
abbrev condFirst (i : grid1.Coords) : Prop := (Scalar.cmpi .ne (Scalar.extui (Scalar.cmpi .eq (BitVec.ofNat 32 (i 1).val) 0#32)) 0#32) = 1#1
/-- It holds exactly at the points that are 0 modulo 16. -/
theorem hcondFirst : ∀ t : Fin cfg1.N, condFirst (grid1.coords t) ↔ t.val % 16 = 0 :=
  (by decide +kernel : ∀ t : Fin grid1.N, condFirst (grid1.coords t) ↔ t.val % 16 = 0)

/-- "This is the query block's last key block": the body's second conditional. -/
abbrev condLast (i : grid1.Coords) : Prop := k1_cond2 i = 1#1
/-- It holds exactly at the points that are 15 modulo 16. -/
theorem hcondLast : ∀ t : Fin cfg1.N, condLast (grid1.coords t) ↔ t.val % 16 = 15 :=
  (by decide +kernel : ∀ t : Fin grid1.N, condLast (grid1.coords t) ↔ t.val % 16 = 15)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Off a query block's last key block the body stores nothing into the result window, -/
theorem idle_out : ∀ t : Fin cfg1.N, ¬condLast (grid1.coords t) → cfg1.idle 3 (grid1.coords t) = true := by decide +kernel
/-- and the pipeline does not write its block back there; -/
theorem noFlush_out : ∀ t : Fin cfg1.N, ¬condLast (grid1.coords t) → (cfg1.win 3).flush t = false := by decide +kernel
/-- at the last key block the window is live. -/
theorem live_out : ∀ t : Fin cfg1.N, condLast (grid1.coords t) → cfg1.idle 3 (grid1.coords t) = false := by decide +kernel

/-! ## The staging and scratch buffers -/

/-- One staging buffer of the result window, through which its contents are stated. -/
abbrev VOut : View sig .tc .vmem S512x1024 .f32 := (Memref.whole cc1_stg3_0 : Memref sig .tc .vmem S512x1024 .f32).view
/-- Each window's current staging buffer at point `t`, as the pipeline passes it, and its wholeness. -/
abbrev msQ (t : Fin cfg1.N) : Memref sig .tc .vmem S512x1024 .f32 := win1_0.stage (cfg1.slots t 0)
abbrev hsQ (t : Fin cfg1.N) : (msQ t).IsWhole := hstage1_0 ((cfg1.slots t 0).cast nbuf1_0)
abbrev msK (t : Fin cfg1.N) : Memref sig .tc .vmem S512x1024 .f32 := win1_1.stage (cfg1.slots t 1)
abbrev hsK (t : Fin cfg1.N) : (msK t).IsWhole := hstage1_1 ((cfg1.slots t 1).cast nbuf1_1)
abbrev msV (t : Fin cfg1.N) : Memref sig .tc .vmem S512x1024 .bf16 := win1_2.stage (cfg1.slots t 2)
abbrev hsV (t : Fin cfg1.N) : (msV t).IsWhole := hstage1_2 ((cfg1.slots t 2).cast nbuf1_2)
abbrev msO (t : Fin cfg1.N) : Memref sig .tc .vmem S512x1024 .f32 := win1_3.stage (cfg1.slots t 3)
abbrev hsO (t : Fin cfg1.N) : (msO t).IsWhole := hstage1_3 ((cfg1.slots t 3).cast nbuf1_3)
/-- The scratch buffers: the running maximum, the running sum, the running weighted sum. -/
abbrev scMax : Memref sig .tc .vmem S512x1 .f32 := Memref.whole cc1_scratch0
abbrev scSum : Memref sig .tc .vmem S512x1 .f32 := Memref.whole cc1_scratch1
abbrev scAcc : Memref sig .tc .vmem S512x1024 .f32 := Memref.whole cc1_scratch2
abbrev VMax : View sig .tc .vmem S512x1 .f32 := scMax.view
abbrev VSum : View sig .tc .vmem S512x1 .f32 := scSum.view
abbrev VAcc : View sig .tc .vmem S512x1024 .f32 := scAcc.view

/-! ## The class invariant, split -/

/-- The staging buffers of the projection call, each whole at some contents: scoped buffers this call never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class invariant hands out the three scratch buffers at some contents, beside the rest. -/
theorem PhiA_out (c : Dev nD) :
    (Pipeline.ΦA spec1 c : sProp 𝕄)
      ⊢ iprop(iprop((∃ d, owns (c : Thread nD τ) scMax fullShare d) ∗ (∃ d, owns (c : Thread nD τ) scSum fullShare d) ∗ (∃ d, owns (c : Thread nD τ) scAcc fullShare d))
          ∗ others c ∗ (∃ r, prngReg c r)) := by
  unfold Pipeline.ΦA others; rw [scopedRest1_eq]; simp only [scMax, scSum, scAcc, owns_whole]
  iintro ⟨⟨H1, H2, H3, H4, H5, H6, H7, H8, HS0, HS1, HS2⟩, Hg⟩
  isplitl [HS0 HS1 HS2]
  · isplitl [HS0]; · iexact HS0
    isplitl [HS1]; · iexact HS1
    iexact HS2
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes them back. -/
theorem PhiA_in (c : Dev nD) :
    iprop(iprop((∃ d, owns (c : Thread nD τ) scMax fullShare d) ∗ (∃ d, owns (c : Thread nD τ) scSum fullShare d) ∗ (∃ d, owns (c : Thread nD τ) scAcc fullShare d))
          ∗ others c ∗ (∃ r, prngReg c r))
      ⊢ (Pipeline.ΦA spec1 c : sProp 𝕄) := by
  unfold Pipeline.ΦA others; rw [scopedRest1_eq]; simp only [scMax, scSum, scAcc, owns_whole]
  iintro ⟨⟨HS0, HS1, HS2⟩, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact HS2
  iexact Hg

end Cert.KernelIdeal.Flash

end
-- ==== Proof.KernelIdeal.FlashRunFirst.lean ====
/-
  The attention body run at a query block's FIRST key block: it resets the three scratch buffers (−∞, 0, 0), then folds the block in; the result window is left untouched.
-/
import proofs.«102218_j65481071395329_2_alg».proof.Proof.KernelIdeal.FlashKit

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), at a first key block, with the
    proof that on whole buffers — the query, key and value blocks at `x0`, `x1`, `x2`, the result buffer at `xi`,
    the scratch at anything — the body runs to its return, the inputs and the result buffer as they were and each
    scratch buffer with its pieces written. -/
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) :
    Σ' (LM : List (View.Piece (Elt F) S512x1 .f32)) (LS : List (View.Piece (Elt F) S512x1 .f32)), { LA : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f5, %hf5, H5⟩, ⟨%dm, %fm, -, HM⟩, ⟨%ds, %fs, -, HS⟩, ⟨%da, %fa, -, HA⟩, Hk⟩
    obtain rfl := harg2.eq_unread hf0; obtain rfl := harg3.eq_unread hf1; obtain rfl := harg4.eq_unread hf2; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [HM]; · iexists _; iexact HM
    isplitl [HS]; · iexists _; iexact HS
    iexists _; iexact HA

end Cert.KernelIdeal.Flash

end
-- ==== Proof.KernelIdeal.FlashRunMid.lean ====
/-
  The attention body run at a MIDDLE key block of a query block: it folds the block into the three scratch buffers, which it finds at what the point before left; the result window is left untouched.
-/
import proofs.«102218_j65481071395329_2_alg».proof.Proof.KernelIdeal.FlashRunFirst

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), at a middle key block, the
    scratch found at `xm`, `xs`, `xa`. -/
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16)
    (xm : Vec F S512x1 .f32) (xs : Vec F S512x1 .f32) (xa : Vec F S512x1024 .f32) :
    Σ' (LM : List (View.Piece (Elt F) S512x1 .f32)) (LS : List (View.Piece (Elt F) S512x1 .f32)), { LA : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi
            ∗ owns (c : Thread nD τ) arg6 fullShare xm ∗ owns (c : Thread nD τ) arg7 fullShare xs ∗ owns (c : Thread nD τ) arg8 fullShare xa
            ∗ (iprop(owns (c : Thread nD τ) arg2 fullShare x0 ∗ owns (c : Thread nD τ) arg3 fullShare x1 ∗ owns (c : Thread nD τ) arg4 fullShare x2 ∗ owns (c : Thread nD τ) arg5 fullShare xi
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f5, %hf5, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2; obtain rfl := harg5.eq_unread hf5
    obtain rfl := harg6.eq_unread hfm; obtain rfl := harg7.eq_unread hfs; obtain rfl := harg8.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [HM]; · iexists _; iexact HM
    isplitl [HS]; · iexists _; iexact HS
    iexists _; iexact HA

end Cert.KernelIdeal.Flash

end
-- ==== Proof.KernelIdeal.FlashRunLast.lean ====
/-
  The attention body run at a query block's LAST key block: it folds the block into the three scratch buffers and stores the weighted sum divided by the row sum into the result window.
-/
import proofs.«102218_j65481071395329_2_alg».proof.Proof.KernelIdeal.FlashRunMid

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result buffer and the three scratch buffers, as pieces (last first), at a last
    key block, the scratch found at `xm`, `xs`, `xa`, the result buffer at anything. -/
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16)
    (xm : Vec F S512x1 .f32) (xs : Vec F S512x1 .f32) (xa : Vec F S512x1024 .f32) :
    Σ' (LO : List (View.Piece (Elt F) S512x1024 .f32)) (LM : List (View.Piece (Elt F) S512x1 .f32)) (LS : List (View.Piece (Elt F) S512x1 .f32)), { LA : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xm ∗ owns (c : Thread nD τ) arg7 fullShare xs ∗ owns (c : Thread nD τ) arg8 fullShare xa
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d5, %f5, -, H5⟩, ⟨%fm, %hfm, HM⟩, ⟨%fs, %hfs, HS⟩, ⟨%fa, %hfa, HA⟩, Hk⟩
    obtain rfl := harg2.eq_unread hf0; obtain rfl := harg3.eq_unread hf1; obtain rfl := harg4.eq_unread hf2
    obtain rfl := harg6.eq_unread hfm; obtain rfl := harg7.eq_unread hfs; obtain rfl := harg8.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [HM]; · iexists _; iexact HM
    isplitl [HS]; · iexists _; iexact HS
    iexists _; iexact HA

end Cert.KernelIdeal.Flash

end
-- ==== Proof.KernelIdeal.Flash.lean ====
/-
  The attention call's accumulation. What the result buffer and the three scratch buffers hold after each grid
  point — a recursion over the points: at a query block's first key block the scratch is reset and the block folded
  in; at the others the block is folded into what the point before left; at the last the quotient "weighted sum over
  row sum" is stored into the result buffer —, the launch's proof data over it (the invariant carries the scratch's
  contents from point to point), and the body obligation at a generic point.
-/
import proofs.«102218_j65481071395329_2_alg».proof.Proof.KernelIdeal.FlashRunLast

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's run leaves, buffer by buffer -/

/-- The pieces a first key block's run stores into the running maximum cover it. -/
theorem coverFirst_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) (y : S512x1.Idx) :
    ∃ pc ∈ (runFirst c i arg2 harg2 arg3 harg3 arg4 harg4 arg5 harg5 arg6 harg6 arg7 harg7 arg8 harg8 hc0 hc1 x0 x1 x2).1, y ∈ pc.1.set :=
  View.cover_of_tiledL (runFirst c i arg2 harg2 arg3 harg3 arg4 harg4 arg5 harg5 arg6 harg6 arg7 harg7 arg8 harg8 hc0 hc1 x0 x1 x2).1 S512x1.size (by sl_kernel_rfl) y

/-- What a first key block's run leaves in the running maximum. -/
def outFirst_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) : Vec F S512x1 .f32 :=
  View.canon (runFirst c i arg2 harg2 arg3 harg3 arg4 harg4 arg5 harg5 arg6 harg6 arg7 harg7 arg8 harg8 hc0 hc1 x0 x1 x2).1

/-- The pieces a first key block's run stores into the running sum cover it. -/
theorem coverFirst_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) (y : S512x1.Idx) :
    ∃ pc ∈ (runFirst c i arg2 harg2 arg3 harg3 arg4 harg4 arg5 harg5 arg6 harg6 arg7 harg7 arg8 harg8 hc0 hc1 x0 x1 x2).2.1, y ∈ pc.1.set :=
  View.cover_of_tiledL (runFirst c i arg2 harg2 arg3 harg3 arg4 harg4 arg5 harg5 arg6 harg6 arg7 harg7 arg8 harg8 hc0 hc1 x0 x1 x2).2.1 S512x1.size (by sl_kernel_rfl) y

/-- What a first key block's run leaves in the running sum. -/
def outFirst_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) : Vec F S512x1 .f32 :=
  View.canon (runFirst c i arg2 harg2 arg3 harg3 arg4 harg4 arg5 harg5 arg6 harg6 arg7 harg7 arg8 harg8 hc0 hc1 x0 x1 x2).2.1

/-- The pieces a first key block's run stores into the running weighted sum cover it. -/
theorem coverFirst_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) (y : S512x1024.Idx) :
    ∃ pc ∈ (runFirst c i arg2 harg2 arg3 harg3 arg4 harg4 arg5 harg5 arg6 harg6 arg7 harg7 arg8 harg8 hc0 hc1 x0 x1 x2).2.2.1, y ∈ pc.1.set :=
  View.cover_of_tiledL (runFirst c i arg2 harg2 arg3 harg3 arg4 harg4 arg5 harg5 arg6 harg6 arg7 harg7 arg8 harg8 hc0 hc1 x0 x1 x2).2.2.1 S512x1024.size (by sl_kernel_rfl) y

/-- What a first key block's run leaves in the running weighted sum. -/
def outFirst_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) : Vec F S512x1024 .f32 :=
  View.canon (runFirst c i arg2 harg2 arg3 harg3 arg4 harg4 arg5 harg5 arg6 harg6 arg7 harg7 arg8 harg8 hc0 hc1 x0 x1 x2).2.2.1

/-- The pieces a mid key block's run stores into the running maximum cover it. -/
theorem coverMid_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runMid c i arg2 harg2 arg3 harg3 arg4 harg4 arg5 harg5 arg6 harg6 arg7 harg7 arg8 harg8 hc0 hc1 x0 x1 x2 xm xs xa).1, y ∈ pc.1.set :=
  View.cover_of_tiledL (runMid c i arg2 harg2 arg3 harg3 arg4 harg4 arg5 harg5 arg6 harg6 arg7 harg7 arg8 harg8 hc0 hc1 x0 x1 x2 xm xs xa).1 S512x1.size (by sl_kernel_rfl) y

/-- What a mid key block's run leaves in the running maximum. -/
def outMid_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runMid c i arg2 harg2 arg3 harg3 arg4 harg4 arg5 harg5 arg6 harg6 arg7 harg7 arg8 harg8 hc0 hc1 x0 x1 x2 xm xs xa).1

/-- The pieces a mid key block's run stores into the running sum cover it. -/
theorem coverMid_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runMid c i arg2 harg2 arg3 harg3 arg4 harg4 arg5 harg5 arg6 harg6 arg7 harg7 arg8 harg8 hc0 hc1 x0 x1 x2 xm xs xa).2.1, y ∈ pc.1.set :=
  View.cover_of_tiledL (runMid c i arg2 harg2 arg3 harg3 arg4 harg4 arg5 harg5 arg6 harg6 arg7 harg7 arg8 harg8 hc0 hc1 x0 x1 x2 xm xs xa).2.1 S512x1.size (by sl_kernel_rfl) y

/-- What a mid key block's run leaves in the running sum. -/
def outMid_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runMid c i arg2 harg2 arg3 harg3 arg4 harg4 arg5 harg5 arg6 harg6 arg7 harg7 arg8 harg8 hc0 hc1 x0 x1 x2 xm xs xa).2.1

/-- The pieces a mid key block's run stores into the running weighted sum cover it. -/
theorem coverMid_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) (y : S512x1024.Idx) :
    ∃ pc ∈ (runMid c i arg2 harg2 arg3 harg3 arg4 harg4 arg5 harg5 arg6 harg6 arg7 harg7 arg8 harg8 hc0 hc1 x0 x1 x2 xm xs xa).2.2.1, y ∈ pc.1.set :=
  View.cover_of_tiledL (runMid c i arg2 harg2 arg3 harg3 arg4 harg4 arg5 harg5 arg6 harg6 arg7 harg7 arg8 harg8 hc0 hc1 x0 x1 x2 xm xs xa).2.2.1 S512x1024.size (by sl_kernel_rfl) y

/-- What a mid key block's run leaves in the running weighted sum. -/
def outMid_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1024 .f32 :=
  View.canon (runMid c i arg2 harg2 arg3 harg3 arg4 harg4 arg5 harg5 arg6 harg6 arg7 harg7 arg8 harg8 hc0 hc1 x0 x1 x2 xm xs xa).2.2.1

/-- The pieces a last key block's run stores into the result buffer cover it. -/
theorem coverLast_O (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1024.Idx) :
    ∃ pc ∈ (runLast c i arg2 harg2 arg3 harg3 arg4 harg4 arg5 harg5 arg6 harg6 arg7 harg7 arg8 harg8 hc0 hc1 x0 x1 x2 xm xs xa).1, y ∈ pc.1.set :=
  View.cover_of_tiledL (runLast c i arg2 harg2 arg3 harg3 arg4 harg4 arg5 harg5 arg6 harg6 arg7 harg7 arg8 harg8 hc0 hc1 x0 x1 x2 xm xs xa).1 S512x1024.size (by sl_kernel_rfl) y

/-- What a last key block's run leaves in the result buffer. -/
def outLast_O (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1024 .f32 :=
  View.canon (runLast c i arg2 harg2 arg3 harg3 arg4 harg4 arg5 harg5 arg6 harg6 arg7 harg7 arg8 harg8 hc0 hc1 x0 x1 x2 xm xs xa).1

/-- The pieces a last key block's run stores into the running maximum cover it. -/
theorem coverLast_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runLast c i arg2 harg2 arg3 harg3 arg4 harg4 arg5 harg5 arg6 harg6 arg7 harg7 arg8 harg8 hc0 hc1 x0 x1 x2 xm xs xa).2.1, y ∈ pc.1.set :=
  View.cover_of_tiledL (runLast c i arg2 harg2 arg3 harg3 arg4 harg4 arg5 harg5 arg6 harg6 arg7 harg7 arg8 harg8 hc0 hc1 x0 x1 x2 xm xs xa).2.1 S512x1.size (by sl_kernel_rfl) y

/-- What a last key block's run leaves in the running maximum. -/
def outLast_M (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runLast c i arg2 harg2 arg3 harg3 arg4 harg4 arg5 harg5 arg6 harg6 arg7 harg7 arg8 harg8 hc0 hc1 x0 x1 x2 xm xs xa).2.1

/-- The pieces a last key block's run stores into the running sum cover it. -/
theorem coverLast_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1.Idx) :
    ∃ pc ∈ (runLast c i arg2 harg2 arg3 harg3 arg4 harg4 arg5 harg5 arg6 harg6 arg7 harg7 arg8 harg8 hc0 hc1 x0 x1 x2 xm xs xa).2.2.1, y ∈ pc.1.set :=
  View.cover_of_tiledL (runLast c i arg2 harg2 arg3 harg3 arg4 harg4 arg5 harg5 arg6 harg6 arg7 harg7 arg8 harg8 hc0 hc1 x0 x1 x2 xm xs xa).2.2.1 S512x1.size (by sl_kernel_rfl) y

/-- What a last key block's run leaves in the running sum. -/
def outLast_S (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1 .f32 :=
  View.canon (runLast c i arg2 harg2 arg3 harg3 arg4 harg4 arg5 harg5 arg6 harg6 arg7 harg7 arg8 harg8 hc0 hc1 x0 x1 x2 xm xs xa).2.2.1

/-- The pieces a last key block's run stores into the running weighted sum cover it. -/
theorem coverLast_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) (y : S512x1024.Idx) :
    ∃ pc ∈ (runLast c i arg2 harg2 arg3 harg3 arg4 harg4 arg5 harg5 arg6 harg6 arg7 harg7 arg8 harg8 hc0 hc1 x0 x1 x2 xm xs xa).2.2.2.1, y ∈ pc.1.set :=
  View.cover_of_tiledL (runLast c i arg2 harg2 arg3 harg3 arg4 harg4 arg5 harg5 arg6 harg6 arg7 harg7 arg8 harg8 hc0 hc1 x0 x1 x2 xm xs xa).2.2.2.1 S512x1024.size (by sl_kernel_rfl) y

/-- What a last key block's run leaves in the running weighted sum. -/
def outLast_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) : Vec F S512x1024 .f32 :=
  View.canon (runLast c i arg2 harg2 arg3 harg3 arg4 harg4 arg5 harg5 arg6 harg6 arg7 harg7 arg8 harg8 hc0 hc1 x0 x1 x2 xm xs xa).2.2.2.1

/-! ## The accumulation, point by point -/

/-- The result buffer's and the three scratch buffers' contents after a point. -/
abbrev St (F : FTy → Type) [FloatOps F] : Type := Vec F S512x1024 .f32 × Vec F S512x1 .f32 × Vec F S512x1 .f32 × Vec F S512x1024 .f32

/-- Where the body stores nothing into the result buffer its contents are not consulted: a placeholder. -/
def idleOut : Vec F S512x1024 .f32 := View.canon ([] : List (View.Piece (Elt F) S512x1024 .f32))

/-- After a query block's first key block. -/
def firstState (c : Dev nD) (t : Fin cfg1.N) (h0 : t.val % 16 = 0) : St F :=
  (idleOut,
   outFirst_M c (grid1.coords t) (msQ t) (hsQ t) (msK t) (hsK t) (msV t) (hsV t) (msO t) (hsO t) scMax (Memref.isWhole_whole _) scSum (Memref.isWhole_whole _) scAcc (Memref.isWhole_whole _) ((hcondFirst t).mpr h0) (fun h => by have := (hcondLast t).mp h; omega) (blk V c 0 t) (blk V c 1 t) (blk V c 2 t),
   outFirst_S c (grid1.coords t) (msQ t) (hsQ t) (msK t) (hsK t) (msV t) (hsV t) (msO t) (hsO t) scMax (Memref.isWhole_whole _) scSum (Memref.isWhole_whole _) scAcc (Memref.isWhole_whole _) ((hcondFirst t).mpr h0) (fun h => by have := (hcondLast t).mp h; omega) (blk V c 0 t) (blk V c 1 t) (blk V c 2 t),
   outFirst_A c (grid1.coords t) (msQ t) (hsQ t) (msK t) (hsK t) (msV t) (hsV t) (msO t) (hsO t) scMax (Memref.isWhole_whole _) scSum (Memref.isWhole_whole _) scAcc (Memref.isWhole_whole _) ((hcondFirst t).mpr h0) (fun h => by have := (hcondLast t).mp h; omega) (blk V c 0 t) (blk V c 1 t) (blk V c 2 t))

/-- After a middle key block, from what the point before left. -/
def midState (c : Dev nD) (t : Fin cfg1.N) (h0 : ¬t.val % 16 = 0) (h1 : ¬t.val % 16 = 15) (prev : St F) : St F :=
  (idleOut,
   outMid_M c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) (fun h => h1 ((hcondLast t).mp h)) (blk V c 0 t) (blk V c 1 t) (blk V c 2 t) prev.2.1 prev.2.2.1 prev.2.2.2,
   outMid_S c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) (fun h => h1 ((hcondLast t).mp h)) (blk V c 0 t) (blk V c 1 t) (blk V c 2 t) prev.2.1 prev.2.2.1 prev.2.2.2,
   outMid_A c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) (fun h => h1 ((hcondLast t).mp h)) (blk V c 0 t) (blk V c 1 t) (blk V c 2 t) prev.2.1 prev.2.2.1 prev.2.2.2)

/-- After a query block's last key block, from what the point before left. -/
def lastState (c : Dev nD) (t : Fin cfg1.N) (h0 : ¬t.val % 16 = 0) (h1 : t.val % 16 = 15) (prev : St F) : St F :=
  (outLast_O c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2,
   outLast_M c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2,
   outLast_S c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2,
   outLast_A c (grid1.coords t) (msQ t) (hsQ t) (msK t) (hsK t) (msV t) (hsV t) (msO t) (hsO t) scMax (Memref.isWhole_whole _) scSum (Memref.isWhole_whole _) scAcc (Memref.isWhole_whole _) (fun h => h0 ((hcondFirst t).mp h)) ((hcondLast t).mpr h1) (blk V c 0 t) (blk V c 1 t) (blk V c 2 t) prev.2.1 prev.2.2.1 prev.2.2.2)

/-- THE ACCUMULATION: the four buffers after the body at position `n`. -/
def outsAt (c : Dev nD) : (n : ℕ) → n < cfg1.N → St F
  | 0, hn => firstState V c ⟨0, hn⟩ (Nat.zero_mod _)
  | n + 1, hn =>
    if h0 : (n + 1) % 16 = 0 then firstState V c ⟨n + 1, hn⟩ h0
    else if h1 : (n + 1) % 16 = 15 then lastState V c ⟨n + 1, hn⟩ h0 h1 (outsAt c n (Nat.lt_of_succ_lt hn))
    else midState V c ⟨n + 1, hn⟩ h0 h1 (outsAt c n (Nat.lt_of_succ_lt hn))

theorem outsAt_first (c : Dev nD) (t : Fin cfg1.N) (h0 : t.val % 16 = 0) :
    outsAt V c t.val t.isLt = firstState V c t h0 := by
  obtain ⟨n, hn⟩ := t
  cases n with
  | zero => rfl
  | succ n => exact dif_pos h0

theorem outsAt_mid (c : Dev nD) (t : Fin cfg1.N) (h0 : ¬t.val % 16 = 0) (h1 : ¬t.val % 16 = 15) :
    outsAt V c t.val t.isLt = midState V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt_last (c : Dev nD) (t : Fin cfg1.N) (h0 : ¬t.val % 16 = 0) (h1 : t.val % 16 = 15) :
    outsAt V c t.val t.isLt = lastState V c t h0 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant: the scratch buffers at what the point before left -/

/-- What rides beside the scratch buffers: the other call's staging buffers and the generator register. -/
abbrev rest (c : Dev nD) : sProp 𝕄 := iprop(others c ∗ (∃ r, prngReg c r))

/-- Before position `n`: before the first point the class invariant (every scratch at anything); afterwards the three
    scratch buffers at what the point before left. -/
def PhiS (c : Dev nD) : (n : ℕ) → n ≤ cfg1.N → sProp 𝕄
  | 0, _ => Pipeline.ΦA spec1 c
  | n + 1, hn => iprop(iprop(owns (c : Thread nD τ) scMax fullShare (outsAt V c n hn).2.1
      ∗ owns (c : Thread nD τ) scSum fullShare (outsAt V c n hn).2.2.1
      ∗ owns (c : Thread nD τ) scAcc fullShare (outsAt V c n hn).2.2.2) ∗ rest c)

theorem PhiS_succ (c : Dev nD) (n : ℕ) (hn : n < cfg1.N) :
    PhiS V c (n + 1) hn = iprop(iprop(owns (c : Thread nD τ) scMax fullShare (outsAt V c n hn).2.1
      ∗ owns (c : Thread nD τ) scSum fullShare (outsAt V c n hn).2.2.1
      ∗ owns (c : Thread nD τ) scAcc fullShare (outsAt V c n hn).2.2.2) ∗ rest c) := rfl

theorem PhiS_pos (c : Dev nD) (n : ℕ) (h : n ≤ cfg1.N) (hz : n ≠ 0) :
    PhiS V c n h = iprop(iprop(owns (c : Thread nD τ) scMax fullShare (outsAt V c (n - 1) (by omega)).2.1
      ∗ owns (c : Thread nD τ) scSum fullShare (outsAt V c (n - 1) (by omega)).2.2.1
      ∗ owns (c : Thread nD τ) scAcc fullShare (outsAt V c (n - 1) (by omega)).2.2.2) ∗ rest c) := by
  cases n with
  | zero => exact absurd rfl hz
  | succ n => rfl

/-- At any position the invariant hands out the three scratch buffers at SOME contents, beside the rest. -/
theorem PhiS_weak (c : Dev nD) (n : ℕ) (h : n ≤ cfg1.N) :
    PhiS V c n h ⊢ iprop(iprop((∃ d, owns (c : Thread nD τ) scMax fullShare d) ∗ (∃ d, owns (c : Thread nD τ) scSum fullShare d) ∗ (∃ d, owns (c : Thread nD τ) scAcc fullShare d)) ∗ rest c) := by
  cases n with
  | zero => exact PhiA_out c
  | succ n =>
    rw [PhiS_succ]
    iintro ⟨⟨HM, HS, HA⟩, Hr⟩
    isplitl [HM HS HA]
    · isplitl [HM]; · iexists _; iexact HM
      isplitl [HS]; · iexists _; iexact HS
      iexists _; iexact HA
    iexact Hr

/-! ## The launch's proof data -/

/-- The proof data of the attention call on core `c`: the arrays as the call finds them; after the body at point `t`
    each input's buffer at its block and the result's at the accumulation's first component; the invariant the
    scratch's contents from point to point; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_v (c : Dev nD) (t : Fin cfg1.N) : (dat V c).after 2 t = blk V c 2 t := by dsimp only [dat]
theorem after_out (c : Dev nD) (t : Fin cfg1.N) : (dat V c).after 3 t = (outsAt V c t.val t.isLt).1 := by dsimp only [dat]

theorem before_q (c : Dev nD) (t : Fin cfg1.N) (d) : (dat V c).before 0 t d = blk V c 0 t :=
  before_q_of V (dat V c) (A_eq V c 0) (after_q V c) t d
theorem before_k (c : Dev nD) (t : Fin cfg1.N) (d) : (dat V c).before 1 t d = blk V c 1 t :=
  before_k_of V (dat V c) (A_eq V c 1) (after_k V c) t d
theorem before_v (c : Dev nD) (t : Fin cfg1.N) (d) : (dat V c).before 2 t d = blk V c 2 t :=
  before_v_of V (dat V c) (A_eq V c 2) (after_v V c) t d

/-- An input window's buffer is handed back at its block. -/
theorem leaves_q (c : Dev nD) (t : Fin cfg1.N) : (dat V c).leavesExact 0 t = owns (c : Thread nD τ) (msQ t) fullShare (blk V c 0 t) := by
  unfold Dat.leavesExact; rw [live_q t, after_q]
theorem leaves_k (c : Dev nD) (t : Fin cfg1.N) : (dat V c).leavesExact 1 t = owns (c : Thread nD τ) (msK t) fullShare (blk V c 1 t) := by
  unfold Dat.leavesExact; rw [live_k t, after_k]
theorem leaves_v (c : Dev nD) (t : Fin cfg1.N) : (dat V c).leavesExact 2 t = owns (c : Thread nD τ) (msV t) fullShare (blk V c 2 t) := by
  unfold Dat.leavesExact; rw [live_v t, after_v]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (msQ t) fullShare ((dat V c).before 0 t d))
    ∗ (∃ d, owns (c : Thread nD τ) (msK t) fullShare ((dat V c).before 1 t d))
    ∗ (∃ d, owns (c : Thread nD τ) (msV t) fullShare ((dat V c).before 2 t d))
    ∗ (∃ d, owns (c : Thread nD τ) (msO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the point's position among its query block's key
    blocks says which run applies; the invariant hands the run the scratch at what the point before left (at anything
    where the run resets it) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).owesAt () t.succ = (dat V c).owesAt () t.castSucc from rfl]
  rw [show (dat V c).Φ t.succ = PhiS V c (t.val + 1) t.isLt from rfl, PhiS_succ]
  rw [leaves_q, leaves_k, leaves_v, PhiS_castSucc V c t]
  have hN : t.val < 256 := lt_of_lt_of_eq t.isLt (show cfg1.N = 256 from N_1)
  by_cases h0 : t.val % 16 = 0
  · have hc0 : condFirst (grid1.coords t) := (hcondFirst t).mpr h0
    have hc1 : ¬condLast (grid1.coords t) := fun h => by have := (hcondLast t).mp h; omega
    rw [Dat.leavesExact_idle (dat V c) 3 t (idle_out t hc1) (noFlush_out t hc1)]
    rw [outsAt_first V c t h0]
    unfold firstState outFirst_M outFirst_S outFirst_A; (try dsimp only)
    iintro ⟨HΦ, Ho, ⟨%d0, H0⟩, ⟨%d1, H1⟩, ⟨%d2, H2⟩, ⟨%d3, H3⟩⟩
    ihave HΦ' := (PhiS_weak V c _ _) $$ HΦ
    icases HΦ' with ⟨⟨HM, HS, HA⟩, Hr⟩
    iapply ((runFirst c (grid1.coords t) (msQ t) (hsQ t) (msK t) (hsK t) (msV t) (hsV t) (msO t) (hsO t) scMax (Memref.isWhole_whole _) scSum (Memref.isWhole_whole _) scAcc (Memref.isWhole_whole _) hc0 hc1 (blk V c 0 t) (blk V c 1 t) (blk V c 2 t)).2.2.2 _ Set.univ _)
    isplitl [H0]; · iexact H0
    isplitl [H1]; · iexact H1
    isplitl [H2]; · iexact H2
    isplitl [H3]; · iexact H3
    isplitl [HM]; · iexact HM
    isplitl [HS]; · iexact HS
    isplitl [HA]; · iexact HA
    iintro ⟨H0, H1, H2, H3, ⟨%em, HM⟩, ⟨%es, HS⟩, ⟨%ea, HA⟩⟩
    isplitl [HM HS HA Hr]
    · isplitl [HM HS HA]
      · isplitl [HM]
        · unfold owns; iexists _; isplitr
          swap; · iexact HM
          ipureintro; exact View.read_writes_eq_canon _ _ _ (coverFirst_M c _ _ _ _ _ _ _ _ _ _ _ _ _ _ _ _ _ _ _ _)
        isplitl [HS]
        · unfold owns; iexists _; isplitr
          swap; · iexact HS
          ipureintro; exact View.read_writes_eq_canon _ _ _ (coverFirst_S c _ _ _ _ _ _ _ _ _ _ _ _ _ _ _ _ _ _ _ _)
        unfold owns; iexists _; isplitr
        swap; · iexact HA
        ipureintro; exact View.read_writes_eq_canon _ _ _ (coverFirst_A c _ _ _ _ _ _ _ _ _ _ _ _ _ _ _ _ _ _ _ _)
      iexact Hr
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬condFirst (grid1.coords t) := fun h => h0 ((hcondFirst t).mp h)
    rw [PhiS_pos V c _ _ hz]
    by_cases h1 : t.val % 16 = 15
    · have hc1 : condLast (grid1.coords t) := (hcondLast t).mpr h1
      rw [show (dat V c).leavesExact 3 t = owns (c : Thread nD τ) (msO t) fullShare ((dat V c).after 3 t) from by
        unfold Dat.leavesExact; rw [live_out t hc1], after_out]
      rw [outsAt_last V c t h0 h1]
      unfold lastState outLast_O outLast_M outLast_S outLast_A; (try dsimp only)
      iintro ⟨⟨⟨HM, HS, HA⟩, Hr⟩, Ho, ⟨%d0, H0⟩, ⟨%d1, H1⟩, ⟨%d2, H2⟩, ⟨%d3, H3⟩⟩
      iapply ((runLast c (grid1.coords t) (msQ t) (hsQ t) (msK t) (hsK t) (msV t) (hsV t) (msO t) (hsO t) scMax (Memref.isWhole_whole _) scSum (Memref.isWhole_whole _) scAcc (Memref.isWhole_whole _) hc0 hc1 (blk V c 0 t) (blk V c 1 t) (blk V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HS]; · iexact HS
      isplitl [HA]; · iexact HA
      iintro ⟨H0, H1, H2, ⟨%eo, H3⟩, ⟨%em, HM⟩, ⟨%es, HS⟩, ⟨%ea, HA⟩⟩
      isplitl [HM HS HA Hr]
      · isplitl [HM HS HA]
        · isplitl [HM]
          · unfold owns; iexists _; isplitr
            swap; · iexact HM
            ipureintro; exact View.read_writes_eq_canon _ _ _ (coverLast_M c _ _ _ _ _ _ _ _ _ _ _ _ _ _ _ _ _ _ _ _ _ _ _)
          isplitl [HS]
          · unfold owns; iexists _; isplitr
            swap; · iexact HS
            ipureintro; exact View.read_writes_eq_canon _ _ _ (coverLast_S c _ _ _ _ _ _ _ _ _ _ _ _ _ _ _ _ _ _ _ _ _ _ _)
          unfold owns; iexists _; isplitr
          swap; · iexact HA
          ipureintro; exact View.read_writes_eq_canon _ _ _ (coverLast_A c _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLast_O c _ _ _ _ _ _ _ _ _ _ _ _ _ _ _ _ _ _ _ _ _ _ _)
    · have hc1 : ¬condLast (grid1.coords t) := fun h => h1 ((hcondLast t).mp h)
      rw [Dat.leavesExact_idle (dat V c) 3 t (idle_out t hc1) (noFlush_out t hc1)]
      rw [outsAt_mid V c t h0 h1]
      unfold midState outMid_M outMid_S outMid_A; (try dsimp only)
      iintro ⟨⟨⟨HM, HS, HA⟩, Hr⟩, Ho, ⟨%d0, H0⟩, ⟨%d1, H1⟩, ⟨%d2, H2⟩, ⟨%d3, H3⟩⟩
      iapply ((runMid c (grid1.coords t) (msQ t) (hsQ t) (msK t) (hsK t) (msV t) (hsV t) (msO t) (hsO t) scMax (Memref.isWhole_whole _) scSum (Memref.isWhole_whole _) scAcc (Memref.isWhole_whole _) hc0 hc1 (blk V c 0 t) (blk V c 1 t) (blk V c 2 t) _ _ _).2.2.2 _ Set.univ _)
      isplitl [H0]; · iexact H0
      isplitl [H1]; · iexact H1
      isplitl [H2]; · iexact H2
      isplitl [H3]; · iexact H3
      isplitl [HM]; · iexact HM
      isplitl [HS]; · iexact HS
      isplitl [HA]; · iexact HA
      iintro ⟨H0, H1, H2, H3, ⟨%em, HM⟩, ⟨%es, HS⟩, ⟨%ea, HA⟩⟩
      isplitl [HM HS HA Hr]
      · isplitl [HM HS HA]
        · isplitl [HM]
          · unfold owns; iexists _; isplitr
            swap; · iexact HM
            ipureintro; exact View.read_writes_eq_canon _ _ _ (coverMid_M c _ _ _ _ _ _ _ _ _ _ _ _ _ _ _ _ _ _ _ _ _ _ _)
          isplitl [HS]
          · unfold owns; iexists _; isplitr
            swap; · iexact HS
            ipureintro; exact View.read_writes_eq_canon _ _ _ (coverMid_S c _ _ _ _ _ _ _ _ _ _ _ _ _ _ _ _ _ _ _ _ _ _ _)
          unfold owns; iexists _; isplitr
          swap; · iexact HA
          ipureintro; exact View.read_writes_eq_canon _ _ _ (coverMid_A c _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- Before the first point the invariant is the class's. -/
theorem Phi_zero (c : Dev nD) : (dat V c).Φ 0 = Pipeline.ΦA spec1 c := rfl

/-- After the last point the invariant gives the class's back: the scratch's named contents are forgotten. -/
theorem Phi_weak (c : Dev nD) (t : Fin (cfg1.N + 1)) : (dat V c).Φ t ⊢ Pipeline.ΦA spec1 c := by
  rw [show (dat V c).Φ t = PhiS V c t.val (Nat.le_of_lt_succ t.isLt) from rfl]
  exact (PhiS_weak V c _ _).trans (PhiA_in c)

theorem Phi_last (c : Dev nD) : (dat V c).Φ (Fin.last cfg1.N) ⊢ Pipeline.ΦA spec1 c := Phi_weak V c _

end Cert.KernelIdeal.Flash

end
-- ==== Proof.KernelIdeal.Whole.lean ====
/-
  The whole run of the program: the projection call, the host's change of the tokens' float format, the attention
  call. The buffers' contents at each boundary are a fold from the launch memory (a call's arrays at what its
  write-backs leave, the host stretch's result at its operation's value); each kernel launch is a segment over the
  thread state "every unscoped buffer at the boundary's contents, the generator register at some state, nothing
  owed"; and every weakly fair execution terminates with the result array at what the attention call's write-backs
  leave and the three argument arrays as launched.
-/
import proofs.«102218_j65481071395329_2_alg».proof.Proof.KernelIdeal.Region0
import proofs.«102218_j65481071395329_2_alg».proof.Proof.KernelIdeal.Flash

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the projection call's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the projection call's exit: its arrays at what the pipeline leaves, every other buffer as entered. -/
def W1 (c : Dev nD) : Valuation τ sig (Elt F) :=
  Pipeline.withArrays spec0 c (W0 m ρ c) fun w => (Proj.dat (V0 m ρ) c).arrAt w cfg0.N
theorem W1_arr (c : Dev nD) (w : Fin cfg0.W) :
    W1 m ρ c (Proc.devRef .tc (Pipeline.arrRef spec0 w)) = (Proj.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Proj.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host's conversion of the tokens: the attention call's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the attention call's exit. -/
def W3 (c : Dev nD) : Valuation τ sig (Elt F) :=
  Pipeline.withArrays spec1 c (W2 m ρ c) fun w => (Flash.dat (V2 m ρ) c).arrAt w cfg1.N
theorem W3_arr (c : Dev nD) (w : Fin cfg1.W) :
    W3 m ρ c (Proc.devRef .tc (Pipeline.arrRef spec1 w)) = (Flash.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Flash.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched; the result is the attention call's -/

/-- `main_arg0` reaches the end as launched: the attention call does not stage it, the host conversion writes another buffer, the
    projection call reads it through an input window. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Proj.dat (V0 m ρ) c).arrAt_in 0 rfl _).trans (Proj.A_eq (V0 m ρ) c 0))
    _ = m ((c : Thread nD τ).loc main_arg0) := rfl

/-- `main_arg1` reaches the end as launched: the attention call does not stage it, the host conversion writes another buffer, the
    projection call reads it through an input window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((Proj.dat (V0 m ρ) c).arrAt_in 1 rfl _).trans (Proj.A_eq (V0 m ρ) c 1))
    _ = m ((c : Thread nD τ).loc main_arg1) := rfl

/-- `main_arg2` reaches the end as launched: the attention call does not stage it, the host conversion writes another buffer, the
    projection call reads it through an input window. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((Proj.dat (V0 m ρ) c).arrAt_in 2 rfl _).trans (Proj.A_eq (V0 m ρ) c 2))
    _ = m ((c : Thread nD τ).loc main_arg2) := rfl

/-- The result array at the end: what the attention call's write-backs leave in it. -/
theorem W3_main_v2 (c : Dev nD) : W3 m ρ c (Proc.devRef .tc main_v2) = (Flash.dat (V2 m ρ) c).arrAt 3 cfg1.N :=
  W3_arr m ρ c 3

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => Proj.dat (V0 m ρ) c
  | ⟨1, _⟩ => fun c => Flash.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W3 m ρ c) ∗ ∃ r, prngReg c r)

/-! ## The two launches as segments -/

set_option backward.isDefEq.respectTransparency.types false in
/-- The projection call: entered from every unscoped buffer at the launch contents, left with its two result arrays at
    what the pipeline wrote back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at the contents after the host conversion, left with the
    result array at what the pipeline wrote back. Its invariant takes the three scratch buffers out of the scoped
    rest before the first point and gives them back, their contents forgotten, after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Flash.Phi_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with the result array at what the attention call's write-backs leave and the three argument arrays
    as launched. -/
theorem run_main : θ_run defs (onTc (τ := τ) (main (F := F))) ⟨m, fun _ => 0, ρ⟩ (fun r => ∀ c : Dev nD,
      r.2.mem ((c.tc : Thread nD τ).loc main_v2) = (Flash.dat (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Whole

end
-- ==== Proof.Spec.lean ====
/-
  The function both programs compute, index by index, on the extended reals.

  For token rows `x : [8192, 1024]` and two square matrices `R`, `E : [1024, 1024]`:
    query  q(p, k) = Σ_e x(p, e) · R(k, e)          (x times the transpose of R)
    key    κ(j, k) = Σ_e x(j, e) · E(k, e)
    logit  s(p, j) = (Σ_k q(p, k) · κ(j, k)) · c,    c the binary32 value 2⁻⁵ = 1 / √1024
    M(p)   = the maximum over all 8192 keys j of s(p, j) (a fold of `max` from −∞)
    w(p,j) = exp (s(p, j) − M(p)),   L(p) = Σ_j w(p, j)
    out(p, d) = Σ_j (w(p, j) / L(p)) · x(j, d)
  i.e. row-softmax attention of the tokens over themselves.
-/
import Idealize.ShloMosaic.PureOps.Ideal
import Idealize.ShloMosaic.Lib.ValueIdx

noncomputable section

open scoped BigOperators

namespace Cert.Attention

open Idealize.ShloMosaic Idealize.ShloMosaic.ValueIdx

/-- Indices of a `[8192, 1024]` array and of a `[1024, 1024]` array. -/
abbrev TokIdx : Type := (⟨2, ![8192, 1024]⟩ : Shape).Idx
abbrev MatIdx : Type := (⟨2, ![1024, 1024]⟩ : Shape).Idx

/-- Entry `(p, k)` of `x · Wᵀ`: row `p` of `x` against row `k` of `W`. -/
def proj (x : TokIdx → EReal) (W : MatIdx → EReal) (p : Fin 8192) (k : Fin 1024) : EReal :=
  ∑ e : Fin 1024, x (ix2 p e) * W (ix2 k e)

/-- The scale `1 / √1024 = 2⁻⁵`, as the binary32 word the kernel multiplies by. -/
def scale : EReal := Ideal.ofBits .f32 0x3D000000#32

/-- The scaled logit of query row `p` against key row `j`. -/
def logit (x : TokIdx → EReal) (R E : MatIdx → EReal) (p j : Fin 8192) : EReal :=
  (∑ k : Fin 1024, proj x R p k * proj x E j k) * scale

/-- The largest logit of row `p`, folded from `−∞`. -/
def rowMax (x : TokIdx → EReal) (R E : MatIdx → EReal) (p : Fin 8192) : EReal :=
  (Finset.univ : Finset (Fin 8192)).fold max ⊥ (logit x R E p)

/-- The unnormalised softmax weight of key `j` in row `p`. -/
def weight (x : TokIdx → EReal) (R E : MatIdx → EReal) (p j : Fin 8192) : EReal :=
  Ideal.exp (logit x R E p j - rowMax x R E p)

/-- The normaliser of row `p`. -/
def rowSum (x : TokIdx → EReal) (R E : MatIdx → EReal) (p : Fin 8192) : EReal :=
  ∑ j : Fin 8192, weight x R E p j

/-- Softmax attention of the tokens over themselves, at entry `(p, d)`. -/
def attn (x : TokIdx → EReal) (R E : MatIdx → EReal) : TokIdx → EReal := fun i =>
  ∑ j : Fin 8192, Ideal.div (weight x R E (i 0) j) (rowSum x R E (i 0)) * x (ix2 j (i 1))

end Cert.Attention

end
-- ==== Proof.KernelIdeal.ProjValue.lean ====
/-
  The projection call's two result arrays, index by index: after the sixteen grid points each is the tokens times the
  transpose of a weight matrix, `Cert.Attention.proj`.

  At a point the body stores, whole, the product of its block of 512 token rows with a matrix, contracting the second
  axis of both operands into a zero accumulator: entry (r, k) is Σ_e block(r, e) · matrix(k, e). The token block at
  point t is rows 512 t … 512 t + 511 of the token array and each matrix window is the whole matrix, so what point t
  writes back is block t of the projection; the sixteen blocks of 512 rows tile the 8192 rows (row p lies in block
  p / 512), so each array ends at the projection everywhere.
-/
import proofs.«102218_j65481071395329_2_alg».proof.Proof.KernelIdeal.Region0
import proofs.«102218_j65481071395329_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.ProjValue

open Cert.KernelIdeal Cert.KernelIdeal.Gen Cert.KernelIdeal.Proj
open Idealize.ShloMosaic Idealize.ShloMosaic.TcCoe Idealize.ShloMosaic.ValueIdx
open Idealize.SL.Sem
open Idealize.ShloMosaic.Pipeline (Dat Cfg Window)

/-! ## The body's product at an index -/

/-- The zero offsets of a whole-buffer access, however spelt. -/
theorem hz : (![0, 0] : Fin 2 → Nat) = fun _ => 0 := funext fun a => by fin_cases a <;> rfl

theorem lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

theorem lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q

theorem rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

theorem rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A product contracting the second axis of both operands, into a zero accumulator, at entry (r, k): row r of the
    left operand against row k of the right. -/
theorem matmul_at (x0 : FVec Ideal S512x1024 .f32) (x1 : FVec Ideal S1024x1024 .f32) (r : Fin 512) (k : Fin 1024) :
    FloatOps.matmul (φ₁ := .f32) (φ₂ := .f32) dot_S512x1024_S1024x1024_S512x1024_1_1_0_0_n_n (some .fp32) x0 x1 (constant (F := Ideal) S512x1024 .f32 0x00000000#32) (ix2 r k)
      = ∑ e : Fin 1024, x0 (ix2 r e) * x1 (ix2 k e) := by
  rw [Ideal.matmul_constant_zero_apply, ← Equiv.sum_comp (ValueIdx.contrEquiv1 dot_S512x1024_S1024x1024_S512x1024_1_1_0_0_n_n 1024 rfl rfl).symm]
  refine Finset.sum_congr rfl fun e _ => ?_
  have he := ValueIdx.contrEquiv1_symm_val dot_S512x1024_S1024x1024_S512x1024_1_1_0_0_n_n 1024 rfl rfl e
  have el : dot_S512x1024_S1024x1024_S512x1024_1_1_0_0_n_n.lhsIdx (ix2 r k) ((ValueIdx.contrEquiv1 dot_S512x1024_S1024x1024_S512x1024_1_1_0_0_n_n 1024 rfl rfl).symm e) = ix2 r e := funext fun a => Fin.ext (by
    match a with
    | ⟨0, _⟩ => exact lhs_0 _ _
    | ⟨1, _⟩ => exact (lhs_1 _ _).trans he)
  have er : dot_S512x1024_S1024x1024_S512x1024_1_1_0_0_n_n.rhsIdx (ix2 r k) ((ValueIdx.contrEquiv1 dot_S512x1024_S1024x1024_S512x1024_1_1_0_0_n_n 1024 rfl rfl).symm e) = ix2 k e := funext fun a => Fin.ext (by
    match a with
    | ⟨0, _⟩ => exact rhs_0 _ _
    | ⟨1, _⟩ => exact (rhs_1 _ _).trans he)
  rw [el, er]

/-- What the body leaves in the first result buffer, at entry (r, k). -/
theorem outQ_apply (x0 : Vec Ideal S512x1024 .f32) (x1 : Vec Ideal S1024x1024 .f32) (r : Fin 512) (k : Fin 1024) :
    outQ (F := Ideal) x0 x1 (ix2 r k) = ∑ e : Fin 1024, x0 (ix2 r e) * x1 (ix2 k e) := by
  unfold outQ
  rw [View.canon_unit_zero hz]
  simp only [View.ld_unit_zero (S := S512x1024) hz, View.ld_unit_zero (S := S1024x1024) hz]
  exact matmul_at x0 x1 r k

/-- What the body leaves in the second result buffer, at entry (r, k). -/
theorem outK_apply (x0 : Vec Ideal S512x1024 .f32) (x2 : Vec Ideal S1024x1024 .f32) (r : Fin 512) (k : Fin 1024) :
    outK (F := Ideal) x0 x2 (ix2 r k) = ∑ e : Fin 1024, x0 (ix2 r e) * x2 (ix2 k e) := by
  unfold outK
  rw [View.canon_unit_zero hz]
  simp only [View.ld_unit_zero (S := S512x1024) hz, View.ld_unit_zero (S := S1024x1024) hz]
  exact matmul_at x0 x2 r k

/-! ## From the blocks to the arrays -/

section Blocks

variable (V : (c : Dev nD) → (b : Ref sig .tc) → Buf (Elt Ideal) ((c : Thread nD τ).loc b))

/-- The printed index maps over the sixteen grid points: the token window and the two result windows sit at block row
    t, block column 0; the two matrix windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The token block at point t, at (r, e), is the token array at (512 t + r, e). -/
theorem blk_tok_apply (c : Dev nD) (t : Fin cfg0.N) (x : S512x1024.Idx) (i : S8192x1024.Idx)
    (h0 : (i 0).val = 512 * t.val + (x 0).val) (h1 : (i 1).val = (x 1).val) :
    (blk V c 0 t : Vec Ideal S512x1024 .f32) x = (V c main_arg0 : S8192x1024.Idx → EReal) i := by
  obtain ⟨e0, e1, -⟩ := idx_facts t
  unfold blk
  show V c main_arg0 (((cfg0.win 0).blk t).view.emb x) = V c main_arg0 i
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- The first matrix's block at any point is the whole matrix. -/
theorem blk_rot_apply (c : Dev nD) (t : Fin cfg0.N) (x i : S1024x1024.Idx)
    (h0 : (i 0).val = (x 0).val) (h1 : (i 1).val = (x 1).val) :
    (blk V c 1 t : Vec Ideal S1024x1024 .f32) x = (V c main_arg1 : S1024x1024.Idx → EReal) i := by
  obtain ⟨-, -, e0, e1, -⟩ := idx_facts t
  unfold blk
  show V c main_arg1 (((cfg0.win 1).blk t).view.emb x) = V c main_arg1 i
  congr 1
  funext a
  apply Fin.ext
  match a with
  | ⟨0, _⟩ => show win0_1.index t (0 : Fin 2) * 1024 + 1 * (x 0).val = (i 0).val; rw [e0, h0]; omega
  | ⟨1, _⟩ => show win0_1.index t (1 : Fin 2) * 1024 + 1 * (x 1).val = (i 1).val; rw [e1, h1]; omega

/-- The second matrix's likewise. -/
theorem blk_ent_apply (c : Dev nD) (t : Fin cfg0.N) (x i : S1024x1024.Idx)
    (h0 : (i 0).val = (x 0).val) (h1 : (i 1).val = (x 1).val) :
    (blk V c 2 t : Vec Ideal S1024x1024 .f32) x = (V c main_arg2 : S1024x1024.Idx → EReal) i := by
  obtain ⟨-, -, -, -, e0, e1, -⟩ := idx_facts t
  unfold blk
  show V c main_arg2 (((cfg0.win 2).blk t).view.emb x) = V c main_arg2 i
  congr 1
  funext a
  apply Fin.ext
  match a with
  | ⟨0, _⟩ => show win0_2.index t (0 : Fin 2) * 1024 + 1 * (x 0).val = (i 0).val; rw [e0, h0]; omega
  | ⟨1, _⟩ => show win0_2.index t (1 : Fin 2) * 1024 + 1 * (x 1).val = (i 1).val; rw [e1, h1]; omega

end Blocks

/-- If the left block's row y₀ is row i₀ of an array A and the right operand's row y₁ is row i₁ of a matrix W, the
    stored product at y is the projection of A against W at i. -/
theorem outQ_rows (x0 : Vec Ideal S512x1024 .f32) (x1 : Vec Ideal S1024x1024 .f32)
    (A : S8192x1024.Idx → EReal) (W : S1024x1024.Idx → EReal) (y : S512x1024.Idx) (i : S8192x1024.Idx)
    (hx0 : ∀ (r : Fin 512) (p : Fin 8192) (e : Fin 1024), r.val = (y 0).val → p.val = (i 0).val → x0 (ix2 r e) = A (ix2 p e))
    (hx1 : ∀ (k k' e : Fin 1024), k.val = (y 1).val → k'.val = (i 1).val → x1 (ix2 k e) = W (ix2 k' e)) :
    outQ (F := Ideal) x0 x1 y = Cert.Attention.proj A W (i 0) (i 1) := by
  obtain ⟨r, k, rfl⟩ : ∃ (r : Fin 512) (k : Fin 1024), y = ix2 r k := ⟨y 0, y 1, eq_ix2 y⟩
  obtain ⟨p, k', rfl⟩ : ∃ (p : Fin 8192) (k' : Fin 1024), i = ix2 p k' := ⟨i 0, i 1, eq_ix2 i⟩
  rw [outQ_apply]
  show _ = Cert.Attention.proj A W p k'
  unfold Cert.Attention.proj
  exact Finset.sum_congr rfl fun e _ => by rw [hx0 r p e rfl rfl, hx1 k k' e rfl rfl]

theorem outK_rows (x0 : Vec Ideal S512x1024 .f32) (x2 : Vec Ideal S1024x1024 .f32)
    (A : S8192x1024.Idx → EReal) (W : S1024x1024.Idx → EReal) (y : S512x1024.Idx) (i : S8192x1024.Idx)
    (hx0 : ∀ (r : Fin 512) (p : Fin 8192) (e : Fin 1024), r.val = (y 0).val → p.val = (i 0).val → x0 (ix2 r e) = A (ix2 p e))
    (hx2 : ∀ (k k' e : Fin 1024), k.val = (y 1).val → k'.val = (i 1).val → x2 (ix2 k e) = W (ix2 k' e)) :
    outK (F := Ideal) x0 x2 y = Cert.Attention.proj A W (i 0) (i 1) := by
  obtain ⟨r, k, rfl⟩ : ∃ (r : Fin 512) (k : Fin 1024), y = ix2 r k := ⟨y 0, y 1, eq_ix2 y⟩
  obtain ⟨p, k', rfl⟩ : ∃ (p : Fin 8192) (k' : Fin 1024), i = ix2 p k' := ⟨i 0, i 1, eq_ix2 i⟩
  rw [outK_apply]
  show _ = Cert.Attention.proj A W p k'
  unfold Cert.Attention.proj
  exact Finset.sum_congr rfl fun e _ => by rw [hx0 r p e rfl rfl, hx2 k k' e rfl rfl]

section Final

variable (V : (c : Dev nD) → (b : Ref sig .tc) → Buf (Elt Ideal) ((c : Thread nD τ).loc b))

/-- What point t writes back to the first result array is block t of the query projection of the arrays the call finds. -/
theorem flushed_q_eq (c : Dev nD) (t : Fin cfg0.N) :
    (dat (F := Ideal) V c).flushed 3 t
      = ((cfg0.win 3).blk t).view.read (Elt Ideal)
          (fun i : S8192x1024.Idx => Cert.Attention.proj (V c main_arg0) (V c main_arg1) (i 0) (i 1)) := by
  show (cfg0.win 3).cut (grid0.coords t) ((dat V c).after 3 t) = _
  rw [after_q]
  obtain ⟨-, -, -, -, -, -, e0, e1, -⟩ := idx_facts t
  funext j
  show outQ (F := Ideal) (blk V c 0 t) (blk V c 1 t) ((cfg0.win 3).xinj (grid0.coords t) j)
    = Cert.Attention.proj (V c main_arg0) (V c main_arg1) ((((cfg0.win 3).blk t).view.emb j) 0) ((((cfg0.win 3).blk t).view.emb j) 1)
  refine outQ_rows (blk V c 0 t) (blk V c 1 t) (V c main_arg0) (V c main_arg1) ((cfg0.win 3).xinj (grid0.coords t) j)
    (((cfg0.win 3).blk t).view.emb j) ?_ ?_
  · intro r p e hr hp
    refine blk_tok_apply V c t (ix2 r e) (ix2 p e) ?_ rfl
    show p.val = 512 * t.val + r.val
    rw [hp, hr]
    show win0_3.index t (0 : Fin 2) * 512 + 1 * (j 0).val = 512 * t.val + (j 0).val
    rw [e0]; omega
  · intro k k' e hk hk'
    refine blk_rot_apply V c t (ix2 k e) (ix2 k' e) ?_ rfl
    show k'.val = k.val
    rw [hk', hk]
    show win0_3.index t (1 : Fin 2) * 1024 + 1 * (j 1).val = (j 1).val
    rw [e1]; omega

/-- What point t writes back to the second result array is block t of the key projection. -/
theorem flushed_k_eq (c : Dev nD) (t : Fin cfg0.N) :
    (dat (F := Ideal) V c).flushed 4 t
      = ((cfg0.win 4).blk t).view.read (Elt Ideal)
          (fun i : S8192x1024.Idx => Cert.Attention.proj (V c main_arg0) (V c main_arg2) (i 0) (i 1)) := by
  show (cfg0.win 4).cut (grid0.coords t) ((dat V c).after 4 t) = _
  rw [after_k]
  obtain ⟨-, -, -, -, -, -, -, -, e0, e1⟩ := idx_facts t
  funext j
  show outK (F := Ideal) (blk V c 0 t) (blk V c 2 t) ((cfg0.win 4).xinj (grid0.coords t) j)
    = Cert.Attention.proj (V c main_arg0) (V c main_arg2) ((((cfg0.win 4).blk t).view.emb j) 0) ((((cfg0.win 4).blk t).view.emb j) 1)
  refine outK_rows (blk V c 0 t) (blk V c 2 t) (V c main_arg0) (V c main_arg2) ((cfg0.win 4).xinj (grid0.coords t) j)
    (((cfg0.win 4).blk t).view.emb j) ?_ ?_
  · intro r p e hr hp
    refine blk_tok_apply V c t (ix2 r e) (ix2 p e) ?_ rfl
    show p.val = 512 * t.val + r.val
    rw [hp, hr]
    show win0_4.index t (0 : Fin 2) * 512 + 1 * (j 0).val = 512 * t.val + (j 0).val
    rw [e0]; omega
  · intro k k' e hk hk'
    refine blk_ent_apply V c t (ix2 k e) (ix2 k' e) ?_ rfl
    show k'.val = k.val
    rw [hk', hk]
    show win0_4.index t (1 : Fin 2) * 1024 + 1 * (j 1).val = (j 1).val
    rw [e1]; omega

/-- An index of the first result array is in point t's block iff each coordinate is in the block's range on its axis. -/
theorem mem_blk_q (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]
  exact Iff.rfl

theorem mem_blk_k (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_1).slice (win0_4.rect t)).set ↔ _
  rw [View.set_slice_whole, Rect.mem_set_unit]
  exact Iff.rfl

/-- Row p of a result array is written back by point p / 512: the sixteen blocks of 512 rows tile the 8192 rows. -/
theorem cover_q (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  have ht : (i 0).val / 512 < cfg0.N := by rw [hN]; omega
  obtain ⟨-, -, -, -, -, -, e0, e1, -⟩ := idx_facts ⟨(i 0).val / 512, ht⟩
  have e0' : win0_3.index ⟨(i 0).val / 512, ht⟩ (0 : Fin 2) = (i 0).val / 512 := e0
  refine ⟨⟨(i 0).val / 512, ht⟩, flush0_3 _, ?_⟩
  rw [mem_blk_q]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0']; omega
  | ⟨1, _⟩ =>
    show win0_3.index ⟨(i 0).val / 512, ht⟩ (1 : Fin 2) * 1024 ≤ (i 1).val ∧ (i 1).val < win0_3.index ⟨(i 0).val / 512, ht⟩ (1 : Fin 2) * 1024 + 1024
    rw [e1]; omega

theorem cover_k (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  have ht : (i 0).val / 512 < cfg0.N := by rw [hN]; omega
  obtain ⟨-, -, -, -, -, -, -, -, e0, e1⟩ := idx_facts ⟨(i 0).val / 512, ht⟩
  have e0' : win0_4.index ⟨(i 0).val / 512, ht⟩ (0 : Fin 2) = (i 0).val / 512 := e0
  refine ⟨⟨(i 0).val / 512, ht⟩, flush0_4 _, ?_⟩
  rw [mem_blk_k]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e0']; omega
  | ⟨1, _⟩ =>
    show win0_4.index ⟨(i 0).val / 512, ht⟩ (1 : Fin 2) * 1024 ≤ (i 1).val ∧ (i 1).val < win0_4.index ⟨(i 0).val / 512, ht⟩ (1 : Fin 2) * 1024 + 1024
    rw [e1]; omega

/-- After the call the first result array is the query projection x · Rᵀ of the arrays the call finds. -/
theorem final_q (c : Dev nD) :
    (dat (F := Ideal) V c).arrAt 3 cfg0.N
      = fun i : S8192x1024.Idx => Cert.Attention.proj (V c main_arg0) (V c main_arg1) (i 0) (i 1) :=
  (dat (F := Ideal) V c).arrAt_eq_of_cover 3 _ (fun t _ => flushed_q_eq V c t) cover_q

/-- After the call the second result array is the key projection x · Eᵀ. -/
theorem final_k (c : Dev nD) :
    (dat (F := Ideal) V c).arrAt 4 cfg0.N
      = fun i : S8192x1024.Idx => Cert.Attention.proj (V c main_arg0) (V c main_arg2) (i 0) (i 1) :=
  (dat (F := Ideal) V c).arrAt_eq_of_cover 4 _ (fun t _ => flushed_k_eq V c t) cover_k

end Final

end Cert.KernelIdeal.ProjValue

end
-- ==== Proof.KernelIdeal.Entry.lean ====
/-
  What the attention call finds in its three input arrays, at the ideal instance: the query and key arrays are what the
  projection call left (tokens times the transposed weight matrices — the host's format change in between writes
  another buffer), and the value array is the host's bf16 copy of the tokens, which on the extended reals is the tokens.
-/
import proofs.«102218_j65481071395329_2_alg».proof.Proof.KernelIdeal.Whole
import proofs.«102218_j65481071395329_2_alg».proof.Proof.KernelIdeal.ProjValue
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The host conversion writes neither the query nor the key array. -/
theorem W2_keep (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- The query array at the attention call's entry: tokens times the transposed first matrix. -/
theorem entry_q (c : Dev nD) :
    (V2 m ρ c main_v0_0 : Cert.Attention.TokIdx → EReal)
      = fun i => Cert.Attention.proj (m ((c : Thread nD τ).loc main_arg0)) (m ((c : Thread nD τ).loc main_arg1)) (i 0) (i 1) :=
  ((W2_keep m ρ c main_v0_0 (by decide)).trans (W1_arr m ρ c 3)).trans (ProjValue.final_q (V0 m ρ) c)

/-- The key array at the attention call's entry: tokens times the transposed second matrix. -/
theorem entry_k (c : Dev nD) :
    (V2 m ρ c main_v0_1 : Cert.Attention.TokIdx → EReal)
      = fun i => Cert.Attention.proj (m ((c : Thread nD τ).loc main_arg0)) (m ((c : Thread nD τ).loc main_arg2)) (i 0) (i 1) :=
  ((W2_keep m ρ c main_v0_1 (by decide)).trans (W1_arr m ρ c 4)).trans (ProjValue.final_k (V0 m ρ) c)

/-- The value array at the attention call's entry: the tokens (the change of float format is the identity). -/
theorem entry_v (c : Dev nD) :
    (V2 m ρ c main_v1 : Cert.Attention.TokIdx → EReal) = m ((c : Thread nD τ).loc main_arg0) := by
  have e : (V2 m ρ c main_v1 : Cert.Attention.TokIdx → EReal)
      = (truncf (F := Ideal) .bf16 (W1 m ρ c (Proc.devRef .tc main_arg0)) bitsLt_bf16_f32 : Cert.Attention.TokIdx → EReal) := by
    show StableHlo.after hostOps1 (W1 m ρ c) (Proc.devRef .tc main_v1) = _
    after_results
  rw [e]
  have e0 : W1 m ρ c (Proc.devRef .tc main_arg0) = m ((c : Thread nD τ).loc main_arg0) :=
    (W1_arr m ρ c 0).trans (((Proj.dat (V0 m ρ) c).arrAt_in 0 rfl _).trans (Proj.A_eq (V0 m ρ) c 0))
  rw [e0]
  rfl

end Cert.KernelIdeal.Whole

end
-- ==== Proof.KernelIdeal.FlashStep.lean ====
/-
  The attention body as a pure step. Folding one key block into the running row maximum `m`, row sum `l` and
  weighted sum `a` gives
      m' = max m (the block's row maxima of the scaled logits),
      l' = exp (m − m') · l + the row sums of exp (logit − m'),
      a' = exp (m − m') · a + exp (logit − m') times the value block,
  and the result block is a / l. Each case's run leaves these of what it found (of the reset values −∞, 0, 0 at a
  query block's first key block), so the four buffers after a point obey a recurrence over the points.
-/
import proofs.«102218_j65481071395329_2_alg».proof.Proof.KernelIdeal.Flash
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body are zero. -/
theorem hz2 : (![0, 0] : Fin 2 → ℕ) = fun _ => 0 := by funext a; fin_cases a <;> rfl

/-! ## One key block folded in -/

/-- The new running maximum. -/
def stepM (q k : Vec F S512x1024 .f32) (m : Vec F S512x1 .f32) : Vec F S512x1 .f32 := k1_pay2 (k1_pay8 q k m)
/-- The new running sum. -/
def stepS (q k : Vec F S512x1024 .f32) (m l : Vec F S512x1 .f32) : Vec F S512x1 .f32 := k1_pay11 q k m m l
/-- The new running weighted sum. -/
def stepA (q k : Vec F S512x1024 .f32) (v : Vec F S512x1024 .bf16) (m : Vec F S512x1 .f32) (a : Vec F S512x1024 .f32) : Vec F S512x1024 .f32 :=
  k1_pay1 (k1_pay9 q k m m) (k1_pay12 q k m v) a
/-- The result block: the weighted sum over the row sum. -/
def quot (a : Vec F S512x1024 .f32) (l : Vec F S512x1 .f32) : Vec F S512x1024 .f32 := k1_pay3 a l

/-- The three running quantities. -/
abbrev Tr (F : FTy → Type) [FloatOps F] : Type := Vec F S512x1 .f32 × Vec F S512x1 .f32 × Vec F S512x1024 .f32

/-- The reset values: −∞, 0, 0. -/
def resetTr : Tr F := (k1_pay4, k1_pay5, k1_pay6)

/-- One key block folded into the three. -/
def stepTr (q k : Vec F S512x1024 .f32) (v : Vec F S512x1024 .bf16) (p : Tr F) : Tr F :=
  (stepM q k p.1, stepS q k p.1 p.2.1, stepA q k v p.1 p.2.2)

/-! ## What each case's run leaves is that step -/

theorem outFirst_M_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) :
    outFirst_M c i arg2 harg2 arg3 harg3 arg4 harg4 arg5 harg5 arg6 harg6 arg7 harg7 arg8 harg8 hc0 hc1 x0 x1 x2 = stepM x0 x1 (k1_pay4 (F := F)) := by
  unfold outFirst_M runFirst
  (try unfold quot); (try unfold stepA); (try unfold stepS); (try unfold stepM)
  dsimp only
  sl_unfold_words
  rw [View.canon_cons_unit_zero (S := S512x1) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outFirst_S_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) :
    outFirst_S c i arg2 harg2 arg3 harg3 arg4 harg4 arg5 harg5 arg6 harg6 arg7 harg7 arg8 harg8 hc0 hc1 x0 x1 x2 = stepS x0 x1 (k1_pay4 (F := F)) (k1_pay5 (F := F)) := by
  unfold outFirst_S runFirst
  (try unfold quot); (try unfold stepA); (try unfold stepS); (try unfold stepM)
  dsimp only
  sl_unfold_words
  rw [View.canon_cons_unit_zero (S := S512x1) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outFirst_A_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : condFirst i) (hc1 : ¬condLast i)
    (x0 : Vec F S512x1024 .f32) (x1 : Vec F S512x1024 .f32) (x2 : Vec F S512x1024 .bf16) :
    outFirst_A c i arg2 harg2 arg3 harg3 arg4 harg4 arg5 harg5 arg6 harg6 arg7 harg7 arg8 harg8 hc0 hc1 x0 x1 x2 = stepA x0 x1 x2 (k1_pay4 (F := F)) (k1_pay6 (F := F)) := by
  unfold outFirst_A runFirst
  (try unfold quot); (try unfold stepA); (try unfold stepS); (try unfold stepM)
  dsimp only
  sl_unfold_words
  rw [View.canon_cons_unit_zero (S := S512x1024) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outMid_M_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) :
    outMid_M c i arg2 harg2 arg3 harg3 arg4 harg4 arg5 harg5 arg6 harg6 arg7 harg7 arg8 harg8 hc0 hc1 x0 x1 x2 xm xs xa = stepM x0 x1 xm := by
  unfold outMid_M runMid
  (try unfold quot); (try unfold stepA); (try unfold stepS); (try unfold stepM)
  dsimp only
  sl_unfold_words
  rw [View.canon_cons_unit_zero (S := S512x1) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outMid_S_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) :
    outMid_S c i arg2 harg2 arg3 harg3 arg4 harg4 arg5 harg5 arg6 harg6 arg7 harg7 arg8 harg8 hc0 hc1 x0 x1 x2 xm xs xa = stepS x0 x1 xm xs := by
  unfold outMid_S runMid
  (try unfold quot); (try unfold stepA); (try unfold stepS); (try unfold stepM)
  dsimp only
  sl_unfold_words
  rw [View.canon_cons_unit_zero (S := S512x1) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outMid_A_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : ¬condLast i)
    (x0 : Vec F S512x1024 .f32) (x1 : Vec F S512x1024 .f32) (x2 : Vec F S512x1024 .bf16) (xm : Vec F S512x1 .f32) (xs : Vec F S512x1 .f32) (xa : Vec F S512x1024 .f32) :
    outMid_A c i arg2 harg2 arg3 harg3 arg4 harg4 arg5 harg5 arg6 harg6 arg7 harg7 arg8 harg8 hc0 hc1 x0 x1 x2 xm xs xa = stepA x0 x1 x2 xm xa := by
  unfold outMid_A runMid
  (try unfold quot); (try unfold stepA); (try unfold stepS); (try unfold stepM)
  dsimp only
  sl_unfold_words
  rw [View.canon_cons_unit_zero (S := S512x1024) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outLast_M_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) :
    outLast_M c i arg2 harg2 arg3 harg3 arg4 harg4 arg5 harg5 arg6 harg6 arg7 harg7 arg8 harg8 hc0 hc1 x0 x1 x2 xm xs xa = stepM x0 x1 xm := by
  unfold outLast_M runLast
  (try unfold quot); (try unfold stepA); (try unfold stepS); (try unfold stepM)
  dsimp only
  sl_unfold_words
  rw [View.canon_cons_unit_zero (S := S512x1) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outLast_S_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) :
    outLast_S c i arg2 harg2 arg3 harg3 arg4 harg4 arg5 harg5 arg6 harg6 arg7 harg7 arg8 harg8 hc0 hc1 x0 x1 x2 xm xs xa = stepS x0 x1 xm xs := by
  unfold outLast_S runLast
  (try unfold quot); (try unfold stepA); (try unfold stepS); (try unfold stepM)
  dsimp only
  sl_unfold_words
  rw [View.canon_cons_unit_zero (S := S512x1) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outLast_A_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) :
    outLast_A c i arg2 harg2 arg3 harg3 arg4 harg4 arg5 harg5 arg6 harg6 arg7 harg7 arg8 harg8 hc0 hc1 x0 x1 x2 xm xs xa = stepA x0 x1 x2 xm xa := by
  unfold outLast_A runLast
  (try unfold quot); (try unfold stepA); (try unfold stepS); (try unfold stepM)
  dsimp only
  sl_unfold_words
  rw [View.canon_cons_unit_zero (S := S512x1024) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

theorem outLast_O_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬condFirst i) (hc1 : condLast i)
    (x0 : Vec F S512x1024 .f32) (x1 : Vec F S512x1024 .f32) (x2 : Vec F S512x1024 .bf16) (xm : Vec F S512x1 .f32) (xs : Vec F S512x1 .f32) (xa : Vec F S512x1024 .f32) :
    outLast_O c i arg2 harg2 arg3 harg3 arg4 harg4 arg5 harg5 arg6 harg6 arg7 harg7 arg8 harg8 hc0 hc1 x0 x1 x2 xm xs xa = quot (stepA x0 x1 x2 xm xa) (stepS x0 x1 xm xs) := by
  unfold outLast_O runLast
  (try unfold quot); (try unfold stepA); (try unfold stepS); (try unfold stepM)
  dsimp only
  sl_unfold_words
  rw [View.canon_cons_unit_zero (S := S512x1024) hz2]
  simp only [View.readAt_eq_ld, harg2.read_unread, harg3.read_unread, harg4.read_unread, harg6.read_unread, harg7.read_unread, harg8.read_unread,
    View.ld_unit_zero (S := S512x1024) hz2, View.ld_unit_zero (S := S512x1) hz2,
    View.readCov_unit_zero (S := S512x1) _ hz2, View.readCov_unit_zero (S := S512x1024) _ hz2]

/-! ## The recurrence over the points -/

variable (V : (c : Dev nD) → (b : Ref sig .tc) → Buf (Elt F) ((c : Thread nD τ).loc b))

/-- At a query block's first key block the three running quantities are one step from the reset values. -/
theorem tr_first (c : Dev nD) (t : Fin cfg1.N) (h0 : t.val % 16 = 0) :
    (outsAt V c t.val t.isLt).2 = stepTr (blk V c 0 t) (blk V c 1 t) (blk V c 2 t) resetTr := by
  rw [outsAt_first V c t h0]
  unfold firstState stepTr resetTr; dsimp only
  rw [outFirst_M_eq, outFirst_S_eq, outFirst_A_eq]

/-- At every other point they are one step from what the point before left. -/
theorem tr_next (c : Dev nD) (t : Fin cfg1.N) (h0 : ¬t.val % 16 = 0) :
    (outsAt V c t.val t.isLt).2 = stepTr (blk V c 0 t) (blk V c 1 t) (blk V c 2 t) (outsAt V c (t.val - 1) (Nat.lt_of_le_of_lt (Nat.sub_le _ _) t.isLt)).2 := by
  by_cases h1 : t.val % 16 = 15
  · rw [outsAt_last V c t h0 h1]
    unfold lastState stepTr; dsimp only
    rw [outLast_M_eq, outLast_S_eq, outLast_A_eq]
  · rw [outsAt_mid V c t h0 h1]
    unfold midState stepTr; dsimp only
    rw [outMid_M_eq, outMid_S_eq, outMid_A_eq]

/-- At a query block's last key block the result buffer holds the weighted sum over the row sum. -/
theorem out_last (c : Dev nD) (t : Fin cfg1.N) (h0 : ¬t.val % 16 = 0) (h1 : t.val % 16 = 15) :
    (outsAt V c t.val t.isLt).1 = quot (outsAt V c t.val t.isLt).2.2.2 (outsAt V c t.val t.isLt).2.2.1 := by
  rw [outsAt_last V c t h0 h1]
  unfold lastState; dsimp only
  rw [outLast_O_eq, outLast_S_eq, outLast_A_eq]

end Cert.KernelIdeal.Flash

end
-- ==== Proof.LibOnlineSoftmax.lean ====
import Idealize.ShloMosaic.PureOps.Ideal

/-!
# Online softmax equals one-pass softmax

Scores are cut into B blocks of K entries. The online recurrence keeps a running maximum m,
a running sum l = Σ exp(s − m) and a running weighted sum a = Σ exp(s − m)·v; absorbing a block
replaces m by m' = max m (block maximum) and rescales the two sums by exp(m − m').
After all B blocks, a / l is the softmax-weighted sum Σ (exp(s − M) / L)·v with M the global
maximum and L = Σ exp(s − M).

Values are extended reals; the scores and weights fed in are real. The start state is
(−∞, 0, 0): there exp(−∞ − m') = 0 and 0·0 = 0, so the first block is absorbed correctly.

The file ends with two re-indexing lemmas that cut a flat index i < B·K into (b, j) with
i = b·K + j, for sums and for folded maxima.
-/

noncomputable section

open scoped BigOperators
open Idealize.ShloMosaic

namespace Cert.OnlineSoftmax

variable {B K : ℕ}

/-! ## The online-softmax recurrence -/

/-- One block's update of (running max, running sum, running weighted sum):
m' = max m (max of the block), α = exp(m − m'),
l' = α·l + Σ_j exp(s_j − m'), a' = α·a + Σ_j exp(s_j − m')·v_j. -/
def step (sb vb : Fin K → EReal) (st : EReal × EReal × EReal) : EReal × EReal × EReal :=
  let m' := max st.1 ((Finset.univ : Finset (Fin K)).fold max ⊥ sb)
  let α := Ideal.exp (st.1 - m')
  (m', α * st.2.1 + ∑ j : Fin K, Ideal.exp (sb j - m'),
    α * st.2.2 + ∑ j : Fin K, Ideal.exp (sb j - m') * vb j)

/-- The state after the first n blocks, from (−∞, 0, 0). -/
def run (s v : Fin B → Fin K → EReal) : ℕ → EReal × EReal × EReal
  | 0 => (⊥, 0, 0)
  | n+1 => if h : n < B then step (s ⟨n, h⟩) (v ⟨n, h⟩) (run s v n) else run s v n

/-- The run starts from (−∞, 0, 0). -/
theorem run_zero (s v : Fin B → Fin K → EReal) : run s v 0 = (⊥, 0, 0) := rfl

/-- The run absorbs block n at step n + 1. -/
theorem run_succ (s v : Fin B → Fin K → EReal) {n : ℕ} (h : n < B) :
    run s v (n+1) = step (s ⟨n, h⟩) (v ⟨n, h⟩) (run s v n) := by
  rw [run, dif_pos h]

/-- The maximum of all scores, taken block by block. -/
def gmax (S : Fin B → Fin K → EReal) : EReal :=
  (Finset.univ : Finset (Fin B)).fold max ⊥
    (fun b => (Finset.univ : Finset (Fin K)).fold max ⊥ (S b))

/-- The softmax denominator Σ_b Σ_j exp(S b j − max). -/
def gsum (S : Fin B → Fin K → EReal) : EReal :=
  ∑ b : Fin B, ∑ j : Fin K, Ideal.exp (S b j - gmax S)

/-! ## Coercion helpers -/

/-- A finite sum of reals, seen in the extended reals, is the sum of the images. -/
theorem coe_sum {ι : Type*} (s : Finset ι) (f : ι → ℝ) :
    ∑ i ∈ s, (f i : EReal) = ((∑ i ∈ s, f i : ℝ) : EReal) := by
  classical
  refine Finset.induction_on s (by simp) ?_
  intro a s ha ih
  rw [Finset.sum_insert ha, Finset.sum_insert ha, ih, EReal.coe_add]

/-- The maximum, folded from −∞, of finitely many finite values over a nonempty index set is
finite: it is below +∞ because every value is, and above −∞ because one value is. -/
theorem fold_max_real {ι : Type*} (s : Finset ι) (hs : s.Nonempty) (f : ι → EReal)
    (hf : ∀ i ∈ s, f i ≠ ⊥ ∧ f i ≠ ⊤) : ∃ r : ℝ, s.fold max ⊥ f = (r : EReal) := by
  have htop : s.fold max ⊥ f ≠ ⊤ := by
    apply ne_of_lt
    rw [Finset.fold_max_lt]
    exact ⟨bot_lt_top, fun i hi => lt_top_iff_ne_top.2 (hf i hi).2⟩
  have hbot : s.fold max ⊥ f ≠ ⊥ := by
    have : ⊥ < s.fold max ⊥ f := by
      rw [Finset.lt_fold_max]
      obtain ⟨i, hi⟩ := hs
      exact Or.inr ⟨i, hi, bot_lt_iff_ne_bot.2 (hf i hi).1⟩
    exact this.ne'
  exact ⟨(s.fold max ⊥ f).toReal, (EReal.coe_toReal htop hbot).symm⟩

/-- The maximum of a nonempty block of real scores is real. -/
theorem bmax_real (hK : 0 < K) (sb : Fin K → ℝ) :
    ∃ r : ℝ, (Finset.univ : Finset (Fin K)).fold max ⊥ (fun j => (sb j : EReal)) = (r : EReal) :=
  fold_max_real _ ⟨⟨0, hK⟩, Finset.mem_univ _⟩ _
    (fun j _ => ⟨EReal.coe_ne_bot _, EReal.coe_ne_top _⟩)

/-- Rescaling the sum: exp(m − m')·Σ exp(f − m) = Σ exp(f − m'), by exp(x)·exp(y) = exp(x + y). -/
theorem rescale_sum {ι : Type*} (T : Finset ι) (f : ι → Fin K → ℝ) (m m' : ℝ) :
    Ideal.exp ((m : EReal) - m') * ∑ b ∈ T, ∑ j : Fin K, Ideal.exp ((f b j : EReal) - m)
      = ∑ b ∈ T, ∑ j : Fin K, Ideal.exp ((f b j : EReal) - m') := by
  simp only [← EReal.coe_sub, Ideal.exp_coe, coe_sum, ← EReal.coe_mul]
  congr 1
  rw [Finset.mul_sum]
  refine Finset.sum_congr rfl (fun b _ => ?_)
  rw [Finset.mul_sum]
  refine Finset.sum_congr rfl (fun j _ => ?_)
  rw [← Real.exp_add]; congr 1; ring

/-- Rescaling the weighted sum: exp(m − m')·Σ exp(f − m)·g = Σ exp(f − m')·g. -/
theorem rescale_wsum {ι : Type*} (T : Finset ι) (f g : ι → Fin K → ℝ) (m m' : ℝ) :
    Ideal.exp ((m : EReal) - m') *
        ∑ b ∈ T, ∑ j : Fin K, Ideal.exp ((f b j : EReal) - m) * (g b j : EReal)
      = ∑ b ∈ T, ∑ j : Fin K, Ideal.exp ((f b j : EReal) - m') * (g b j : EReal) := by
  simp only [← EReal.coe_sub, Ideal.exp_coe, ← EReal.coe_mul, coe_sum]
  congr 1
  rw [Finset.mul_sum]
  refine Finset.sum_congr rfl (fun b _ => ?_)
  rw [Finset.mul_sum]
  refine Finset.sum_congr rfl (fun j _ => ?_)
  rw [← mul_assoc, ← Real.exp_add]; congr 2; ring

/-! ## The invariant of one step

For a set T of blocks already absorbed, the state is
(max over T, Σ_{b∈T} Σ_j exp(s b j − max), Σ_{b∈T} Σ_j exp(s b j − max)·v b j);
absorbing a new block a ∉ T gives the same triple for insert a T. -/

/-- The maximum of the scores of the blocks in T (−∞ for no block). -/
def fmax (S : Fin B → Fin K → EReal) (T : Finset (Fin B)) : EReal :=
  T.fold max ⊥ (fun b => (Finset.univ : Finset (Fin K)).fold max ⊥ (S b))

/-- Σ_{b∈T} Σ_j exp(S b j − x). -/
def fsum (S : Fin B → Fin K → EReal) (T : Finset (Fin B)) (x : EReal) : EReal :=
  ∑ b ∈ T, ∑ j : Fin K, Ideal.exp (S b j - x)

/-- Σ_{b∈T} Σ_j exp(S b j − x)·V b j. -/
def fwsum (S V : Fin B → Fin K → EReal) (T : Finset (Fin B)) (x : EReal) : EReal :=
  ∑ b ∈ T, ∑ j : Fin K, Ideal.exp (S b j - x) * V b j

/-- Real entries seen as extended reals. -/
abbrev cS (s : Fin B → Fin K → ℝ) : Fin B → Fin K → EReal := fun b j => (s b j : EReal)

/-- The maximum over a nonempty set of nonempty blocks of real scores is real. -/
theorem fmax_real (hK : 0 < K) (s : Fin B → Fin K → ℝ) (T : Finset (Fin B)) (hT : T.Nonempty) :
    ∃ r : ℝ, fmax (cS s) T = (r : EReal) := by
  refine fold_max_real T hT _ (fun b _ => ?_)
  obtain ⟨r, hr⟩ := bmax_real hK (s b)
  show (Finset.univ : Finset (Fin K)).fold max ⊥ (fun j => (s b j : EReal)) ≠ ⊥ ∧
    (Finset.univ : Finset (Fin K)).fold max ⊥ (fun j => (s b j : EReal)) ≠ ⊤
  rw [hr]
  exact ⟨EReal.coe_ne_bot _, EReal.coe_ne_top _⟩

/-- Absorbing block a ∉ T turns the invariant triple of T into that of insert a T.
For T empty the old sums are 0 and α·0 = 0; otherwise both maxima are real and the old sums
are rescaled by exp(m − m'). -/
theorem step_invariant (hK : 0 < K) (s v : Fin B → Fin K → ℝ) (T : Finset (Fin B))
    (a : Fin B) (ha : a ∉ T) :
    step (cS s a) (cS v a) (fmax (cS s) T, fsum (cS s) T (fmax (cS s) T),
        fwsum (cS s) (cS v) T (fmax (cS s) T))
      = (fmax (cS s) (insert a T), fsum (cS s) (insert a T) (fmax (cS s) (insert a T)),
          fwsum (cS s) (cS v) (insert a T) (fmax (cS s) (insert a T))) := by
  classical
  have hm' : max (fmax (cS s) T) ((Finset.univ : Finset (Fin K)).fold max ⊥ (cS s a))
      = fmax (cS s) (insert a T) := by
    rw [fmax, fmax, Finset.fold_insert ha, max_comm]
  obtain ⟨r', hr'⟩ := fmax_real hK s (insert a T) (Finset.insert_nonempty a T)
  simp only [step, hm']
  rcases T.eq_empty_or_nonempty with hT | hT
  · subst hT
    simp [fsum, fwsum]
  · obtain ⟨r, hr⟩ := fmax_real hK s T hT
    rw [hr, hr']
    have h1 : Ideal.exp ((r : EReal) - r') * fsum (cS s) T r = fsum (cS s) T r' :=
      rescale_sum T s r r'
    have h2 : Ideal.exp ((r : EReal) - r') * fwsum (cS s) (cS v) T r
        = fwsum (cS s) (cS v) T r' :=
      rescale_wsum T s v r r'
    rw [h1, h2]
    simp only [fsum, fwsum, Finset.sum_insert ha]
    rw [add_comm (∑ b ∈ T, ∑ j : Fin K, Ideal.exp (cS s b j - r')),
      add_comm (∑ b ∈ T, ∑ j : Fin K, Ideal.exp (cS s b j - r') * cS v b j)]

/-! ## The invariant of the run -/

/-- The first n blocks. -/
def pre (B : ℕ) (n : ℕ) : Finset (Fin B) := Finset.univ.filter (fun b => b.val < n)

/-- No block comes before block 0. -/
theorem pre_zero : pre B 0 = ∅ := by
  ext b; simp [pre]

/-- The first n + 1 blocks are block n and the first n blocks. -/
theorem pre_succ {n : ℕ} (h : n < B) : pre B (n+1) = insert ⟨n, h⟩ (pre B n) := by
  ext b
  simp only [pre, Finset.mem_filter, Finset.mem_univ, true_and, Finset.mem_insert, Fin.ext_iff]
  omega

/-- Block n is not among the first n blocks. -/
theorem not_mem_pre {n : ℕ} (h : n < B) : (⟨n, h⟩ : Fin B) ∉ pre B n := by
  simp [pre]

/-- The first B blocks are all blocks. -/
theorem pre_all : pre B B = Finset.univ := by
  ext b; simp [pre, b.isLt]

/-- After n ≤ B blocks the state is the invariant triple of the first n blocks. -/
theorem run_invariant (hK : 0 < K) (s v : Fin B → Fin K → ℝ) (n : ℕ) (hn : n ≤ B) :
    run (cS s) (cS v) n = (fmax (cS s) (pre B n), fsum (cS s) (pre B n) (fmax (cS s) (pre B n)),
      fwsum (cS s) (cS v) (pre B n) (fmax (cS s) (pre B n))) := by
  induction n with
  | zero => simp [run, pre_zero, fmax, fsum, fwsum]
  | succ n ih =>
    have h : n < B := hn
    rw [run, dif_pos h, ih (le_of_lt h), pre_succ h]
    exact step_invariant hK s v (pre B n) ⟨n, h⟩ (not_mem_pre h)

/-! ## The final state and the softmax identity -/

/-- After all B blocks the state is (M, L, Σ_b Σ_j exp(s b j − M)·v b j) with M the global
maximum and L the softmax denominator. -/
theorem run_final (hK : 0 < K) (s v : Fin B → Fin K → ℝ) :
    run (cS s) (cS v) B = (gmax (cS s), gsum (cS s),
      ∑ b : Fin B, ∑ j : Fin K, Ideal.exp (cS s b j - gmax (cS s)) * cS v b j) := by
  rw [run_invariant hK s v B le_rfl, pre_all]
  rfl

/-- The global maximum of a nonempty family of nonempty blocks of real scores is real. -/
theorem gmax_real (hB : 0 < B) (hK : 0 < K) (s : Fin B → Fin K → ℝ) :
    ∃ r : ℝ, gmax (cS s) = (r : EReal) :=
  fmax_real hK s Finset.univ ⟨⟨0, hB⟩, Finset.mem_univ _⟩

/-- The online recurrence computes softmax attention: the final weighted sum divided by the
final sum is Σ_b Σ_j (exp(s b j − M) / L)·v b j. The denominator L is a positive real (a
nonempty sum of exponentials), so both divisions are products with 1/L and the identity is
(Σ e·v)·(1/L) = Σ (e·(1/L))·v over the reals. -/
theorem run_eq_softmax (hB : 0 < B) (hK : 0 < K) (s v : Fin B → Fin K → ℝ) :
    Ideal.div (run (cS s) (cS v) B).2.2 (run (cS s) (cS v) B).2.1
      = ∑ b : Fin B, ∑ j : Fin K,
          Ideal.div (Ideal.exp (cS s b j - gmax (cS s))) (gsum (cS s)) * cS v b j := by
  rw [run_final hK s v]
  obtain ⟨M, hM⟩ := gmax_real hB hK s
  have hL : gsum (cS s) = ((∑ b : Fin B, ∑ j : Fin K, Real.exp (s b j - M) : ℝ) : EReal) := by
    simp only [gsum, hM, ← EReal.coe_sub, Ideal.exp_coe, coe_sum]
  have hpos : 0 < ∑ b : Fin B, ∑ j : Fin K, Real.exp (s b j - M) := by
    haveI : Nonempty (Fin B) := ⟨⟨0, hB⟩⟩
    haveI : Nonempty (Fin K) := ⟨⟨0, hK⟩⟩
    exact Finset.sum_pos
      (fun b _ => Finset.sum_pos (fun j _ => Real.exp_pos _) Finset.univ_nonempty)
      Finset.univ_nonempty
  simp only [hL, hM, Ideal.div_coe hpos.ne', ← EReal.coe_sub, Ideal.exp_coe, ← EReal.coe_mul,
    coe_sum]
  congr 1
  rw [Finset.sum_mul]
  refine Finset.sum_congr rfl (fun b _ => ?_)
  rw [Finset.sum_mul]
  refine Finset.sum_congr rfl (fun j _ => ?_)
  ring

/-- The same statement with the maximum and the denominator spelled out. -/
theorem run_eq_softmax_let (hB : 0 < B) (hK : 0 < K) (s v : Fin B → Fin K → ℝ) :
    let S : Fin B → Fin K → EReal := fun b j => (s b j : EReal)
    let V : Fin B → Fin K → EReal := fun b j => (v b j : EReal)
    let M : EReal := (Finset.univ : Finset (Fin B)).fold max ⊥
      (fun b => (Finset.univ : Finset (Fin K)).fold max ⊥ (S b))
    let L : EReal := ∑ b : Fin B, ∑ j : Fin K, Ideal.exp (S b j - M)
    Ideal.div (run S V B).2.2 (run S V B).2.1
      = ∑ b : Fin B, ∑ j : Fin K, Ideal.div (Ideal.exp (S b j - M)) L * V b j := by
  intro S V M L
  exact run_eq_softmax hB hK s v

/-- The same statement for extended-real scores and weights all of whose entries are finite. -/
theorem run_eq_softmax_of_finite (hB : 0 < B) (hK : 0 < K) (S V : Fin B → Fin K → EReal)
    (hS : ∀ b j, S b j ≠ ⊥ ∧ S b j ≠ ⊤) (hV : ∀ b j, V b j ≠ ⊥ ∧ V b j ≠ ⊤) :
    Ideal.div (run S V B).2.2 (run S V B).2.1
      = ∑ b : Fin B, ∑ j : Fin K, Ideal.div (Ideal.exp (S b j - gmax S)) (gsum S) * V b j := by
  have hs : S = cS (fun b j => (S b j).toReal) := by
    funext b j
    exact (EReal.coe_toReal (hS b j).2 (hS b j).1).symm
  have hv : V = cS (fun b j => (V b j).toReal) := by
    funext b j
    exact (EReal.coe_toReal (hV b j).2 (hV b j).1).symm
  rw [hs, hv]
  exact run_eq_softmax hB hK _ _

/-! ## Cutting a flat index into blocks -/

/-- For b < B and j < K, b·K + j < B·K. -/
theorem blockIdx_lt (b : Fin B) (j : Fin K) : b.val * K + j.val < B * K := by
  calc b.val * K + j.val < b.val * K + K := Nat.add_lt_add_left j.isLt _
    _ = (b.val + 1) * K := by ring
    _ ≤ B * K := Nat.mul_le_mul_right _ b.isLt

/-- A sum over i < B·K is the sum over blocks b < B of the sums over j < K at i = b·K + j. -/
theorem sum_blocks {M : Type*} [AddCommMonoid M] (f : Fin (B*K) → M) :
    ∑ i : Fin (B*K), f i
      = ∑ b : Fin B, ∑ j : Fin K, f ⟨b.val*K + j.val, blockIdx_lt b j⟩ := by
  rw [← finProdFinEquiv.sum_comp, Fintype.sum_prod_type]
  refine Finset.sum_congr rfl (fun b _ => Finset.sum_congr rfl (fun j _ => ?_))
  congr 1
  ext
  simp [finProdFinEquiv, Nat.mul_comm, Nat.add_comm]

/-- A maximum over i < B·K is the maximum over blocks of the block maxima at i = b·K + j
(in any linear order with a least element; each side is below the other). -/
theorem fold_max_blocks_gen {α : Type*} [LinearOrder α] [OrderBot α] (f : Fin (B*K) → α) :
    (Finset.univ : Finset (Fin (B*K))).fold max ⊥ f
      = (Finset.univ : Finset (Fin B)).fold max ⊥ (fun b =>
          (Finset.univ : Finset (Fin K)).fold max ⊥
            (fun j => f ⟨b.val*K + j.val, blockIdx_lt b j⟩)) := by
  apply le_antisymm
  · rw [Finset.fold_max_le]
    refine ⟨bot_le, fun i _ => ?_⟩
    obtain ⟨⟨b, j⟩, rfl⟩ := finProdFinEquiv.surjective i
    rw [Finset.le_fold_max]
    refine Or.inr ⟨b, Finset.mem_univ _, ?_⟩
    rw [Finset.le_fold_max]
    refine Or.inr ⟨j, Finset.mem_univ _, le_of_eq ?_⟩
    congr 1
    ext
    simp [finProdFinEquiv, Nat.mul_comm, Nat.add_comm]
  · rw [Finset.fold_max_le]
    refine ⟨bot_le, fun b _ => ?_⟩
    rw [Finset.fold_max_le]
    refine ⟨bot_le, fun j _ => ?_⟩
    rw [Finset.le_fold_max]
    exact Or.inr ⟨_, Finset.mem_univ _, le_rfl⟩

/-- The block decomposition of a maximum, for extended reals. -/
theorem fold_max_blocks (f : Fin (B*K) → EReal) :
    (Finset.univ : Finset (Fin (B*K))).fold max ⊥ f
      = (Finset.univ : Finset (Fin B)).fold max ⊥ (fun b =>
          (Finset.univ : Finset (Fin K)).fold max ⊥
            (fun j => f ⟨b.val*K + j.val, blockIdx_lt b j⟩)) :=
  fold_max_blocks_gen f

/-- The block decomposition of a sum at 8192 = 16·512. -/
theorem sum_blocks_8192 {M : Type*} [AddCommMonoid M] (f : Fin 8192 → M) :
    ∑ i : Fin 8192, f i
      = ∑ b : Fin 16, ∑ j : Fin 512, f ⟨b.val*512 + j.val, by omega⟩ :=
  sum_blocks (B := 16) (K := 512) f

/-- The block decomposition of a maximum at 8192 = 16·512. -/
theorem fold_max_blocks_8192 (f : Fin 8192 → EReal) :
    (Finset.univ : Finset (Fin 8192)).fold max ⊥ f
      = (Finset.univ : Finset (Fin 16)).fold max ⊥ (fun b =>
          (Finset.univ : Finset (Fin 512)).fold max ⊥
            (fun j => f ⟨b.val*512 + j.val, by omega⟩)) :=
  fold_max_blocks (B := 16) (K := 512) f

end Cert.OnlineSoftmax
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.KernelIdeal.FlashIndex.lean ====
/-
  The attention body's step read at an index. Folding one key block into the running row maximum, row sum and weighted
  sum is, at row r and column d, the online-softmax step of that row's scaled logits and that column's values:
      s(r, j) = (Σ_e q(r, e) · k(j, e)) · 2⁻⁵            (the query block times the key block transposed, scaled)
      m'(r)   = max m(r) (the fold of max from −∞ over j of s(r, j))
      l'(r)   = exp (m(r) − m'(r)) · l(r) + Σ_j exp (s(r, j) − m'(r))
      a'(r,d) = exp (m(r) − m'(r)) · a(r, d) + Σ_j exp (s(r, j) − m'(r)) · v(j, d)
  and the result block is a(r, d) / l(r). The maximum and the sum over a row are kept as a column of width one, read at
  (r, 0); rounding the weights to the narrower format is the identity on the extended reals.
-/
import proofs.«102218_j65481071395329_2_alg».proof.Proof.KernelIdeal.FlashStep
import proofs.«102218_j65481071395329_2_alg».proof.Proof.Spec
import proofs.«102218_j65481071395329_2_alg».proof.Proof.LibOnlineSoftmax
import proofs.«102218_j65481071395329_2_alg».proof.Proof.LibKeepdims
import proofs.«102218_j65481071395329_2_alg».proof.Proof.LibPlainDot
import proofs.«102218_j65481071395329_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Flash

open Cert.KernelIdeal Cert.KernelIdeal.Gen
open Idealize.ShloMosaic Idealize.ShloMosaic.ValueIdx
open Idealize.ShloMosaic.Keepdims Idealize.ShloMosaic.PlainDot Idealize.ShloMosaic.RowOps

/-! ## The two products' dimension records, evaluated -/

theorem qk_l0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl

theorem qk_l1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q

theorem qk_r0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl

theorem qk_r1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

theorem pv_l0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl

theorem pv_l1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q

theorem pv_r0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

theorem pv_r1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-! ## The scaled logits -/

/-- The scaled logit of query row r against key row j of the two blocks. -/
def sc (q k : Vec Ideal S512x1024 .f32) (r j : Fin 512) : EReal :=
  (∑ e : Fin 1024, q (ix2 r e) * k (ix2 j e)) * Cert.Attention.scale

/-- The body's scaled logits, at entry (r, j). -/
theorem pay7_at (q k : Vec Ideal S512x1024 .f32) (r j : Fin 512) :
    k1_pay7 (F := Ideal) q k (ix2 r j) = sc q k r j := by
  unfold k1_pay7 sc
  simp only [shapeCast_self]
  show (matmul dot_S512x1024_S512x1024_S512x512_1_1_0_0_n_n (some .fp32) (q : FVec Ideal S512x1024 .f32) (k : FVec Ideal S512x1024 .f32)
      (constant (F := Ideal) S512x512 .f32 0x00000000#32) (ix2 r j)) * Ideal.ofBits .f32 0x3D000000#32 = _
  rw [matmulT_zero_apply (a := 512) (k := 1024) (b := 512) dot_S512x1024_S512x1024_S512x512_1_1_0_0_n_n (some .fp32) rfl rfl qk_l0 qk_l1 qk_r0 qk_r1]
  rfl

/-! ## The running maximum -/

/-- The new running maximum at row r: the old one against the block's largest scaled logit of that row. -/
theorem pay8_at (q k : Vec Ideal S512x1024 .f32) (m : Vec Ideal S512x1 .f32) (r : Fin 512) :
    k1_pay8 (F := Ideal) q k m (ix2 r (0 : Fin 1))
      = max (m (ix2 r (0 : Fin 1))) ((Finset.univ : Finset (Fin 512)).fold max ⊥ (sc q k r)) := by
  unfold k1_pay8
  show max (m (ix2 r (0 : Fin 1))) (shapeCast S512x1 (multiReduction (F := Ideal) .maximumf [1] S512 (k1_pay7 q k) 0xFF800000#32 reduces_S512x512_S512 (.inl rfl) rfl) shapeCasts_S512_S512x1 (ix2 r (0 : Fin 1))) = _
  refine congrArg (max (m (ix2 r (0 : Fin 1)))) ?_
  refine (shapeCast_a_a1_apply _ shapeCasts_S512_S512x1 r (0 : Fin 1)).trans ?_
  refine (rowMax_apply (a := 512) (b := 512) (k1_pay7 (F := Ideal) q k) reduces_S512x512_S512 rfl r).trans ?_
  exact congrArg (fun f => (Finset.univ : Finset (Fin 512)).fold max ⊥ f) (funext fun j => pay7_at q k r j)

/-- The rescaling factor at row r: the exponential of the old maximum less the new. -/
theorem pay9_at (q k : Vec Ideal S512x1024 .f32) (m m' : Vec Ideal S512x1 .f32) (r : Fin 512) :
    k1_pay9 (F := Ideal) q k m m' (ix2 r (0 : Fin 1))
      = Ideal.exp (m' (ix2 r (0 : Fin 1)) - k1_pay8 (F := Ideal) q k m (ix2 r (0 : Fin 1))) := by
  unfold k1_pay9
  rfl

/-- The block's weights at entry (r, j): the exponential of the scaled logit less the new maximum of row r. -/
theorem pay10_at (q k : Vec Ideal S512x1024 .f32) (m : Vec Ideal S512x1 .f32) (r j : Fin 512) :
    k1_pay10 (F := Ideal) q k m (ix2 r j)
      = Ideal.exp (sc q k r j - k1_pay8 (F := Ideal) q k m (ix2 r (0 : Fin 1))) := by
  unfold k1_pay10
  show Ideal.exp (k1_pay7 (F := Ideal) q k (ix2 r j) - broadcastTo S512x512 (k1_pay8 (F := Ideal) q k m) broadcasts_S512x1_S512x512 (ix2 r j)) = _
  exact congrArg₂ (fun a b => Ideal.exp (a - b)) (pay7_at q k r j)
    (broadcastTo_a1_ab_apply (k1_pay8 (F := Ideal) q k m) broadcasts_S512x1_S512x512 r j)

/-! ## The running sum -/

/-- The new running sum at row r: the old one rescaled plus the row's weights summed. -/
theorem pay11_at (q k : Vec Ideal S512x1024 .f32) (m l : Vec Ideal S512x1 .f32) (r : Fin 512) :
    k1_pay11 (F := Ideal) q k m m l (ix2 r (0 : Fin 1))
      = Ideal.exp (m (ix2 r (0 : Fin 1)) - k1_pay8 (F := Ideal) q k m (ix2 r (0 : Fin 1))) * l (ix2 r (0 : Fin 1))
        + ∑ j : Fin 512, Ideal.exp (sc q k r j - k1_pay8 (F := Ideal) q k m (ix2 r (0 : Fin 1))) := by
  unfold k1_pay11
  simp only [shapeCast_self]
  show k1_pay9 (F := Ideal) q k m m (ix2 r (0 : Fin 1)) * l (ix2 r (0 : Fin 1))
      + shapeCast S512x1 (multiReduction (F := Ideal) .add [1] S512 (k1_pay10 q k m) 0x00000000#32 reduces_S512x512_S512 (.inl rfl) rfl) shapeCasts_S512_S512x1 (ix2 r (0 : Fin 1)) = _
  refine congrArg₂ (fun a b => a * l (ix2 r (0 : Fin 1)) + b) (pay9_at q k m m r) ?_
  refine (shapeCast_a_a1_apply _ shapeCasts_S512_S512x1 r (0 : Fin 1)).trans ?_
  refine (rowSum_apply (a := 512) (b := 512) (k1_pay10 (F := Ideal) q k m) reduces_S512x512_S512 rfl r).trans ?_
  exact Finset.sum_congr rfl fun j _ => pay10_at q k m r j

/-! ## The running weighted sum -/

/-- The weights times the value block, at entry (r, d). -/
theorem pay12_at (q k : Vec Ideal S512x1024 .f32) (m : Vec Ideal S512x1 .f32) (v : Vec Ideal S512x1024 .bf16) (r : Fin 512) (d : Fin 1024) :
    k1_pay12 (F := Ideal) q k m v (ix2 r d)
      = ∑ j : Fin 512, Ideal.exp (sc q k r j - k1_pay8 (F := Ideal) q k m (ix2 r (0 : Fin 1))) * v (ix2 j d) := by
  unfold k1_pay12
  simp only [shapeCast_self]
  show matmul dot_S512x512_S512x1024_S512x1024_1_0_0_1_n_n none (truncf .bf16 (k1_pay10 (F := Ideal) q k m) bitsLt_bf16_f32 : FVec Ideal S512x512 .bf16) (v : FVec Ideal S512x1024 .bf16)
      (constant (F := Ideal) S512x1024 .f32 0x00000000#32) (ix2 r d) = _
  refine (matmul_zero_apply (a := 512) (k := 512) (b := 1024) (φ₁ := .bf16) (φ₂ := .bf16) dot_S512x512_S512x1024_S512x1024_1_0_0_1_n_n none rfl rfl pv_l0 pv_l1 pv_r0 pv_r1
    (truncf .bf16 (k1_pay10 (F := Ideal) q k m) bitsLt_bf16_f32 : FVec Ideal S512x512 .bf16) (v : FVec Ideal S512x1024 .bf16) r d).trans ?_
  exact Finset.sum_congr rfl fun j _ => congrArg (· * v (ix2 j d)) (pay10_at q k m r j)

/-- The new running weighted sum at entry (r, d), of a rescaling column α, a product pv and the old sum a. -/
theorem pay1_at (α : FVec Ideal S512x1 .f32) (pv : FVec Ideal S512x1024 .f32) (a : Vec Ideal S512x1024 .f32) (r : Fin 512) (d : Fin 1024) :
    k1_pay1 (F := Ideal) α pv a (ix2 r d) = α (ix2 r (0 : Fin 1)) * a (ix2 r d) + pv (ix2 r d) := by
  unfold k1_pay1
  simp only [shapeCast_self]
  show broadcastTo S512x1024 α broadcasts_S512x1_S512x1024 (ix2 r d) * a (ix2 r d) + pv (ix2 r d) = _
  exact congrArg (fun t => t * a (ix2 r d) + pv (ix2 r d)) (broadcastTo_a1_ab_apply α broadcasts_S512x1_S512x1024 r d)

/-- The result block at entry (r, d): the weighted sum over the row's sum. -/
theorem pay3_at (a : Vec Ideal S512x1024 .f32) (l : Vec Ideal S512x1 .f32) (r : Fin 512) (d : Fin 1024) :
    k1_pay3 (F := Ideal) a l (ix2 r d) = Ideal.div (a (ix2 r d)) (l (ix2 r (0 : Fin 1))) := by
  unfold k1_pay3
  show Ideal.div (a (ix2 r d)) (broadcastTo S512x1024 l broadcasts_S512x1_S512x1024 (ix2 r d)) = _
  exact congrArg (Ideal.div (a (ix2 r d))) (broadcastTo_a1_ab_apply l broadcasts_S512x1_S512x1024 r d)

/-! ## The reset values -/

theorem reset_M (r : Fin 512) : (k1_pay4 (F := Ideal)) (ix2 r (0 : Fin 1)) = (⊥ : EReal) := by
  unfold k1_pay4
  simp only [shapeCast_self]
  show Ideal.ofBits .f32 0xFF800000#32 = ⊥
  exact ofBits_neg_inf

theorem reset_S (r : Fin 512) : (k1_pay5 (F := Ideal)) (ix2 r (0 : Fin 1)) = (0 : EReal) := by
  unfold k1_pay5
  simp only [shapeCast_self]
  show Ideal.ofBits .f32 0x00000000#32 = 0
  exact Ideal.ofBits_zero_f32

theorem reset_A (r : Fin 512) (d : Fin 1024) : (k1_pay6 (F := Ideal)) (ix2 r d) = (0 : EReal) := by
  unfold k1_pay6
  simp only [shapeCast_self]
  show Ideal.ofBits .f32 0x00000000#32 = 0
  exact Ideal.ofBits_zero_f32

/-! ## One key block folded in, read at an index -/

/-- The new running maximum is the payload behind the identity cast. -/
theorem stepM_eq (q k : Vec Ideal S512x1024 .f32) (m : Vec Ideal S512x1 .f32) :
    stepM (F := Ideal) q k m = k1_pay8 (F := Ideal) q k m := by
  unfold stepM k1_pay2
  exact shapeCast_self _ _

theorem stepM_apply (q k : Vec Ideal S512x1024 .f32) (m : Vec Ideal S512x1 .f32) (r : Fin 512) :
    stepM (F := Ideal) q k m (ix2 r (0 : Fin 1))
      = max (m (ix2 r (0 : Fin 1))) ((Finset.univ : Finset (Fin 512)).fold max ⊥ (sc q k r)) := by
  rw [stepM_eq]
  exact pay8_at q k m r

theorem stepS_apply (q k : Vec Ideal S512x1024 .f32) (m l : Vec Ideal S512x1 .f32) (r : Fin 512) :
    stepS (F := Ideal) q k m l (ix2 r (0 : Fin 1))
      = Ideal.exp (m (ix2 r (0 : Fin 1)) - stepM (F := Ideal) q k m (ix2 r (0 : Fin 1))) * l (ix2 r (0 : Fin 1))
        + ∑ j : Fin 512, Ideal.exp (sc q k r j - stepM (F := Ideal) q k m (ix2 r (0 : Fin 1))) := by
  rw [stepM_eq]
  unfold stepS
  exact pay11_at q k m l r

theorem stepA_apply (q k : Vec Ideal S512x1024 .f32) (v : Vec Ideal S512x1024 .bf16) (m : Vec Ideal S512x1 .f32)
    (a : Vec Ideal S512x1024 .f32) (r : Fin 512) (d : Fin 1024) :
    stepA (F := Ideal) q k v m a (ix2 r d)
      = Ideal.exp (m (ix2 r (0 : Fin 1)) - stepM (F := Ideal) q k m (ix2 r (0 : Fin 1))) * a (ix2 r d)
        + ∑ j : Fin 512, Ideal.exp (sc q k r j - stepM (F := Ideal) q k m (ix2 r (0 : Fin 1))) * v (ix2 j d) := by
  rw [stepM_eq]
  unfold stepA
  refine (pay1_at _ _ a r d).trans ?_
  exact congrArg₂ (fun s t => s * a (ix2 r d) + t) (pay9_at q k m m r) (pay12_at q k m v r d)

/-- Row r, column d of the three running quantities after a key block is the online-softmax step of that row's
    scaled logits and that column's values. -/
theorem stepTr_apply (q k : Vec Ideal S512x1024 .f32) (v : Vec Ideal S512x1024 .bf16) (p : Tr Ideal) (r : Fin 512) (d : Fin 1024) :
    ((stepTr q k v p).1 (ix2 r (0 : Fin 1)), (stepTr q k v p).2.1 (ix2 r (0 : Fin 1)), (stepTr q k v p).2.2 (ix2 r d))
      = Cert.OnlineSoftmax.step (K := 512) (sc q k r) (fun j => v (ix2 j d))
          (p.1 (ix2 r (0 : Fin 1)), p.2.1 (ix2 r (0 : Fin 1)), p.2.2 (ix2 r d)) := by
  unfold stepTr Cert.OnlineSoftmax.step
  show (stepM (F := Ideal) q k p.1 (ix2 r (0 : Fin 1)), stepS (F := Ideal) q k p.1 p.2.1 (ix2 r (0 : Fin 1)), stepA (F := Ideal) q k v p.1 p.2.2 (ix2 r d)) = _
  rw [stepS_apply, stepA_apply, stepM_apply]

theorem quot_apply (a : Vec Ideal S512x1024 .f32) (l : Vec Ideal S512x1 .f32) (r : Fin 512) (d : Fin 1024) :
    quot (F := Ideal) a l (ix2 r d) = Ideal.div (a (ix2 r d)) (l (ix2 r (0 : Fin 1))) := by
  unfold quot
  exact pay3_at a l r d

end Cert.KernelIdeal.Flash

end
-- ==== Proof.KernelIdeal.FlashBlocks.lean ====
/-
  The attention call's blocks, index by index. The grid is 16 query blocks by 16 key blocks; point t has query block
  t / 16 and key block t % 16. The query window's block at t is rows 512·(t / 16) … 512·(t / 16) + 511 of the query
  array, the key and value windows' blocks are rows 512·(t % 16) … of theirs, and the result window's block is rows
  512·(t / 16) … of the result array, written back at the points with t % 16 = 15 only. Row p of the result array is
  therefore written back by point 16·(p / 512) + 15, and the sixteen such blocks of 512 rows tile the 8192 rows: if
  what each of those points leaves in the result buffer is the matching block of one function G of the array index,
  the result array ends at G.
-/
import proofs.«102218_j65481071395329_2_alg».proof.Proof.KernelIdeal.Flash
import Idealize.ShloMosaic.Lib.ValueIdx
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## The index maps -/

/-- The printed index maps over the 256 grid points: the query and the result windows sit at block row t / 16, the key
    and the value windows at block row t % 16, all at block column 0. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-! ## The input blocks -/

/-- The query block at point t, at (r, e), is the query array at (512·(t / 16) + r, e). -/
theorem blk_q_apply (c : Dev nD) (t : Fin cfg1.N) (x : S512x1024.Idx) (i : S8192x1024.Idx)
    (h0 : (i 0).val = 512 * (t.val / 16) + (x 0).val) (h1 : (i 1).val = (x 1).val) :
    (blk V c 0 t : Vec Ideal S512x1024 .f32) x = (V c main_v0_0 : S8192x1024.Idx → EReal) i := by
  obtain ⟨e0, e1, -⟩ := idx_facts1 t
  unfold blk
  show V c main_v0_0 (((cfg1.win 0).blk t).view.emb x) = V c main_v0_0 i
  congr 1
  funext a
  apply Fin.ext
  match a with
  | ⟨0, _⟩ => show win1_0.index t (0 : Fin 2) * 512 + 1 * (x 0).val = (i 0).val; rw [e0, h0]; omega
  | ⟨1, _⟩ => show win1_0.index t (1 : Fin 2) * 1024 + 1 * (x 1).val = (i 1).val; rw [e1, h1]; omega

/-- The key block at point t, at (r, e), is the key array at (512·(t % 16) + r, e). -/
theorem blk_k_apply (c : Dev nD) (t : Fin cfg1.N) (x : S512x1024.Idx) (i : S8192x1024.Idx)
    (h0 : (i 0).val = 512 * (t.val % 16) + (x 0).val) (h1 : (i 1).val = (x 1).val) :
    (blk V c 1 t : Vec Ideal S512x1024 .f32) x = (V c main_v0_1 : S8192x1024.Idx → EReal) i := by
  obtain ⟨-, -, e0, e1, -⟩ := idx_facts1 t
  unfold blk
  show V c main_v0_1 (((cfg1.win 1).blk t).view.emb x) = V c main_v0_1 i
  congr 1
  funext a
  apply Fin.ext
  match a with
  | ⟨0, _⟩ => show win1_1.index t (0 : Fin 2) * 512 + 1 * (x 0).val = (i 0).val; rw [e0, h0]; omega
  | ⟨1, _⟩ => show win1_1.index t (1 : Fin 2) * 1024 + 1 * (x 1).val = (i 1).val; rw [e1, h1]; omega

/-- The value block at point t, at (r, e), is the value array at (512·(t % 16) + r, e). -/
theorem blk_v_apply (c : Dev nD) (t : Fin cfg1.N) (x : S512x1024.Idx) (i : S8192x1024.Idx)
    (h0 : (i 0).val = 512 * (t.val % 16) + (x 0).val) (h1 : (i 1).val = (x 1).val) :
    (blk V c 2 t : Vec Ideal S512x1024 .bf16) x = (V c main_v1 : S8192x1024.Idx → EReal) i := by
  obtain ⟨-, -, -, -, e0, e1, -⟩ := idx_facts1 t
  unfold blk
  show V c main_v1 (((cfg1.win 2).blk t).view.emb x) = V c main_v1 i
  congr 1
  funext a
  apply Fin.ext
  match a with
  | ⟨0, _⟩ => show win1_2.index t (0 : Fin 2) * 512 + 1 * (x 0).val = (i 0).val; rw [e0, h0]; omega
  | ⟨1, _⟩ => show win1_2.index t (1 : Fin 2) * 1024 + 1 * (x 1).val = (i 1).val; rw [e1, h1]; omega

/-! ## From the result blocks to the result array -/

/-- What a flushing point t writes back to the result array is block t / 16 of G, when what the point leaves in the
    result buffer at (r, e) is G at (512·(t / 16) + r, e). -/
theorem arr_flushed_eq (c : Dev nD) (G : S8192x1024.Idx → EReal)
    (hG : ∀ (t : Fin cfg1.N), t.val % 16 = 15 → ∀ (x : S512x1024.Idx) (i : S8192x1024.Idx),
      (i 0).val = 512 * (t.val / 16) + (x 0).val → (i 1).val = (x 1).val →
      ((outsAt V c t.val t.isLt).1 : Vec Ideal S512x1024 .f32) x = G i)
    (t : Fin cfg1.N) (hf : (cfg1.win 3).flush t = true) :
    (dat (F := Ideal) V c).flushed 3 t = ((cfg1.win 3).blk t).view.read (Elt Ideal) G := by
  have h15 : t.val % 16 = 15 := (flush1_3 t).1 hf
  show (cfg1.win 3).cut (grid1.coords t) ((dat V c).after 3 t) = _
  rw [after_out]
  obtain ⟨-, -, -, -, -, -, e0, e1⟩ := idx_facts1 t
  funext j
  show ((outsAt V c t.val t.isLt).1 : Vec Ideal S512x1024 .f32) ((cfg1.win 3).xinj (grid1.coords t) j)
    = G (((cfg1.win 3).blk t).view.emb j)
  refine hG t h15 ((cfg1.win 3).xinj (grid1.coords t) j) (((cfg1.win 3).blk t).view.emb j) ?_ ?_
  · show win1_3.index t (0 : Fin 2) * 512 + 1 * (j 0).val = 512 * (t.val / 16) + (j 0).val
    rw [e0]; omega
  · show win1_3.index t (1 : Fin 2) * 1024 + 1 * (j 1).val = (j 1).val
    rw [e1]; omega

/-- An index of the result array is in point t's block iff each coordinate is in the block's range on its axis. -/
theorem arr_mem_blk (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v2).slice (win1_3.rect t)).set ↔ _
  rw [View.set_slice_whole, Rect.mem_set_unit]
  exact Iff.rfl

/-- Row p of the result array is written back by point 16·(p / 512) + 15: the sixteen blocks of 512 rows written back
    at a query block's last key block tile the 8192 rows. -/
theorem arr_cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 256 := N_1
  have ht : 16 * ((i 0).val / 512) + 15 < cfg1.N := by rw [hN]; omega
  obtain ⟨-, -, -, -, -, -, e0, e1⟩ := idx_facts1 ⟨16 * ((i 0).val / 512) + 15, ht⟩
  have e0' : win1_3.index ⟨16 * ((i 0).val / 512) + 15, ht⟩ (0 : Fin 2) = (16 * ((i 0).val / 512) + 15) / 16 := e0
  refine ⟨⟨16 * ((i 0).val / 512) + 15, ht⟩, (flush1_3 _).2 ?_, ?_⟩
  · show (16 * ((i 0).val / 512) + 15) % 16 = 15
    omega
  rw [arr_mem_blk]
  intro a
  match a with
  | ⟨0, _⟩ =>
    show win1_3.index ⟨16 * ((i 0).val / 512) + 15, ht⟩ (0 : Fin 2) * 512 ≤ (i 0).val ∧ (i 0).val < win1_3.index ⟨16 * ((i 0).val / 512) + 15, ht⟩ (0 : Fin 2) * 512 + 512
    rw [e0']; omega
  | ⟨1, _⟩ =>
    show win1_3.index ⟨16 * ((i 0).val / 512) + 15, ht⟩ (1 : Fin 2) * 1024 ≤ (i 1).val ∧ (i 1).val < win1_3.index ⟨16 * ((i 0).val / 512) + 15, ht⟩ (1 : Fin 2) * 1024 + 1024
    rw [e1]; omega

/-- After the call the result array is G, when what each point with t % 16 = 15 leaves in the result buffer at (r, e)
    is G at (512·(t / 16) + r, e). -/
theorem arr_final (c : Dev nD) (G : S8192x1024.Idx → EReal)
    (hG : ∀ (t : Fin cfg1.N), t.val % 16 = 15 → ∀ (x : S512x1024.Idx) (i : S8192x1024.Idx),
      (i 0).val = 512 * (t.val / 16) + (x 0).val → (i 1).val = (x 1).val →
      ((outsAt V c t.val t.isLt).1 : Vec Ideal S512x1024 .f32) x = G i) :
    (dat (F := Ideal) V c).arrAt 3 cfg1.N = G :=
  (dat (F := Ideal) V c).arrAt_eq_of_cover 3 _ (fun t hf => arr_flushed_eq V c G hG t hf) arr_cover

end Cert.KernelIdeal.Flash

end
-- ==== Proof.Finite.lean ====
import proofs.«102218_j65481071395329_2_alg».proof.Pre_finite_inputs
import proofs.«102218_j65481071395329_2_alg».proof.Proof.Gen.Pre_finite_inputs
import proofs.«102218_j65481071395329_2_alg».proof.Proof.Spec
import Idealize.ShloMosaic.Lib.ReduceAll
import Idealize.ShloMosaic.Lib.ValueIdx
import Idealize.ShloMosaic.PureOps.Ideal.Laws

/-!
# Every input entry is a real number

The precondition states, for each of the three float inputs, that all entries have absolute
value below +∞. On the extended reals |a| = max a (−a), which is below +∞ exactly when a is
neither −∞ nor +∞. From this, the projections and the scaled logits of the attention
specification are real as finite sums of products of reals.
-/

noncomputable section

open scoped BigOperators

namespace Cert.FiniteInputs

open Idealize.ShloMosaic

/-! ## Real extended reals -/

/-- An extended real is real: neither −∞ nor +∞. -/
def IsReal (a : EReal) : Prop := a ≠ ⊥ ∧ a ≠ ⊤

/-- A real number is real. -/
theorem isReal_coe (r : ℝ) : IsReal (r : EReal) := ⟨EReal.coe_ne_bot r, EReal.coe_ne_top r⟩

/-- A real extended real is the image of a real number. -/
theorem IsReal.exists_coe {a : EReal} (h : IsReal a) : ∃ r : ℝ, a = (r : EReal) :=
  ⟨a.toReal, (EReal.coe_toReal h.2 h.1).symm⟩

/-- Being real is being the image of a real number. -/
theorem isReal_iff_exists_coe {a : EReal} : IsReal a ↔ ∃ r : ℝ, a = (r : EReal) :=
  ⟨IsReal.exists_coe, fun ⟨r, hr⟩ => hr ▸ isReal_coe r⟩

/-- Zero is real. -/
theorem isReal_zero : IsReal (0 : EReal) := isReal_coe 0

/-- A sum of two reals is real. -/
theorem isReal_add {a b : EReal} (ha : IsReal a) (hb : IsReal b) : IsReal (a + b) := by
  obtain ⟨r, rfl⟩ := ha.exists_coe
  obtain ⟨t, rfl⟩ := hb.exists_coe
  rw [← EReal.coe_add]
  exact isReal_coe _

/-- A product of two reals is real. -/
theorem isReal_mul {a b : EReal} (ha : IsReal a) (hb : IsReal b) : IsReal (a * b) := by
  obtain ⟨r, rfl⟩ := ha.exists_coe
  obtain ⟨t, rfl⟩ := hb.exists_coe
  rw [← EReal.coe_mul]
  exact isReal_coe _

/-- A finite sum of reals is real. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact isReal_add (hf a (Finset.mem_insert_self a s))
      (ih (fun i hi => hf i (Finset.mem_insert_of_mem hi)))

/-- |a| = max a (−a) is below +∞ only for a real a: at −∞ and at +∞ it is +∞. -/
theorem isReal_of_abs_lt_top (a : EReal) (h : max a (-a) < ⊤) : IsReal a := by
  induction a with
  | bot => simp at h
  | coe r => exact isReal_coe r
  | top => simp at h

/-- The binary32 word 0x7F800000 denotes +∞. -/
theorem ofBits_inf : Ideal.ofBits .f32 0x7F800000#32 = (⊤ : EReal) := by
  simp [Ideal.ofBits, Ideal.ieee]

/-! ## The precondition, read back -/

/-- A one-bit word made from a Boolean is 1 exactly when the Boolean is true. -/
theorem ofBool_eq_one (b : Bool) : BitVec.ofBool b = 1#1 ↔ b = true := by cases b <;> decide

/-- The scalar shape has one index. -/
instance : Subsingleton Cert.Pre_finite_inputs.S_.Idx := ⟨fun a b => funext fun d => d.elim0⟩

/-- Where the comparison |x| < +∞ (the constant +∞ broadcast to the shape of x) holds, x is real. -/
theorem real_of_abs_lt_inf {s : Shape} (x : FVec Ideal s .f32)
    (hb : Cert.Pre_finite_inputs.S_.BroadcastsInDim s (![] : Fin 0 → Fin s.rank)) (i : s.Idx)
    (h : cmpf .olt (Host.absf x)
      (broadcastInDim s ![] hb (constant Cert.Pre_finite_inputs.S_ .f32 0x7F800000#32)) i = 1#1) :
    IsReal (x i) := by
  apply isReal_of_abs_lt_top
  have h' : Ideal.cmp .olt (max (x i) (-(x i))) (Ideal.ofBits .f32 0x7F800000#32) = 1#1 := h
  rw [ofBits_inf] at h'
  simp only [Ideal.cmp] at h'
  rw [ofBool_eq_one, decide_eq_true_eq] at h'
  exact h'

/-- Under the precondition every entry of the three inputs is real. -/
theorem finite_of_pre [Cert.Pre_finite_inputs.Facts]
    (x0 : FVec Ideal Cert.Pre_finite_inputs.S8192x1024 .f32)
    (x1 x2 : FVec Ideal Cert.Pre_finite_inputs.S1024x1024 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  change IntOp.andi (IntOp.andi _ _) _ = 1#1 at h0
  rw [IntOp.andi_eq_one, IntOp.andi_eq_one] at h0
  obtain ⟨⟨ha, hb⟩, hc⟩ := h0
  refine ⟨fun i => ?_, fun i => ?_, fun i => ?_⟩
  · exact real_of_abs_lt_inf x0 _ i (Host.reduce_andi_all _ _ _ _ _ ha i)
  · exact real_of_abs_lt_inf x1 _ i (Host.reduce_andi_all _ _ _ _ _ hb i)
  · exact real_of_abs_lt_inf x2 _ i (Host.reduce_andi_all _ _ _ _ _ hc i)

/-! ## The specification's intermediate values are real -/

/-- A projection entry Σ_e x(p, e)·W(k, e) of real inputs is real. -/
theorem proj_real (x : Cert.Attention.TokIdx → EReal) (W : Cert.Attention.MatIdx → EReal)
    (hx : ∀ i, IsReal (x i)) (hW : ∀ i, IsReal (W i)) (p : Fin 8192) (k : Fin 1024) :
    IsReal (Cert.Attention.proj x W p k) := by
  unfold Cert.Attention.proj
  exact isReal_sum _ _ (fun e _ => isReal_mul (hx _) (hW _))

/-- The scale word 0x3D000000 denotes 2⁻⁵ = 1/32. -/
theorem scale_real : Cert.Attention.scale = ((1 / 32 : ℝ) : EReal) := by
  unfold Cert.Attention.scale
  simp [Ideal.ofBits, Ideal.ieee, -EReal.coe_mul]
  norm_num

/-- The scale is real. -/
theorem scale_isReal : IsReal Cert.Attention.scale := by
  rw [scale_real]
  exact isReal_coe _

/-- A scaled logit (Σ_k q(p, k)·κ(j, k))·c of real inputs is real. -/
theorem logit_real (x : Cert.Attention.TokIdx → EReal) (R E : Cert.Attention.MatIdx → EReal)
    (hx : ∀ i, IsReal (x i)) (hR : ∀ i, IsReal (R i)) (hE : ∀ i, IsReal (E i)) (p j : Fin 8192) :
    IsReal (Cert.Attention.logit x R E p j) := by
  unfold Cert.Attention.logit
  exact isReal_mul
    (isReal_sum _ _ (fun k _ => isReal_mul (proj_real x R hx hR p k) (proj_real x E hx hE j k)))
    scale_isReal

end Cert.FiniteInputs
-- ==== Proof.KernelIdeal.FlashValue.lean ====
/-
  The attention call's result array, at the ideal instance. For a query block and a row of it, the three running
  quantities after key block `n` are the online-softmax recurrence run over the first `n + 1` key blocks of that
  row's scaled logits (against a column of the value rows); so at the last key block the stored quotient is the
  softmax-weighted sum of the value rows — provided logits and values are finite —, and, the 16 blocks of 512 keys
  being the 8192 keys, the array the call leaves is softmax attention of the query array over the key array
  applied to the value array.
-/
import proofs.«102218_j65481071395329_2_alg».proof.Proof.KernelIdeal.FlashStep
import proofs.«102218_j65481071395329_2_alg».proof.Proof.KernelIdeal.FlashIndex
import proofs.«102218_j65481071395329_2_alg».proof.Proof.KernelIdeal.FlashBlocks
import proofs.«102218_j65481071395329_2_alg».proof.Proof.LibOnlineSoftmax
import proofs.«102218_j65481071395329_2_alg».proof.Proof.Finite
import proofs.«102218_j65481071395329_2_alg».proof.Proof.Spec

set_option maxRecDepth 16384

noncomputable section

namespace Cert.KernelIdeal.Flash

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.OnlineSoftmax Cert.FiniteInputs
open scoped BigOperators

variable (V : (c : Dev nD) → (b : Ref sig .tc) → Buf (Elt Ideal) ((c : Thread nD τ).loc b))

/-! ## The points of one query block -/

/-- The grid point of query block `qi` and key block `b`. -/
def pt (qi b : Fin 16) : Fin cfg1.N :=
  ⟨16 * qi.val + b.val, by rw [show cfg1.N = 256 from N_1]; have := qi.isLt; have := b.isLt; omega⟩

theorem pt_val (qi b : Fin 16) : (pt qi b).val = 16 * qi.val + b.val := rfl
theorem pt_div (qi b : Fin 16) : (pt qi b).val / 16 = qi.val := by rw [pt_val]; have := b.isLt; omega
theorem pt_mod (qi b : Fin 16) : (pt qi b).val % 16 = b.val := by rw [pt_val]; have := b.isLt; omega

/-- The accumulation depends on the position only. -/
theorem outsAt_congr (c : Dev nD) {n n' : ℕ} (e : n = n') (h : n < cfg1.N) (h' : n' < cfg1.N) :
    outsAt V c n h = outsAt V c n' h' := by subst e; rfl

/-! ## The recurrence, row by row -/

/-- Query block `qi`, row `r`: the scaled logits against key block `b`'s rows. -/
def Sb (c : Dev nD) (qi : Fin 16) (r : Fin 512) : Fin 16 → Fin 512 → EReal :=
  fun b j => sc (blk V c 0 (pt qi b)) (blk V c 1 (pt qi b)) r j

/-- Column `d` of key block `b`'s value rows. -/
def Vb (c : Dev nD) (qi : Fin 16) (d : Fin 1024) : Fin 16 → Fin 512 → EReal :=
  fun b j => (blk V c 2 (pt qi b) : Vec Ideal S512x1024 .bf16) (ix2 j d)

/-- After key block `n` of query block `qi` the running maximum and sum at row `r` and the running weighted sum at
    `(r, d)` are the online-softmax recurrence over the first `n + 1` key blocks. -/
theorem tr_run (c : Dev nD) (qi : Fin 16) (r : Fin 512) (d : Fin 1024) : ∀ (n : ℕ) (hn : n < 16),
    ((outsAt V c (pt qi ⟨n, hn⟩).val (pt qi ⟨n, hn⟩).isLt).2.1 (ix2 r (0 : Fin 1)),
     (outsAt V c (pt qi ⟨n, hn⟩).val (pt qi ⟨n, hn⟩).isLt).2.2.1 (ix2 r (0 : Fin 1)),
     (outsAt V c (pt qi ⟨n, hn⟩).val (pt qi ⟨n, hn⟩).isLt).2.2.2 (ix2 r d))
      = run (Sb V c qi r) (Vb V c qi d) (n + 1) := by
  intro n
  induction n with
  | zero =>
    intro hn
    have h0 : (pt qi ⟨0, hn⟩).val % 16 = 0 := pt_mod qi ⟨0, hn⟩
    have e := tr_first V c (pt qi ⟨0, hn⟩) h0
    have e1 := stepTr_apply (blk V c 0 (pt qi ⟨0, hn⟩)) (blk V c 1 (pt qi ⟨0, hn⟩)) (blk V c 2 (pt qi ⟨0, hn⟩)) (resetTr (F := Ideal)) r d
    rw [← e] at e1
    refine e1.trans ?_
    rw [run_succ _ _ hn, run_zero]
    have hr : ((resetTr (F := Ideal)).1 (ix2 r (0 : Fin 1)), (resetTr (F := Ideal)).2.1 (ix2 r (0 : Fin 1)), (resetTr (F := Ideal)).2.2 (ix2 r d)) = ((⊥ : EReal), (0 : EReal), (0 : EReal)) := by
      unfold resetTr; dsimp only; rw [reset_M, reset_S, reset_A]
    rw [hr]; rfl
  | succ n ih =>
    intro hn
    have hn' : n < 16 := Nat.lt_of_succ_lt hn
    have h0 : ¬(pt qi ⟨n + 1, hn⟩).val % 16 = 0 := by rw [pt_mod]; exact Nat.succ_ne_zero n
    have e := tr_next V c (pt qi ⟨n + 1, hn⟩) h0
    have ep : outsAt V c ((pt qi ⟨n + 1, hn⟩).val - 1) (Nat.lt_of_le_of_lt (Nat.sub_le _ _) (pt qi ⟨n + 1, hn⟩).isLt)
        = outsAt V c (pt qi ⟨n, hn'⟩).val (pt qi ⟨n, hn'⟩).isLt :=
      outsAt_congr V c (by rw [pt_val, pt_val]; show 16 * qi.val + (n + 1) - 1 = 16 * qi.val + n; omega) _ _
    rw [ep] at e
    have e1 := stepTr_apply (blk V c 0 (pt qi ⟨n + 1, hn⟩)) (blk V c 1 (pt qi ⟨n + 1, hn⟩)) (blk V c 2 (pt qi ⟨n + 1, hn⟩))
      (outsAt V c (pt qi ⟨n, hn'⟩).val (pt qi ⟨n, hn'⟩).isLt).2 r d
    rw [← e] at e1
    refine e1.trans ?_
    rw [run_succ _ _ hn, ← ih hn']
    rfl

/-- The result buffer at a query block's last key block, at `(r, d)`: the softmax-weighted sum of column `d` of the
    value rows, over the 16 key blocks — when the logits and the values are finite. -/
theorem out_row (c : Dev nD) (qi : Fin 16) (r : Fin 512) (d : Fin 1024)
    (hS : ∀ b j, IsReal (Sb V c qi r b j)) (hV : ∀ b j, IsReal (Vb V c qi d b j)) :
    (outsAt V c (pt qi 15).val (pt qi 15).isLt).1 (ix2 r d)
      = ∑ b : Fin 16, ∑ j : Fin 512, Ideal.div (Ideal.exp (Sb V c qi r b j - gmax (Sb V c qi r))) (gsum (Sb V c qi r)) * Vb V c qi d b j := by
  have h1 : (pt qi 15).val % 16 = 15 := pt_mod qi 15
  have h0 : ¬(pt qi 15).val % 16 = 0 := by rw [h1]; norm_num
  rw [out_last V c (pt qi 15) h0 h1, quot_apply]
  have e := tr_run V c qi r d 15 (by norm_num)
  have eA : (outsAt V c (pt qi 15).val (pt qi 15).isLt).2.2.2 (ix2 r d) = (run (Sb V c qi r) (Vb V c qi d) 16).2.2 :=
    congrArg (fun x => x.2.2) e
  have eS : (outsAt V c (pt qi 15).val (pt qi 15).isLt).2.2.1 (ix2 r (0 : Fin 1)) = (run (Sb V c qi r) (Vb V c qi d) 16).2.1 :=
    congrArg (fun x => x.2.1) e
  rw [eA, eS]
  exact run_eq_softmax_of_finite (by norm_num) (by norm_num) _ _ hS hV

/-! ## The 8192 keys at once -/

/-- The scaled logit of query row `p` against key row `j`, off the query and key arrays. -/
def lg (Qa Ka : Cert.Attention.TokIdx → EReal) (p j : Fin 8192) : EReal :=
  (∑ e : Fin 1024, Qa (ix2 p e) * Ka (ix2 j e)) * Cert.Attention.scale

/-- Softmax attention of a query array over a key array, applied to a value array, at entry `(p, d)`. -/
def attnOf (Qa Ka Va : Cert.Attention.TokIdx → EReal) : Cert.Attention.TokIdx → EReal := fun i =>
  ∑ j : Fin 8192, Ideal.div
      (Ideal.exp (lg Qa Ka (i 0) j - (Finset.univ : Finset (Fin 8192)).fold max ⊥ (lg Qa Ka (i 0))))
      (∑ j' : Fin 8192, Ideal.exp (lg Qa Ka (i 0) j' - (Finset.univ : Finset (Fin 8192)).fold max ⊥ (lg Qa Ka (i 0))))
    * Va (ix2 j (i 1))

/-- Row `512·qi + r` of an `8192`-row array. -/
def rowOf (qi : Fin 16) (r : Fin 512) : Fin 8192 := ⟨qi.val * 512 + r.val, by have := qi.isLt; have := r.isLt; omega⟩

/-- The block-level logits are the array-level ones at the block's rows. -/
theorem Sb_eq (c : Dev nD) (qi : Fin 16) (r : Fin 512) (b : Fin 16) (j : Fin 512) :
    Sb V c qi r b j = lg (V c main_v0_0) (V c main_v0_1) (rowOf qi r) (rowOf b j) := by
  unfold Sb sc lg
  refine congrArg (· * Cert.Attention.scale) (Finset.sum_congr rfl fun e _ => ?_)
  rw [blk_q_apply V c (pt qi b) (ix2 r e) (ix2 (rowOf qi r) e) (by rw [pt_div]; show qi.val * 512 + r.val = 512 * qi.val + r.val; omega) rfl,
    blk_k_apply V c (pt qi b) (ix2 j e) (ix2 (rowOf b j) e) (by rw [pt_mod]; show b.val * 512 + j.val = 512 * b.val + j.val; omega) rfl]

/-- The block-level values are the value array's at the block's rows. -/
theorem Vb_eq (c : Dev nD) (qi : Fin 16) (d : Fin 1024) (b : Fin 16) (j : Fin 512) :
    Vb V c qi d b j = (V c main_v1 : Cert.Attention.TokIdx → EReal) (ix2 (rowOf b j) d) := by
  unfold Vb
  exact blk_v_apply V c (pt qi b) (ix2 j d) (ix2 (rowOf b j) d) (by rw [pt_mod]; show b.val * 512 + j.val = 512 * b.val + j.val; omega) rfl

/-- The maximum over the 16 blocks of 512 keys is the maximum over the 8192 keys. -/
theorem gmax_eq (c : Dev nD) (qi : Fin 16) (r : Fin 512) :
    gmax (Sb V c qi r) = (Finset.univ : Finset (Fin 8192)).fold max ⊥ (lg (V c main_v0_0) (V c main_v0_1) (rowOf qi r)) := by
  rw [fold_max_blocks_8192]
  unfold gmax
  refine congrArg (fun f => (Finset.univ : Finset (Fin 16)).fold max ⊥ f) (funext fun b => ?_)
  refine congrArg (fun f => (Finset.univ : Finset (Fin 512)).fold max ⊥ f) (funext fun j => ?_)
  exact Sb_eq V c qi r b j

/-- The normaliser over the 16 blocks is the one over the 8192 keys. -/
theorem gsum_eq (c : Dev nD) (qi : Fin 16) (r : Fin 512) :
    gsum (Sb V c qi r) = ∑ j' : Fin 8192, Ideal.exp (lg (V c main_v0_0) (V c main_v0_1) (rowOf qi r) j'
      - (Finset.univ : Finset (Fin 8192)).fold max ⊥ (lg (V c main_v0_0) (V c main_v0_1) (rowOf qi r))) := by
  rw [sum_blocks_8192]
  unfold gsum
  refine Finset.sum_congr rfl fun b _ => Finset.sum_congr rfl fun j _ => ?_
  rw [gmax_eq, Sb_eq]
  rfl

/-- THE RESULT ARRAY of the attention call: softmax attention of its query array over its key array applied to its
    value array, when the three arrays are finite. -/
theorem flash_final (c : Dev nD)
    (hQ : ∀ i, IsReal ((V c main_v0_0 : Cert.Attention.TokIdx → EReal) i))
    (hK : ∀ i, IsReal ((V c main_v0_1 : Cert.Attention.TokIdx → EReal) i))
    (hV : ∀ i, IsReal ((V c main_v1 : Cert.Attention.TokIdx → EReal) i)) :
    (dat (F := Ideal) V c).arrAt 3 cfg1.N = attnOf (V c main_v0_0) (V c main_v0_1) (V c main_v1) := by
  refine arr_final V c _ fun t ht x i hi0 hi1 => ?_
  -- the entry is `(r, d)` of the block of the last key block of query block `t / 16`, row `512 · (t / 16) + r` of the array
  obtain ⟨r, d, rfl⟩ : ∃ (r : Fin 512) (d : Fin 1024), x = ix2 r d := ⟨x 0, x 1, eq_ix2 x⟩
  obtain ⟨p, d', rfl⟩ : ∃ (p : Fin 8192) (d' : Fin 1024), i = ix2 p d' := ⟨i 0, i 1, eq_ix2 i⟩
  have hi0' : p.val = 512 * (t.val / 16) + r.val := hi0
  have hi1' : d'.val = d.val := hi1
  have hN : t.val < 256 := lt_of_lt_of_eq t.isLt (show cfg1.N = 256 from N_1)
  have hq : t.val / 16 < 16 := by omega
  have et : t = pt ⟨t.val / 16, hq⟩ 15 := Fin.ext (by rw [pt_val]; show t.val = 16 * (t.val / 16) + 15; omega)
  have hlg : ∀ b j, IsReal (Sb V c ⟨t.val / 16, hq⟩ r b j) := fun b j => by
    rw [Sb_eq]; unfold lg
    exact isReal_mul (isReal_sum _ _ fun e _ => isReal_mul (hQ _) (hK _)) scale_isReal
  have hvl : ∀ b j, IsReal (Vb V c ⟨t.val / 16, hq⟩ d b j) := fun b j => by rw [Vb_eq]; exact hV _
  have hrow : p = rowOf ⟨t.val / 16, hq⟩ r := Fin.ext (by rw [hi0']; show 512 * (t.val / 16) + r.val = (t.val / 16) * 512 + r.val; omega)
  have hcol : d' = d := Fin.ext hi1'
  subst hcol hrow
  have e := out_row V c ⟨t.val / 16, hq⟩ r d' hlg hvl
  rw [← et] at e
  refine e.trans ?_
  unfold attnOf
  rw [sum_blocks_8192]
  refine Finset.sum_congr rfl fun b _ => Finset.sum_congr rfl fun j _ => ?_
  rw [gmax_eq, gsum_eq, Sb_eq, Vb_eq]
  rfl

end Cert.KernelIdeal.Flash

end
-- ==== Proof.KernelIdeal.Value.lean ====
/-
  The kernel program's result, at the ideal instance, under the precondition that every input is finite: the array the
  attention call leaves is row-softmax attention of the tokens over themselves (the specification `attn`). The
  attention call computes softmax attention of its query array over its key array applied to its value array; those
  arrays are "tokens times each transposed weight matrix" and the tokens; and finiteness of the inputs makes every
  logit finite, which the online-softmax law needs.
-/
import proofs.«102218_j65481071395329_2_alg».proof.Defs
import proofs.«102218_j65481071395329_2_alg».proof.Proof.Gen.Pre_finite_inputs
import proofs.«102218_j65481071395329_2_alg».proof.Proof.Gen.KernelIdeal
import proofs.«102218_j65481071395329_2_alg».proof.Proof.KernelIdeal.Entry
import proofs.«102218_j65481071395329_2_alg».proof.Proof.KernelIdeal.FlashValue
import proofs.«102218_j65481071395329_2_alg».proof.Proof.Finite

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.FiniteInputs

/-- Attention of "tokens times the transposed first matrix" over "tokens times the transposed second matrix" applied
    to the tokens is the specification, by definition. -/
theorem attnOf_proj (x : Cert.Attention.TokIdx → EReal) (R E : Cert.Attention.MatIdx → EReal) :
    Flash.attnOf (fun i => Cert.Attention.proj x R (i 0) (i 1)) (fun i => Cert.Attention.proj x E (i 0) (i 1)) x
      = Cert.Attention.attn x R E := by
  funext i
  unfold Flash.attnOf Flash.lg Cert.Attention.attn Cert.Attention.weight Cert.Attention.rowSum Cert.Attention.rowMax
    Cert.Attention.logit
  rfl

variable (m : (ℓ : Loc nD τ sig) → Buf (Elt Ideal) ℓ) (ρ : Dev nD → PrngReg)

/-- THE KERNEL'S VALUE: under the precondition the result array ends at the specification of the three arguments. -/
theorem kernel_value (hpre : Cert.Pre_KernelIdeal m) (c : Dev nD) :
    (Flash.dat (F := Ideal) (V2 m ρ) c).arrAt 3 cfg1.N
      = Cert.Attention.attn (m ((c.tc : Thread nD τ).loc main_arg0)) (m ((c.tc : Thread nD τ).loc main_arg1))
          (m ((c.tc : Thread nD τ).loc main_arg2)) := by
  obtain ⟨hx, hR, hE⟩ := finite_of_pre _ _ _ (hpre c)
  have hQ : ∀ i, IsReal ((V2 m ρ c main_v0_0 : Cert.Attention.TokIdx → EReal) i) := fun i => by
    rw [entry_q]; exact proj_real _ _ hx hR _ _
  have hK : ∀ i, IsReal ((V2 m ρ c main_v0_1 : Cert.Attention.TokIdx → EReal) i) := fun i => by
    rw [entry_k]; exact proj_real _ _ hx hE _ _
  have hV : ∀ i, IsReal ((V2 m ρ c main_v1 : Cert.Attention.TokIdx → EReal) i) := fun i => by
    rw [entry_v]; exact hx i
  rw [Flash.flash_final (V2 m ρ) c hQ hK hV, entry_q, entry_k, entry_v]
  exact attnOf_proj _ _ _

end Cert.KernelIdeal.Whole

end
-- ==== Proof.RefValue.lean ====
/-
  The reference's run, read at an index: its result array is `Cert.Attention.attn` of the three argument arrays.

  Stage by stage, each array the reference computes is read at an index written with literal coordinates:
  the two projections x · Rᵀ and x · Eᵀ (a transposed matrix read at (e, k) is the matrix at (k, e)), the logits
  (the key projection transposed again, so row p of the queries meets row j of the keys) times the scale
  1 / √1024 = 2⁻⁵, the row maximum (a fold of max from −∞, then max with −∞ once more), the exponentials of the
  differences, their row sums (from 0), the quotients, and the final product with the tokens.
-/
import proofs.«102218_j65481071395329_2_alg».proof.Proof.Gen.ReferenceIdeal.Read
import proofs.«102218_j65481071395329_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Attention

/-! ## The constants -/

/-- The pattern of negative infinity denotes the bottom element. -/
theorem ofBits_ninf : Ideal.ofBits .f32 0xFF800000#32 = (⊥ : EReal) := by
  simp [Ideal.ofBits, Ideal.ieee]

/-- The pattern `0x44800000` denotes the real 1024. -/
theorem ofBits_1024 : Ideal.ofBits .f32 0x44800000#32 = ((1024 : ℝ) : EReal) := by
  simp [Ideal.ofBits, Ideal.ieee, -EReal.coe_mul]; norm_num

/-- The pattern `0x3F800000` denotes the real 1. -/
theorem ofBits_one : Ideal.ofBits .f32 0x3F800000#32 = ((1 : ℝ) : EReal) := by
  simp [Ideal.ofBits, Ideal.ieee, -EReal.coe_mul]; norm_num

/-- The pattern `0x3D000000` denotes 2⁻⁵ = 1/32. -/
theorem scale_eq : Cert.Attention.scale = ((1 / 32 : ℝ) : EReal) := by
  unfold Cert.Attention.scale
  simp [Ideal.ofBits, Ideal.ieee, -EReal.coe_mul]; norm_num

/-- √1024 = 32. -/
theorem sqrt_1024 : Real.sqrt 1024 = 32 := by
  rw [show (1024 : ℝ) = 32 ^ 2 by norm_num]
  exact Real.sqrt_sq (by norm_num)

/-- 1 / √1024, as the reference computes it, is 1/32. -/
theorem one_div_sqrt : Ideal.div (((1 : ℝ) : EReal)) (Ideal.sqrt ((1024 : ℝ) : EReal)) = ((1 / 32 : ℝ) : EReal) := by
  rw [Ideal.sqrt_coe, if_neg (by norm_num), sqrt_1024, Ideal.div_coe (by norm_num : (32 : ℝ) ≠ 0)]
  rw [← EReal.coe_mul, one_mul]

/-! ## The projections and the logits -/

section Stages

variable (x : (⟨S8192x1024, .f32⟩ : BufTy).Contents (Elt Ideal)) (R E W : (⟨S1024x1024, .f32⟩ : BufTy).Contents (Elt Ideal))

/-- The transposed matrix read at (e, k) is the matrix at (k, e). -/
theorem idx_v0 (e k : Fin 1024) : idx_main_v0 (ix2 e k) = ix2 k e :=
  funext fun a => Fin.ext (by match a with | ⟨0, _⟩ => rfl | ⟨1, _⟩ => rfl)

theorem v0_at (e k : Fin 1024) : val_main_v0 (F := Ideal) W (ix2 e k) = W (ix2 k e) :=
  (val_main_v0_apply W _).trans (congrArg W (idx_v0 e k))

theorem idx_v2 (e k : Fin 1024) : idx_main_v2 (ix2 e k) = ix2 k e :=
  funext fun a => Fin.ext (by match a with | ⟨0, _⟩ => rfl | ⟨1, _⟩ => rfl)

theorem v2_at (e k : Fin 1024) : val_main_v2 (F := Ideal) W (ix2 e k) = W (ix2 k e) :=
  (val_main_v2_apply W _).trans (congrArg W (idx_v2 e k))

theorem lidx_v1 (p : Fin 8192) (k e : Fin 1024) : lidx_main_v1 (ix2 p k) e = ix2 p e :=
  funext fun a => Fin.ext (by match a with | ⟨0, _⟩ => rfl | ⟨1, _⟩ => rfl)

theorem ridx_v1 (p : Fin 8192) (k e : Fin 1024) : ridx_main_v1 (ix2 p k) e = ix2 e k :=
  funext fun a => Fin.ext (by match a with | ⟨0, _⟩ => rfl | ⟨1, _⟩ => rfl)

/-- The query projection: entry (p, k) of x · Rᵀ. -/
theorem v1_at (p : Fin 8192) (k : Fin 1024) : val_main_v1 (F := Ideal) x W (ix2 p k) = proj x W p k := by
  rw [val_main_v1_apply]
  unfold proj
  refine Finset.sum_congr rfl fun e _ => ?_
  rw [lidx_v1, ridx_v1, v0_at]

theorem lidx_v3 (p : Fin 8192) (k e : Fin 1024) : lidx_main_v3 (ix2 p k) e = ix2 p e :=
  funext fun a => Fin.ext (by match a with | ⟨0, _⟩ => rfl | ⟨1, _⟩ => rfl)

theorem ridx_v3 (p : Fin 8192) (k e : Fin 1024) : ridx_main_v3 (ix2 p k) e = ix2 e k :=
  funext fun a => Fin.ext (by match a with | ⟨0, _⟩ => rfl | ⟨1, _⟩ => rfl)

/-- The key projection: entry (j, k) of x · Eᵀ. -/
theorem v3_at (j : Fin 8192) (k : Fin 1024) : val_main_v3 (F := Ideal) x W (ix2 j k) = proj x W j k := by
  rw [val_main_v3_apply]
  unfold proj
  refine Finset.sum_congr rfl fun e _ => ?_
  rw [lidx_v3, ridx_v3, v2_at]

theorem idx_v6 (k : Fin 1024) (j : Fin 8192) : idx_main_v6 (ix2 k j) = ix2 j k :=
  funext fun a => Fin.ext (by match a with | ⟨0, _⟩ => rfl | ⟨1, _⟩ => rfl)

/-- The transposed key projection at (k, j) is the key projection at (j, k). -/
theorem v6_at (k : Fin 1024) (j : Fin 8192) : val_main_v6 (F := Ideal) x W (ix2 k j) = proj x W j k := by
  rw [val_main_v6_apply, idx_v6, v3_at]

theorem lidx_v7 (p j : Fin 8192) (k : Fin 1024) : lidx_main_v7 (ix2 p j) k = ix2 p k :=
  funext fun a => Fin.ext (by match a with | ⟨0, _⟩ => rfl | ⟨1, _⟩ => rfl)

theorem ridx_v7 (p j : Fin 8192) (k : Fin 1024) : ridx_main_v7 (ix2 p j) k = ix2 k j :=
  funext fun a => Fin.ext (by match a with | ⟨0, _⟩ => rfl | ⟨1, _⟩ => rfl)

/-- The unscaled logit: query row p against key row j. -/
theorem v7_at (p j : Fin 8192) :
    val_main_v7 (F := Ideal) x R E (ix2 p j) = ∑ k : Fin 1024, proj x R p k * proj x E j k := by
  rw [val_main_v7_apply]
  refine Finset.sum_congr rfl fun k _ => ?_
  rw [lidx_v7, ridx_v7, v1_at, v6_at]

end Stages

/-! ## The scale -/

/-- The broadcast scale is the specification's constant 2⁻⁵ at every index. -/
theorem v8_at (i : S8192x8192.Idx) : val_main_v8 (F := Ideal) i = Cert.Attention.scale := by
  rw [val_main_v8_apply, val_main_v5_apply, val_main_cst_0_apply, val_main_v4_apply, val_main_cst_apply,
    Ideal.hostDivf_def, Ideal.hostUnary_sqrt_def, Ideal.ofBits_def, Ideal.ofBits_def, ofBits_one, ofBits_1024,
    one_div_sqrt, scale_eq]

/-- Two folds of max over the same finite index type agree when their initial values and their functions do. -/
theorem fold_max_congr {n : Nat} (f g : Fin n → EReal) (a b : EReal) (hab : a = b) (hfg : ∀ k, f k = g k) :
    (Finset.univ : Finset (Fin n)).fold max a f = (Finset.univ : Finset (Fin n)).fold max b g := by
  subst hab
  rw [show f = g from funext hfg]

section Softmax

variable (x : (⟨S8192x1024, .f32⟩ : BufTy).Contents (Elt Ideal)) (R E : (⟨S1024x1024, .f32⟩ : BufTy).Contents (Elt Ideal))

/-- The scaled logit. -/
theorem v9_at (p j : Fin 8192) : val_main_v9 (F := Ideal) x R E (ix2 p j) = logit x R E p j := by
  rw [val_main_v9_apply, Ideal.mulf_def, v7_at, v8_at]
  rfl

/-! ## The row maximum -/

/-- The reduced index p with the key coordinate k put back is (p, k). -/
theorem lift_v10 (h : S8192x8192.Reduces [1] S8192) (p : Fin 8192) (k : Fin (S8192x8192.size 1)) :
    h.lift (ix1 p) k = ix2 p (⟨k.val, k.isLt⟩ : Fin 8192) :=
  funext fun a => Fin.ext (by match a with | ⟨0, _⟩ => rfl | ⟨1, _⟩ => rfl)

/-- The maximum-reduce over the keys, from −∞, is the fold of max from ⊥ over the row's logits. -/
theorem v10_at (p : Fin 8192) :
    val_main_v10 (F := Ideal) x R E (ix1 p) = (Finset.univ : Finset (Fin 8192)).fold max ⊥ (logit x R E p) := by
  unfold val_main_v10
  have h : S8192x8192.Reduces [1] S8192 := by decide
  have hy : ∀ k : Fin 8192, val_main_v9 (F := Ideal) x R E (ix2 p k) = logit x R E p k := fun k => v9_at x R E p k
  have hi : val_main_cst_1 (F := Ideal) (Shape.Idx.first h_S_) = (⊥ : EReal) := by
    rw [val_main_cst_1_apply, Ideal.ofBits_def, ofBits_ninf]
  generalize val_main_v9 (F := Ideal) x R E = y at hy ⊢
  generalize val_main_cst_1 (F := Ideal) = c at hi ⊢
  refine (Host.reduce_eq_fold_single (FloatOps.maximumf (F := Ideal) (φ := .f32)) y c reducesTo_S8192x8192_S8192_d1 h h_S_ (ix1 p)).trans ?_
  exact fold_max_congr (n := 8192) (y ∘ h.lift (ix1 p)) (logit x R E p) _ ⊥ hi
    (fun k => (congrArg y (lift_v10 h p k)).trans (hy k))

/-- The guarded row maximum (max with −∞ again) is the specification's row maximum. -/
theorem v12_at (p : Fin 8192) : val_main_v12 (F := Ideal) x R E (ix1 p) = rowMax x R E p := by
  rw [val_main_v12_apply, Ideal.maximumf_def, val_main_v11_apply, val_main_cst_2_apply, Ideal.ofBits_def, ofBits_ninf, v10_at]
  unfold rowMax
  exact max_eq_right bot_le

theorem idx_v13_v14 (p j : Fin 8192) : idx_main_v13 (idx_main_v14 (ix2 p j)) = ix1 p :=
  funext fun a => Fin.ext (by match a with | ⟨0, _⟩ => rfl)

/-- The row maximum, broadcast along the keys. -/
theorem v14_at (p j : Fin 8192) : val_main_v14 (F := Ideal) x R E (ix2 p j) = rowMax x R E p := by
  rw [val_main_v14_apply, val_main_v13_apply, idx_v13_v14, v12_at]

/-! ## The weights and their row sum -/

/-- The unnormalised softmax weight. -/
theorem v16_at (p j : Fin 8192) : val_main_v16 (F := Ideal) x R E (ix2 p j) = weight x R E p j := by
  rw [val_main_v16_apply, Ideal.hostUnary_exp_def, val_main_v15_apply, Ideal.subf_def, v9_at, v14_at]
  rfl

theorem idx_v17 (p k : Fin 8192) : idx_main_v17 (ix1 p) k = ix2 p k :=
  funext fun a => Fin.ext (by match a with | ⟨0, _⟩ => rfl | ⟨1, _⟩ => rfl)

/-- The add-reduce over the keys, from 0, is the row's normaliser. -/
theorem v17_at (p : Fin 8192) : val_main_v17 (F := Ideal) x R E (ix1 p) = rowSum x R E p := by
  rw [val_main_v17_apply, val_main_cst_3_apply, Ideal.ofBits_def, Ideal.ofBits_zero_f32, zero_add]
  unfold rowSum
  refine Finset.sum_congr rfl fun k _ => ?_
  rw [idx_v17, v16_at]

theorem idx_v18_v19 (p j : Fin 8192) : idx_main_v18 (idx_main_v19 (ix2 p j)) = ix1 p :=
  funext fun a => Fin.ext (by match a with | ⟨0, _⟩ => rfl)

/-- The normaliser, broadcast along the keys. -/
theorem v19_at (p j : Fin 8192) : val_main_v19 (F := Ideal) x R E (ix2 p j) = rowSum x R E p := by
  rw [val_main_v19_apply, val_main_v18_apply, idx_v18_v19, v17_at]

/-- The normalised softmax score. -/
theorem v20_at (p j : Fin 8192) :
    val_main_v20 (F := Ideal) x R E (ix2 p j) = Ideal.div (weight x R E p j) (rowSum x R E p) := by
  rw [val_main_v20_apply, Ideal.hostDivf_def, v16_at, v19_at]

/-! ## The result -/

theorem lidx_v21 (p : Fin 8192) (d : Fin 1024) (j : Fin 8192) : lidx_main_v21 (ix2 p d) j = ix2 p j :=
  funext fun a => Fin.ext (by match a with | ⟨0, _⟩ => rfl | ⟨1, _⟩ => rfl)

theorem ridx_v21 (p : Fin 8192) (d : Fin 1024) (j : Fin 8192) : ridx_main_v21 (ix2 p d) j = ix2 j d :=
  funext fun a => Fin.ext (by match a with | ⟨0, _⟩ => rfl | ⟨1, _⟩ => rfl)

/-- The scores times the tokens, at entry (p, d). -/
theorem v21_at (p : Fin 8192) (d : Fin 1024) :
    val_main_v21 (F := Ideal) x R E (ix2 p d)
      = ∑ j : Fin 8192, Ideal.div (weight x R E p j) (rowSum x R E p) * x (ix2 j d) := by
  rw [val_main_v21_apply]
  refine Finset.sum_congr rfl fun j _ => ?_
  rw [lidx_v21, ridx_v21, v20_at]

end Softmax

/-- The reference's result array is, index by index, softmax attention of the tokens over themselves. -/
theorem ref_eq (x0 : (⟨S8192x1024, .f32⟩ : BufTy).Contents (Elt Ideal))
    (x1 x2 : (⟨S1024x1024, .f32⟩ : BufTy).Contents (Elt Ideal)) :
    Cert.ReferenceIdeal.Read.val_main_v21 (F := Ideal) x0 x1 x2 = Cert.Attention.attn x0 x1 x2 := by
  funext i
  obtain ⟨p, d, rfl⟩ : ∃ (p : Fin 8192) (d : Fin 1024), i = ix2 p d := ⟨i 0, i 1, eq_ix2 i⟩
  exact v21_at x0 x1 x2 p d

/-! ## The run, restated at the specification -/

section Run

open Idealize.ShloMosaic.TcCoe Idealize.SL.Sem Idealize.ShloMosaic.StableHlo

/-- On every device, from any memory with zero counters: every weakly fair execution of the reference terminates with
    its result array at softmax attention of the three argument arrays, and the arguments unchanged. -/
theorem run_attn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = Cert.Attention.attn (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v21_eq (F := Ideal) (m ((c.tc : Thread nD τ).loc main_arg0))
        (m ((c.tc : Thread nD τ).loc main_arg1)) (m ((c.tc : Thread nD τ).loc main_arg2))).trans (ref_eq _ _ _)), (h c).2⟩)
    (Cert.ReferenceIdeal.Value.run (F := Ideal) m ρ)

end Run

end Cert.ReferenceIdeal.RefValue

end
-- ==== Proof.lean ====
/-
  A flash-attention kernel against softmax attention.

  The kernel program is two launches with a change of float format between them: the first stores, block of rows by
  block of rows, the tokens times the transposes of two weight matrices (queries and keys); the second walks, for each
  block of 512 query rows, the 16 blocks of 512 key rows, keeping a running row maximum, a running row sum and a
  running weighted sum of the token rows (the values), rescaling the sums whenever the maximum grows, and at the last
  key block stores the weighted sum divided by the row sum. The reference forms all 8192 x 8192 scaled logits, takes a
  row softmax and multiplies by the tokens.

  On the extended reals the two are one function of the three arguments: the online recurrence over the key blocks
  telescopes to the one-pass softmax-weighted sum (the rescaling factors are exp of the change of maximum, and
  exp (a) · exp (b) = exp (a + b) on reals — this is where finiteness of the inputs is used: every logit is then a
  real number and the normaliser a positive real), the 16 blocks of 512 keys are the 8192 keys, and the kernel's scale
  2⁻⁵ is the reference's 1 / √1024. The three frames: each kernel launch is run point by point by the symbolic executor
  (the attention launch in three cases — a query block's first, middle and last key block — with an invariant that
  carries the scratch buffers' contents from point to point), and the reference is its generated run.
-/
import proofs.«102218_j65481071395329_2_alg».proof.Defs
import proofs.«102218_j65481071395329_2_alg».proof.Proof.Gen.Kernel
import proofs.«102218_j65481071395329_2_alg».proof.Proof.Gen.KernelIdeal
import proofs.«102218_j65481071395329_2_alg».proof.Proof.Gen.ReferenceIdeal
import proofs.«102218_j65481071395329_2_alg».proof.Proof.Gen.Pre_finite_inputs
import proofs.«102218_j65481071395329_2_alg».proof.Proof.Kernel.Whole
import proofs.«102218_j65481071395329_2_alg».proof.Proof.KernelIdeal.Whole
import proofs.«102218_j65481071395329_2_alg».proof.Proof.KernelIdeal.Value
import proofs.«102218_j65481071395329_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_kernel : Cert.frame_Kernel := fun m ρ _ => Cert.Kernel.Whole.frame (F := Bits) m ρ

/-- So does the idealized kernel program. -/
theorem frame_kernelIdeal : Cert.frame_KernelIdeal := fun m ρ _ => Cert.KernelIdeal.Whole.frame (F := Ideal) m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories agreeing on the three arguments, both idealized programs end with the result array at row-softmax
    attention of the tokens over themselves: the kernel by the online recurrence, the reference stage by stage. -/
theorem algebraic : Cert.algebraic_KernelIdeal_ReferenceIdeal := by
  intro m ρ m' ρ' hpre hagree
  refine ⟨fun c => Cert.Attention.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Whole.kernel_value m ρ hpre c), (h c).2⟩)
      (Cert.KernelIdeal.Whole.run_main (F := Ideal) m ρ)
  · exact (θ_run Cert.ReferenceIdeal.defs _ _).mono
      (fun _ h c => ⟨(h c).1.trans (by rw [(hagree c).1, (hagree c).2.1, (hagree c).2.2]), (h c).2⟩)
      (Cert.ReferenceIdeal.RefValue.run_attn m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
